-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x256x64 : Shape := ⟨3, ![1, 256, 64]⟩
abbrev S256x1 : Shape := ⟨2, ![256, 1]⟩
abbrev S256x64 : Shape := ⟨2, ![256, 64]⟩
abbrev S64x256 : Shape := ⟨2, ![64, 256]⟩
abbrev S256x256 : Shape := ⟨2, ![256, 256]⟩
abbrev S256 : Shape := ⟨1, ![256]⟩

abbrev nBuf : Space → Nat
  | .hbm => 29
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S4096x1024, .f32⟩
  | .hbm, ⟨4, _⟩ => ⟨S1024x3072, .f32⟩
  | .hbm, ⟨5, _⟩ => ⟨S1024x3072, .bf16⟩
  | .hbm, ⟨6, _⟩ => ⟨S4096x3072, .bf16⟩
  | .hbm, ⟨7, _⟩ => ⟨S2x2048x3072, .bf16⟩
  | .hbm, ⟨8, _⟩ => ⟨S2x2048x1024, .bf16⟩
  | .hbm, ⟨9, _⟩ => ⟨S2x2048x1024, .bf16⟩
  | .hbm, ⟨10, _⟩ => ⟨S2x2048x1024, .bf16⟩
  | .hbm, ⟨11, _⟩ => ⟨S2x2048x16x64, .bf16⟩
  | .hbm, ⟨12, _⟩ => ⟨S2x16x2048x64, .bf16⟩
  | .hbm, ⟨13, _⟩ => ⟨S32x2048x64, .bf16⟩
  | .hbm, ⟨14, _⟩ => ⟨S2x2048x16x64, .bf16⟩
  | .hbm, ⟨15, _⟩ => ⟨S2x16x2048x64, .bf16⟩
  | .hbm, ⟨16, _⟩ => ⟨S32x2048x64, .bf16⟩
  | .hbm, ⟨17, _⟩ => ⟨S2x2048x16x64, .bf16⟩
  | .hbm, ⟨18, _⟩ => ⟨S2x16x2048x64, .bf16⟩
  | .hbm, ⟨19, _⟩ => ⟨S32x2048x64, .bf16⟩
  | .hbm, ⟨20, _⟩ => ⟨S32x2048x64, .bf16⟩
  | .hbm, ⟨21, _⟩ => ⟨S2x16x2048x64, .bf16⟩
  | .hbm, ⟨22, _⟩ => ⟨S2x2048x16x64, .bf16⟩
  | .hbm, ⟨23, _⟩ => ⟨S2x2048x1024, .bf16⟩
  | .hbm, ⟨24, _⟩ => ⟨S4096x1024, .bf16⟩
  | .hbm, ⟨25, _⟩ => ⟨S1024x1024, .f32⟩
  | .hbm, ⟨26, _⟩ => ⟨S1024x1024, .bf16⟩
  | .hbm, ⟨27, _⟩ => ⟨S4096x1024, .f32⟩
  | .hbm, ⟨28, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1x256x64, .bf16⟩
  | .local _ .vmem, ⟨7, _⟩ => ⟨S1x256x64, .bf16⟩
  | .local _ .vmem, ⟨8, _⟩ => ⟨S1x256x64, .bf16⟩
  | .local _ .vmem, ⟨9, _⟩ => ⟨S1x256x64, .bf16⟩
  | .local _ .vmem, ⟨10, _⟩ => ⟨S1x256x64, .bf16⟩
  | .local _ .vmem, ⟨11, _⟩ => ⟨S1x256x64, .bf16⟩
  | .local _ .vmem, ⟨12, _⟩ => ⟨S1x256x64, .bf16⟩
  | .local _ .vmem, ⟨13, _⟩ => ⟨S1x256x64, .bf16⟩
  | .local _ .vmem, ⟨14, _⟩ => ⟨S256x1, .f32⟩
  | .local _ .vmem, ⟨15, _⟩ => ⟨S256x1, .f32⟩
  | .local _ .vmem, ⟨16, _⟩ => ⟨S256x64, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![32, 8, 8], ![false, false, false]⟩

def k1_cond3 (i : grid1.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x256x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x2048x1024_S4096x1024 : S2x2048x1024.ShapeCasts S4096x1024
  transposes_S3072x1024_S1024x3072_1_0 : S3072x1024.Transposes [1, 0] S1024x3072
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S4096x3072_S2x2048x3072 : S4096x3072.ShapeCasts S2x2048x3072
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  transposes_S256x64_p1_0_S64x256 : S256x64.Transposes [1, 0] S64x256
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  shapeCasts_S256x64_S1x256x64 : S256x64.ShapeCasts S1x256x64
  packedbf16_S1x256x64_S1x256x64_0_0_0 : (Rect.unit (s := S1x256x64) ![0, 0, 0] S1x256x64.size inb_S1x256x64_S1x256x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  transposes_S1024x1024_S1024x1024_1_0 : S1024x1024.Transposes [1, 0] S1024x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S256x64_S64x256_S256x256_1_0_0_1_n_n_wf : DotDims.WF S256x64 S64x256 S256x256 [1] [0] [0] [1] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S32x2048x64.size a
  hwx1_0 : ∀ i : grid1.Coords, EltTy.bits .bf16 = 32 ∨ (Rect.block (s := S32x2048x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x64.size a ≤ S32x2048x64.size a
  hwx1_1 : ∀ i : grid1.Coords, EltTy.bits .bf16 = 32 ∨ (Rect.block (s := S32x2048x64) S1x256x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x64.size a ≤ S32x2048x64.size a
  hwx1_2 : ∀ i : grid1.Coords, EltTy.bits .bf16 = 32 ∨ (Rect.block (s := S32x2048x64) S1x256x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x64.size a ≤ S32x2048x64.size a
  hwx1_3 : ∀ i : grid1.Coords, EltTy.bits .bf16 = 32 ∨ (Rect.block (s := S32x2048x64) S1x256x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v21) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .i1⟩
  | .hbm, ⟨19, _⟩ => ⟨S2048x2048, .i1⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S1x1x2048x2048, .i1⟩
  | .hbm, ⟨30, _⟩ => ⟨S_, .f32⟩
  | .hbm, ⟨31, _⟩ => ⟨S2x16x2048x2048, .i1⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S_, .f32⟩
  | .hbm, ⟨37, _⟩ => ⟨S2x16x2048, .f32⟩
  | .hbm, ⟨38, _⟩ => ⟨S2x16x2048, .f32⟩
  | .hbm, ⟨39, _⟩ => ⟨S2x16x2048x1, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x64, .f32⟩
  | .hbm, ⟨49, _⟩ => ⟨S2x2048x16x64, .f32⟩
  | .hbm, ⟨50, _⟩ => ⟨S2x2048x1024, .f32⟩
  | .hbm, ⟨51, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KRegion0.lean ====
/-
  Region 0 of @main (custom_call 0, the tiled product of the rounded input with the rounded joint projection weight, grid 8 by 3) at a parameter V: the TensorCore's buffer contents when the region is entered.
  Window w's block at grid point t is the rectangle of w's array that the window's index map selects there, read off V.
  The body reads its two input blocks whole and overwrites its output block whole with the payload of the two reads
  (the block product), so after the body each input buffer still holds its block and the output buffer holds that
  payload; this file states those contents (`iblk0`, `out0_2`), proves the body's triple against them, collects
  them as the pipeline's proof data (`dat0`) and discharges the pipeline's obligation on the body at every grid point.
-/
import proofs.«112669_j738734375717_2_alg».proof.Proof.Gen.Kernel.Launch
import proofs.«112669_j738734375717_2_alg».proof.Proof.Gen.Kernel.Skeleton
import proofs.«112669_j738734375717_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is checked structurally, one step per coordinate of the
-- long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its block index has not moved since the point before, so the block kept from there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S512x1024 := Rect.unit (s := S512x1024) ![0, 0] S512x1024.size inb_S512x1024_S512x1024_0_0

/-! ## What the body leaves in the output window's buffer -/

/-- Window 2's staging buffer after the body, from the input windows' blocks: its one store, of the payload of the
    two reads, laid over the buffer. -/
def out0_2 (x0 : Vec F S512x1024 .f32) (x1 : Vec F S1024x1024 .bf16) : Vec F S512x1024 .bf16 :=
  View.canon [⟨r0_2, k0_pay1 (View.ld x0 r0_0) (View.ld x1 r0_1)⟩]

/-- The store's rectangle is the whole buffer, so it covers every index. -/
theorem cover0_2 (p0 : Vec F S512x1024 .bf16) (y : S512x1024.Idx) :
    ∃ pc ∈ ([⟨r0_2, p0⟩] : List (View.Piece (Elt F) S512x1024 .bf16)), y ∈ pc.1.set :=
  View.cover_of_tiled [⟨r0_2, p0⟩] S512x1024.size (by rfl) y

/-! ## The body's triple -/

set_option maxHeartbeats 1000000 in
/-- The kernel body on whole staging memrefs, the inputs' at read contents `x0`, `x1` and the output's at anything, runs
    to the continuation holding the inputs' as they were and the output's at `out0_2 x0 x1`: two reads of the inputs, a
    read of the output buffer whose value nothing uses, and one store over the whole output buffer. -/
theorem sound_kernel0 (c : Dev nD) (E : Set ℕ) (i : grid0.Coords) (arg0 : Memref sig .tc .vmem S512x1024 .f32) (harg0 : arg0.IsWhole) (arg1 : Memref sig .tc .vmem S1024x1024 .bf16) (harg1 : arg1.IsWhole) (arg2 : Memref sig .tc .vmem S512x1024 .bf16) (harg2 : arg2.IsWhole)
    (x0 : Vec F S512x1024 .f32) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0` applies;
    the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on its body, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KRuns1.lean ====
/- Region 1 of @main (the causal flash-attention kernel) — what its five control cases' runs share: each window's
   block at a point, read off the array as the region finds it; the three branch conditions of the body and their
   closed forms over the grid; where the output window is idle and where it is written back; the staging and scratch
   memrefs; and the region's invariant with the three scratch buffers singled out of the core's scoped rest. Everything
   is stated at a parameter `V`, the TensorCore's buffer contents when the region is entered. -/
import proofs.«112669_j738734375717_2_alg».proof.Proof.Gen.Kernel.Launch
import proofs.«112669_j738734375717_2_alg».proof.Proof.Gen.Kernel.Skeleton
import proofs.«112669_j738734375717_2_alg».proof.Proof.Gen.Kernel.Points
import Idealize.ShloMosaic.Lib.Pipeline.FrameBody
import Idealize.ShloMosaic.Lib.Ring
import Idealize.ShloMosaic.Lib.Tactic

-- membership in a rectangle of production extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents' (`hA`) and whose body leaves the block in place (`hafter`): unfetched,
    the block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' (`hA`) and whose body leaves the block in place (`hafter`): unfetched,
    the block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' (`hA`) and whose body leaves the block in place (`hafter`): unfetched,
    the block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's branch conditions

A point `t` of the grid (32, 8, 8) has key-block index `ki = t % 8` and query-block index `qi = t / 8 % 8`. -/

/-- The condition of the body's first `scf.if` (`ki = 0`: initialise the running maximum, the normaliser and the
    accumulator), from the grid coordinates. -/
abbrev cond1_0 (i : grid1.Coords) : Prop := (Scalar.cmpi .ne (Scalar.extui (Scalar.cmpi .eq (BitVec.ofNat 32 (i 2).val) 0#32)) 0#32) = 1#1
/-- It holds where the key-block index is 0 — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (`ki ≤ qi`: the key block is not wholly above the diagonal, so
    the online-softmax update runs), from the grid coordinates. -/
abbrev cond1_1 (i : grid1.Coords) : Prop := (Scalar.cmpi .ne (Scalar.extui (Scalar.cmpi .sle (BitVec.ofNat 32 (i 2).val) (BitVec.ofNat 32 (i 1).val))) 0#32) = 1#1
/-- It holds where the key-block index is at most the query-block index — decided over the grid. -/
theorem hcond1_1 : ∀ t : Fin cfg1.N, cond1_1 (grid1.coords t) ↔ t.val % 8 ≤ t.val / 8 % 8 :=
  (by decide +kernel : ∀ t : Fin grid1.N, cond1_1 (grid1.coords t) ↔ t.val % 8 ≤ t.val / 8 % 8)

/-- The condition of the body's third `scf.if` (`ki = 7`, the last key block: normalise the accumulator into the
    output block), from the grid coordinates. -/
abbrev cond1_2 (i : grid1.Coords) : Prop := k1_cond3 i = 1#1
/-- It holds where the key-block index is 7 — decided over the grid. -/
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the third condition fails the configuration calls the output window idle: the body stores nothing into it. -/
theorem idleAt1_3 (t : Fin cfg1.N) (h : ¬cond1_2 (grid1.coords t)) : cfg1.idle 3 (grid1.coords t) = true := by
  show (!(k1_cond3 (grid1.coords t) == 1#1)) = true
  rw [Bool.not_eq_true', beq_eq_false_iff_ne]; exact h
/-- There the pipeline does not write the output block back either: it is written back at `ki = 7` only. -/
theorem noFlush1_3 (t : Fin cfg1.N) (h : ¬cond1_2 (grid1.coords t)) : (cfg1.win 3).flush t = false :=
  Bool.eq_false_iff.mpr fun hf => h ((hcond1_2 t).mpr ((flush1_3 t).mp hf))
/-- Where the third condition holds the output window is live: the body stores its block. -/
theorem liveAt1_3 (t : Fin cfg1.N) (h : cond1_2 (grid1.coords t)) : cfg1.idle 3 (grid1.coords t) = false := by
  show (!(k1_cond3 (grid1.coords t) == 1#1)) = false
  rw [show k1_cond3 (grid1.coords t) = 1#1 from h]; rfl

/-! ## The staging and scratch memrefs -/

/-- One staging buffer of the output window, through which its contents are stated (the choice does not matter). -/
abbrev VO1_3 : View sig .tc .vmem S1x256x64 .bf16 := (Memref.whole cc1_stg3_0 : Memref sig .tc .vmem S1x256x64 .bf16).view
/-- Each window's current staging memref at point `t`, spelled as the pipeline passes it, and its wholeness. -/
abbrev ms1_0 (t : Fin cfg1.N) : Memref sig .tc .vmem S1x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x64 .bf16 := win1_3.stage (cfg1.slots t 3)
abbrev hs1_3 (t : Fin cfg1.N) : (ms1_3 t).IsWhole := hstage1_3 ((cfg1.slots t 3).cast nbuf1_3)
/-- The scratch operands — the running maximum, the normaliser, the accumulator —: whole scoped buffers of the
    kernel's own, passed beside the windows and carried between points. -/
abbrev scM1_0 : Memref sig .tc .vmem S256x1 .f32 := Memref.whole cc1_scratch0
abbrev scM1_1 : Memref sig .tc .vmem S256x1 .f32 := Memref.whole cc1_scratch1
abbrev scM1_2 : Memref sig .tc .vmem S256x64 .f32 := Memref.whole cc1_scratch2
/-- The same as views: what each holds is stated through them. -/
abbrev VS1_0 : View sig .tc .vmem S256x1 .f32 := scM1_0.view
abbrev VS1_1 : View sig .tc .vmem S256x1 .f32 := scM1_1.view
abbrev VS1_2 : View sig .tc .vmem S256x64 .f32 := scM1_2.view

/-! ## The region's invariant, the three scratch buffers singled out -/

/-- The core's scoped buffers that are no staging buffer of this region, each whole at some contents, and the
    generator register at some state — with the three scratch buffers at `P0`, `P1`, `P2` instead. -/
def Sc1 (c : Dev nD) (P0 P1 P2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P0 ∗ P1 ∗ P2 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

/-- The other regions' staging buffers and the generator register: what the body never touches. -/
def Sc1R (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ r, prngReg c r))

/-- The invariant the launch hands the region is `Sc1` with each scratch buffer owned at some contents. -/
theorem PhiA1_eq (c : Dev nD) :
    (Pipeline.ΦA spec1 c : sProp 𝕄)
      = Sc1 c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA Sc1; rw [scopedRest1_eq]; simp only [scM1_0, scM1_1, scM1_2, owns_whole]; try rfl

/-- The scratch buffers taken out of the invariant, -/
theorem Sc1_split (c : Dev nD) (P0 P1 P2 : sProp 𝕄) : Sc1 (F := F) c P0 P1 P2 ⊢ iprop(P0 ∗ P1 ∗ P2 ∗ Sc1R (F := F) c) := by
  unfold Sc1 Sc1R
  iintro ⟨⟨Ha0, Ha1, Ha2, Ha3, Ha4, Ha5, HS0, HS1, HS2, Hb0, Hb1, Hb2, Hb3, Hb4⟩, Hg⟩
  isplitl [HS0]; · iexact HS0
  isplitl [HS1]; · iexact HS1
  isplitl [HS2]; · iexact HS2
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Hb0]; · iexact Hb0
  isplitl [Hb1]; · iexact Hb1
  isplitl [Hb2]; · iexact Hb2
  isplitl [Hb3]; · iexact Hb3
  isplitl [Hb4]; · iexact Hb4
  iexact Hg

/-- and put back. -/
theorem Sc1_join (c : Dev nD) (P0 P1 P2 : sProp 𝕄) : iprop(P0 ∗ P1 ∗ P2 ∗ Sc1R (F := F) c) ⊢ Sc1 (F := F) c P0 P1 P2 := by
  unfold Sc1 Sc1R
  iintro ⟨HS0, HS1, HS2, Ha0, Ha1, Ha2, Ha3, Ha4, Ha5, Hb0, Hb1, Hb2, Hb3, Hb4, Hg⟩
  isplitr [Hg]
  swap; · iexact Hg
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [HS0]; · iexact HS0
  isplitl [HS1]; · iexact HS1
  isplitl [HS2]; · iexact HS2
  isplitl [Hb0]; · iexact Hb0
  isplitl [Hb1]; · iexact Hb1
  isplitl [Hb2]; · iexact Hb2
  isplitl [Hb3]; · iexact Hb3
  iexact Hb4

end Cert.Kernel.Fr

end
-- ==== Proof.KRun1A.lean ====
/- Region 1 of @main, the whole-body run of the attention kernel in CASE A of its control — the first key block (`ki = 0`): the scratch is initialised, then updated; the output block is not touched. -/
import proofs.«112669_j738734375717_2_alg».proof.Proof.KRuns1

-- membership in a rectangle of production extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- CASE A (`scf.if` 0 taken, `scf.if` 1 taken, `scf.if` 2 not taken): on whole staging memrefs — the inputs' at their contents; the output's at contents `xi3` handed back untouched (no store: the window is idle and not written back at the case's points);
    the three scratch at anything (each is stored whole before it is read) — the body runs to the continuation holding the inputs'
    as they were, each scratch with its pieces written (`LS·`, last first): the printed function is its skeleton,
    which is run operation by operation, each `scf.if` decided by the case's hypotheses; the pieces are the witness that run finds. -/
noncomputable def kernelRun1_A (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    Σ' (LS0 : List (View.Piece (Elt F) S256x1 .f32)) (LS1 : List (View.Piece (Elt F) S256x1 .f32)), { LS2 : List (View.Piece (Elt F) S256x64 .f32) //
      ∀ (xi3 : Vec F S1x256x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.KRun1B.lean ====
/- Region 1 of @main, the whole-body run of the attention kernel in CASE B of its control — a key block at or below the diagonal that is neither the first nor the last (`0 < ki ≤ qi`, `ki < 7`): the scratch is updated; the output block is not touched. -/
import proofs.«112669_j738734375717_2_alg».proof.Proof.KRun1A

-- membership in a rectangle of production extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- CASE B (`scf.if` 0 not taken, `scf.if` 1 taken, `scf.if` 2 not taken): on whole staging memrefs — the inputs' at their contents; the output's at contents `xi3` handed back untouched (no store: the window is idle and not written back at the case's points);
    the three scratch at the contents the point before left (`xs·`) — the body runs to the continuation holding the inputs'
    as they were, each scratch with its pieces written (`LS·`, last first): the printed function is its skeleton,
    which is run operation by operation, each `scf.if` decided by the case's hypotheses; the pieces are the witness that run finds. -/
noncomputable def kernelRun1_B (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    Σ' (LS0 : List (View.Piece (Elt F) S256x1 .f32)) (LS1 : List (View.Piece (Elt F) S256x1 .f32)), { LS2 : List (View.Piece (Elt F) S256x64 .f32) //
      ∀ (xi3 : Vec F S1x256x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.KRun1C.lean ====
/- Region 1 of @main, the whole-body run of the attention kernel in CASE C of its control — a key block wholly above the diagonal that is not the last (`qi < ki < 7`): the body does nothing. -/
import proofs.«112669_j738734375717_2_alg».proof.Proof.KRun1B

-- membership in a rectangle of production extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- CASE C (`scf.if` 0 not taken, `scf.if` 1 not taken, `scf.if` 2 not taken): on whole staging memrefs — the inputs' at their contents; the output's at contents `xi3` handed back untouched (no store: the window is idle and not written back at the case's points);
    the three scratch at the contents the point before left (`xs·`) — the body runs to the continuation holding the inputs'
    as they were, each scratch as it was: the printed function is its skeleton,
    which is run operation by operation, each `scf.if` decided by the case's hypotheses. -/
theorem kernelRun1_C (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : ¬cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ (xi3 : Vec F S1x256x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K := by
  intro xi3 E K
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.Kernel.Fr

end
-- ==== Proof.KRun1D.lean ====
/- Region 1 of @main, the whole-body run of the attention kernel in CASE D of its control — the last key block on the diagonal (`ki = 7 = qi`): the scratch is updated, then the accumulator over the normaliser is stored into the output block. -/
import proofs.«112669_j738734375717_2_alg».proof.Proof.KRun1C

-- membership in a rectangle of production extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- CASE D (`scf.if` 0 not taken, `scf.if` 1 taken, `scf.if` 2 taken): on whole staging memrefs — the inputs' at their contents; the output's at anything;
    the three scratch at the contents the point before left (`xs·`) — the body runs to the continuation holding the inputs'
    as they were, the output's buffer with its pieces written (`L3`), each scratch with its pieces written (`LS·`, last first): the printed function is its skeleton,
    which is run operation by operation, each `scf.if` decided by the case's hypotheses; the pieces are the witness that run finds. -/
noncomputable def kernelRun1_D (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    Σ' (L3 : List (View.Piece (Elt F) S1x256x64 .bf16)) (LS0 : List (View.Piece (Elt F) S256x1 .f32)) (LS1 : List (View.Piece (Elt F) S256x1 .f32)), { LS2 : List (View.Piece (Elt F) S256x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Fr

end
-- ==== Proof.KRun1E.lean ====
/- Region 1 of @main, the whole-body run of the attention kernel in CASE E of its control — the last key block above the diagonal (`ki = 7 > qi`): only the accumulator over the normaliser is stored into the output block. -/
import proofs.«112669_j738734375717_2_alg».proof.Proof.KRun1D

-- membership in a rectangle of production extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- CASE E (`scf.if` 0 not taken, `scf.if` 1 not taken, `scf.if` 2 taken): on whole staging memrefs — the inputs' at their contents; the output's at anything;
    the three scratch at the contents the point before left (`xs·`) — the body runs to the continuation holding the inputs'
    as they were, the output's buffer with its pieces written (`L3`), each scratch as it was: the printed function is its skeleton,
    which is run operation by operation, each `scf.if` decided by the case's hypotheses; the pieces are the witness that run finds. -/
noncomputable def kernelRun1_E (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : ¬cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    { L3 : List (View.Piece (Elt F) S1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Fr

end
-- ==== Proof.KRegion1.lean ====
/- Region 1 of @main (the causal flash-attention kernel), the rest of its half of the frame: what each control case
   leaves in the output block and in the three scratch buffers (covers, contents), what they hold point by point
   (`outsAt1`), the invariant carrying the scratch between points (`PhiS1`), the pipeline's proof data (`dat1`), and the
   body obligation with the invariant's entry and exit — everything at a parameter `V`, the TensorCore's buffer contents
   when the region is entered. -/
import proofs.«112669_j738734375717_2_alg».proof.Proof.KRun1E

-- membership in a rectangle of production extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's pieces for the running maximum (scratch 0) cover it: each is a whole-buffer store. -/
theorem scover1_A_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    ∀ y : S256x1.Idx, ∃ pc ∈ (kernelRun1_A c i arg3 harg3 arg4 harg4 arg5 harg5 arg6 harg6 arg7 harg7 arg8 harg8 arg9 harg9 hc0 hc1 hc2 x0 x1 x2).1, y ∈ pc.1.set :=
  fun y => View.cover_of_tiledL (kernelRun1_A c i arg3 harg3 arg4 harg4 arg5 harg5 arg6 harg6 arg7 harg7 arg8 harg8 arg9 harg9 hc0 hc1 hc2 x0 x1 x2).1 S256x1.size (by sl_kernel_rfl) y

/-- What case A leaves in the running maximum: its pieces read back over junk. -/
def sout1_A_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) : Vec F S256x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

/-- Case A's pieces for the normaliser (scratch 1) cover it: each is a whole-buffer store. -/
theorem scover1_A_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    ∀ y : S256x1.Idx, ∃ pc ∈ (kernelRun1_A c i arg3 harg3 arg4 harg4 arg5 harg5 arg6 harg6 arg7 harg7 arg8 harg8 arg9 harg9 hc0 hc1 hc2 x0 x1 x2).2.1, y ∈ pc.1.set :=
  fun y => View.cover_of_tiledL (kernelRun1_A c i arg3 harg3 arg4 harg4 arg5 harg5 arg6 harg6 arg7 harg7 arg8 harg8 arg9 harg9 hc0 hc1 hc2 x0 x1 x2).2.1 S256x1.size (by sl_kernel_rfl) y

/-- What case A leaves in the normaliser: its pieces read back over junk. -/
def sout1_A_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) : Vec F S256x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

/-- Case A's pieces for the accumulator (scratch 2) cover it: each is a whole-buffer store. -/
theorem scover1_A_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    ∀ y : S256x64.Idx, ∃ pc ∈ (kernelRun1_A c i arg3 harg3 arg4 harg4 arg5 harg5 arg6 harg6 arg7 harg7 arg8 harg8 arg9 harg9 hc0 hc1 hc2 x0 x1 x2).2.2.1, y ∈ pc.1.set :=
  fun y => View.cover_of_tiledL (kernelRun1_A c i arg3 harg3 arg4 harg4 arg5 harg5 arg6 harg6 arg7 harg7 arg8 harg8 arg9 harg9 hc0 hc1 hc2 x0 x1 x2).2.2.1 S256x64.size (by sl_kernel_rfl) y

/-- What case A leaves in the accumulator: its pieces read back over junk. -/
def sout1_A_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) : Vec F S256x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

/-- Case B's pieces for the running maximum (scratch 0) cover it: each is a whole-buffer store. -/
theorem scover1_B_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x1.Idx, ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  fun y => View.cover_of_tiledL (kernelRun1_B c i arg3 harg3 arg4 harg4 arg5 harg5 arg6 harg6 arg7 harg7 arg8 harg8 arg9 harg9 hc0 hc1 hc2 x0 x1 x2 xs0 xs1 xs2).1 S256x1.size (by sl_kernel_rfl) y

/-- What case B leaves in the running maximum: its pieces read back over junk. -/
def sout1_B_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

/-- Case B's pieces for the normaliser (scratch 1) cover it: each is a whole-buffer store. -/
theorem scover1_B_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x1.Idx, ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  fun y => View.cover_of_tiledL (kernelRun1_B c i arg3 harg3 arg4 harg4 arg5 harg5 arg6 harg6 arg7 harg7 arg8 harg8 arg9 harg9 hc0 hc1 hc2 x0 x1 x2 xs0 xs1 xs2).2.1 S256x1.size (by sl_kernel_rfl) y

/-- What case B leaves in the normaliser: its pieces read back over junk. -/
def sout1_B_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

/-- Case B's pieces for the accumulator (scratch 2) cover it: each is a whole-buffer store. -/
theorem scover1_B_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x64.Idx, ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  fun y => View.cover_of_tiledL (kernelRun1_B c i arg3 harg3 arg4 harg4 arg5 harg5 arg6 harg6 arg7 harg7 arg8 harg8 arg9 harg9 hc0 hc1 hc2 x0 x1 x2 xs0 xs1 xs2).2.2.1 S256x64.size (by sl_kernel_rfl) y

/-- What case B leaves in the accumulator: its pieces read back over junk. -/
def sout1_B_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x64 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

/-- Case D's one store into the output block tiles it, so its pieces cover it. -/
theorem cover1_D_3 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S1x256x64.Idx, ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  fun y => View.cover_of_tiledL (kernelRun1_D c i arg3 harg3 arg4 harg4 arg5 harg5 arg6 harg6 arg7 harg7 arg8 harg8 arg9 harg9 hc0 hc1 hc2 x0 x1 x2 xs0 xs1 xs2).1 S1x256x64.size (by sl_kernel_rfl) y

/-- What case D leaves in the output window's staging buffer: its pieces read back over junk. -/
def out1_D_3 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S1x256x64 .bf16 :=
  VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).1)

/-- Case D's pieces for the running maximum (scratch 0) cover it: each is a whole-buffer store. -/
theorem scover1_D_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x1.Idx, ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  fun y => View.cover_of_tiledL (kernelRun1_D c i arg3 harg3 arg4 harg4 arg5 harg5 arg6 harg6 arg7 harg7 arg8 harg8 arg9 harg9 hc0 hc1 hc2 x0 x1 x2 xs0 xs1 xs2).2.1 S256x1.size (by sl_kernel_rfl) y

/-- What case D leaves in the running maximum: its pieces read back over junk. -/
def sout1_D_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).2.1)

/-- Case D's pieces for the normaliser (scratch 1) cover it: each is a whole-buffer store. -/
theorem scover1_D_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x1.Idx, ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  fun y => View.cover_of_tiledL (kernelRun1_D c i arg3 harg3 arg4 harg4 arg5 harg5 arg6 harg6 arg7 harg7 arg8 harg8 arg9 harg9 hc0 hc1 hc2 x0 x1 x2 xs0 xs1 xs2).2.2.1 S256x1.size (by sl_kernel_rfl) y

/-- What case D leaves in the normaliser: its pieces read back over junk. -/
def sout1_D_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.2.1)

/-- Case D's pieces for the accumulator (scratch 2) cover it: each is a whole-buffer store. -/
theorem scover1_D_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x64.Idx, ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  fun y => View.cover_of_tiledL (kernelRun1_D c i arg3 harg3 arg4 harg4 arg5 harg5 arg6 harg6 arg7 harg7 arg8 harg8 arg9 harg9 hc0 hc1 hc2 x0 x1 x2 xs0 xs1 xs2).2.2.2.1 S256x64.size (by sl_kernel_rfl) y

/-- What case D leaves in the accumulator: its pieces read back over junk. -/
def sout1_D_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x64 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.2.1)

/-- Case E's one store into the output block tiles it, so its pieces cover it. -/
theorem cover1_E_3 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : ¬cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S1x256x64.Idx, ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  fun y => View.cover_of_tiledL (kernelRun1_E c i arg3 harg3 arg4 harg4 arg5 harg5 arg6 harg6 arg7 harg7 arg8 harg8 arg9 harg9 hc0 hc1 hc2 x0 x1 x2 xs0 xs1 xs2).1 S1x256x64.size (by sl_kernel_rfl) y

/-- What case E leaves in the output window's staging buffer: its pieces read back over junk. -/
def out1_E_3 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : ¬cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S1x256x64 .bf16 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-- Where the body stores nothing into the output block (the window is idle and not written back): a placeholder
    (junk read back) that nothing consults. -/
def idleOut1_3 : Vec F S1x256x64 .bf16 := VO1_3.read (Elt F) VO1_3.junk

section Entry
variable (V : (c : Dev nD) → (b : Ref sig .tc) → Buf (Elt F) ((c : Thread nD τ).loc b))

/-! ## What the output block and the scratch hold after each point -/

/-- What a point of case A leaves (the output block, then the three scratch): the first key block (`ki = 0`): the scratch is initialised, then updated; the output block is not touched. -/
def step1_A (c : Dev nD) (t : Fin cfg1.N) (h0 : t.val % 8 = 0) (h1 : t.val % 8 ≤ t.val / 8 % 8) (h2 : ¬t.val % 8 = 7) : Vec F S1x256x64 .bf16 × Vec F S256x1 .f32 × Vec F S256x1 .f32 × Vec F S256x64 .f32 :=
  (idleOut1_3,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))

/-- What a point of case B leaves (the output block, then the three scratch), over what the point before left (`p`): a key block at or below the diagonal that is neither the first nor the last (`0 < ki ≤ qi`, `ki < 7`): the scratch is updated; the output block is not touched. -/
def step1_B (c : Dev nD) (t : Fin cfg1.N) (h0 : ¬t.val % 8 = 0) (h1 : t.val % 8 ≤ t.val / 8 % 8) (h2 : ¬t.val % 8 = 7) (p : Vec F S1x256x64 .bf16 × Vec F S256x1 .f32 × Vec F S256x1 .f32 × Vec F S256x64 .f32) : Vec F S1x256x64 .bf16 × Vec F S256x1 .f32 × Vec F S256x1 .f32 × Vec F S256x64 .f32 :=
  (idleOut1_3,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2)

/-- What a point of case C leaves (the output block, then the three scratch), over what the point before left (`p`): a key block wholly above the diagonal that is not the last (`qi < ki < 7`): the body does nothing. -/
def step1_C (c : Dev nD) (t : Fin cfg1.N) (h0 : ¬t.val % 8 = 0) (h1 : ¬t.val % 8 ≤ t.val / 8 % 8) (h2 : ¬t.val % 8 = 7) (p : Vec F S1x256x64 .bf16 × Vec F S256x1 .f32 × Vec F S256x1 .f32 × Vec F S256x64 .f32) : Vec F S1x256x64 .bf16 × Vec F S256x1 .f32 × Vec F S256x1 .f32 × Vec F S256x64 .f32 :=
  (idleOut1_3,
   p.2.1,
   p.2.2.1,
   p.2.2.2)

/-- What a point of case D leaves (the output block, then the three scratch), over what the point before left (`p`): the last key block on the diagonal (`ki = 7 = qi`): the scratch is updated, then the accumulator over the normaliser is stored into the output block. -/
def step1_D (c : Dev nD) (t : Fin cfg1.N) (h0 : ¬t.val % 8 = 0) (h1 : t.val % 8 ≤ t.val / 8 % 8) (h2 : t.val % 8 = 7) (p : Vec F S1x256x64 .bf16 × Vec F S256x1 .f32 × Vec F S256x1 .f32 × Vec F S256x64 .f32) : Vec F S1x256x64 .bf16 × Vec F S256x1 .f32 × Vec F S256x1 .f32 × Vec F S256x64 .f32 :=
  (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2,
   sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2,
   sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2,
   sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2)

/-- What a point of case E leaves (the output block, then the three scratch), over what the point before left (`p`): the last key block above the diagonal (`ki = 7 > qi`): only the accumulator over the normaliser is stored into the output block. -/
def step1_E (c : Dev nD) (t : Fin cfg1.N) (h0 : ¬t.val % 8 = 0) (h1 : ¬t.val % 8 ≤ t.val / 8 % 8) (h2 : t.val % 8 = 7) (p : Vec F S1x256x64 .bf16 × Vec F S256x1 .f32 × Vec F S256x1 .f32 × Vec F S256x64 .f32) : Vec F S1x256x64 .bf16 × Vec F S256x1 .f32 × Vec F S256x1 .f32 × Vec F S256x64 .f32 :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) p.2.1 p.2.2.1 p.2.2.2,
   p.2.1,
   p.2.2.1,
   p.2.2.2)

/-- THE ACCUMULATION. What the output window's staging buffer and the three scratch buffers hold after the body at
    position `n` (the output block, then the running maximum, the normaliser, the accumulator): the case the closed
    forms select at `n`, run at the point's memrefs and input blocks, over what the point before left in the scratch.
    An assignment of the conditions that no point meets is no case. -/
def outsAt1 (c : Dev nD) : (n : ℕ) → n < cfg1.N → Vec F S1x256x64 .bf16 × Vec F S256x1 .f32 × Vec F S256x1 .f32 × Vec F S256x64 .f32
  | 0, hn => step1_A V c ⟨0, hn⟩ (Nat.zero_mod _) (by (try dsimp only); omega) (fun h => by (try dsimp only at h); omega)
  | n + 1, hn =>
    if h0 : (n + 1) % 8 = 0 then
      if h1 : (n + 1) % 8 ≤ (n + 1) / 8 % 8 then
        if h2 : (n + 1) % 8 = 7 then
          False.elim (by omega)
        else
          step1_A V c ⟨n + 1, hn⟩ h0 h1 h2
      else
        False.elim (by omega)
    else
      if h1 : (n + 1) % 8 ≤ (n + 1) / 8 % 8 then
        if h2 : (n + 1) % 8 = 7 then
          step1_D V c ⟨n + 1, hn⟩ h0 h1 h2 (outsAt1 c n (Nat.lt_of_succ_lt hn))
        else
          step1_B V c ⟨n + 1, hn⟩ h0 h1 h2 (outsAt1 c n (Nat.lt_of_succ_lt hn))
      else
        if h2 : (n + 1) % 8 = 7 then
          step1_E V c ⟨n + 1, hn⟩ h0 h1 h2 (outsAt1 c n (Nat.lt_of_succ_lt hn))
        else
          step1_C c ⟨n + 1, hn⟩ h0 h1 h2 (outsAt1 c n (Nat.lt_of_succ_lt hn))

/-- `outsAt1` at a point of case A: that case's contents. -/
theorem outsAt1_A (c : Dev nD) (t : Fin cfg1.N) (h0 : t.val % 8 = 0) (h1 : t.val % 8 ≤ t.val / 8 % 8) (h2 : ¬t.val % 8 = 7) :
    outsAt1 V c t.val t.isLt = step1_A V c t h0 h1 h2 := by
  obtain ⟨n, hn⟩ := t
  cases n with
  | zero => exact rfl
  | succ n => exact (dif_pos h0).trans ((dif_pos h1).trans ((dif_neg h2).trans rfl))

/-- `outsAt1` at a point of case B: that case's contents, over what the point before left. -/
theorem outsAt1_B (c : Dev nD) (t : Fin cfg1.N) (h0 : ¬t.val % 8 = 0) (h1 : t.val % 8 ≤ t.val / 8 % 8) (h2 : ¬t.val % 8 = 7) :
    outsAt1 V c t.val t.isLt = step1_B V c t h0 h1 h2 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a point of case C: that case's contents, over what the point before left. -/
theorem outsAt1_C (c : Dev nD) (t : Fin cfg1.N) (h0 : ¬t.val % 8 = 0) (h1 : ¬t.val % 8 ≤ t.val / 8 % 8) (h2 : ¬t.val % 8 = 7) :
    outsAt1 V c t.val t.isLt = step1_C c t h0 h1 h2 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt1` at a point of case D: that case's contents, over what the point before left. -/
theorem outsAt1_D (c : Dev nD) (t : Fin cfg1.N) (h0 : ¬t.val % 8 = 0) (h1 : t.val % 8 ≤ t.val / 8 % 8) (h2 : t.val % 8 = 7) :
    outsAt1 V c t.val t.isLt = step1_D V c t h0 h1 h2 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- `outsAt1` at a point of case E: that case's contents, over what the point before left. -/
theorem outsAt1_E (c : Dev nD) (t : Fin cfg1.N) (h0 : ¬t.val % 8 = 0) (h1 : ¬t.val % 8 ≤ t.val / 8 % 8) (h2 : t.val % 8 = 7) :
    outsAt1 V c t.val t.isLt = step1_E V c t h0 h1 h2 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region's invariant before position `n`: before the first point what the launch hands the region (every scratch
    buffer at anything); afterwards the same with each scratch buffer at what the point before left in it. -/
def PhiS1 (c : Dev nD) : (n : ℕ) → n ≤ cfg1.N → sProp 𝕄
  | 0, _ => Pipeline.ΦA spec1 c
  | n + 1, hn => Sc1 c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2)

theorem PhiS1_zero (c : Dev nD) (n : ℕ) (h : n ≤ cfg1.N) (hz : n = 0) : PhiS1 V c n h = Pipeline.ΦA spec1 c := by
  subst hz; rfl

/-- After point `n` (before point `n + 1`): each scratch buffer at that point's contents. -/
theorem PhiS1_succ (c : Dev nD) (n : ℕ) (hn : n < cfg1.N) :
    PhiS1 V c (n + 1) hn = Sc1 c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) := rfl

/-- Before a point that is not the first: each scratch buffer at what the point before left. -/
theorem PhiS1_pos (c : Dev nD) (n : ℕ) (h : n ≤ cfg1.N) (hz : n ≠ 0) :
    PhiS1 V c n h = Sc1 c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at a point of case A — the first key block (`ki = 0`): the scratch is initialised, then updated; the output block is not touched: the inputs' memrefs hold their blocks, the case's run applies,
    the invariant hands over the scratch buffers and takes them back at this point's contents, the other scoped buffers, the
    generator register and the core's debts pass through. -/
theorem sound_body1_A (c : Dev nD) (t : Fin cfg1.N) (h0 : t.val % 8 = 0) (h1 : t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2048 := lt_of_lt_of_eq t.isLt (show cfg1.N = 2048 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_A V c t h0 h1 h2]
  unfold step1_A sout1_A_0 sout1_A_1 sout1_A_2; (try dsimp only)
  by_cases hz : t.val = 0
  · rw [PhiS1_castSucc V c t, PhiS1_zero V c _ _ hz, PhiA1_eq]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 HR]
    · iapply (Sc1_join c _ _ _)
      isplitl [HS0]
      · unfold owns; iexists _; isplitr
        swap; · iexact HS0
        ipureintro; exact View.read_writes_of_cover _ _ _ _ _ (scover1_A_0 c _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _)
      iexact HR
    isplitl [Ho]; · iexact Ho
    isplitl [H0]; · iexact H0
    isplitl [H1]; · iexact H1
    isplitl [H2]; · iexact H2
    iexists _; iexact H3
  · rw [PhiS1_castSucc V c t, PhiS1_pos V c _ _ hz]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, ⟨%es0, HS0⟩, ⟨%es1, HS1⟩, ⟨%es2, HS2⟩⟩
    isplitl [HS0 HS1 HS2 HR]
    · iapply (Sc1_join c _ _ _)
      isplitl [HS0]
      · unfold owns; iexists _; isplitr
        swap; · iexact HS0
        ipureintro; exact View.read_writes_of_cover _ _ _ _ _ (scover1_A_0 c _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _)
      iexact HR
    isplitl [Ho]; · iexact Ho
    isplitl [H0]; · iexact H0
    isplitl [H1]; · iexact H1
    isplitl [H2]; · iexact H2
    iexists _; iexact H3

set_option maxHeartbeats 8000000 in
/-- The body at a point of case B — a key block at or below the diagonal that is neither the first nor the last (`0 < ki ≤ qi`, `ki < 7`): the scratch is updated; the output block is not touched: the inputs' memrefs hold their blocks, the case's run applies,
    the invariant hands over the scratch buffers and takes them back at this point's contents, the other scoped buffers, the
    generator register and the core's debts pass through. -/
theorem sound_body1_B (c : Dev nD) (t : Fin cfg1.N) (h0 : ¬t.val % 8 = 0) (h1 : t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2048 := lt_of_lt_of_eq t.isLt (show cfg1.N = 2048 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_B V c t h0 h1 h2]
  unfold step1_B sout1_B_0 sout1_B_1 sout1_B_2; (try dsimp only)
  by_cases hz : t.val = 0
  · exfalso; omega
  · rw [PhiS1_castSucc V c t, PhiS1_pos V c _ _ hz]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 HR]
    · iapply (Sc1_join c _ _ _)
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    iexists _; iexact H3

set_option maxHeartbeats 8000000 in
/-- The body at a point of case C — a key block wholly above the diagonal that is not the last (`qi < ki < 7`): the body does nothing: the inputs' memrefs hold their blocks, the case's run applies,
    the invariant hands over the scratch buffers and takes them back at this point's contents, the other scoped buffers, the
    generator register and the core's debts pass through. -/
theorem sound_body1_C (c : Dev nD) (t : Fin cfg1.N) (h0 : ¬t.val % 8 = 0) (h1 : ¬t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2048 := lt_of_lt_of_eq t.isLt (show cfg1.N = 2048 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_C V c t h0 h1 h2]
  unfold step1_C; (try dsimp only)
  by_cases hz : t.val = 0
  · exfalso; omega
  · rw [PhiS1_castSucc V c t, PhiS1_pos V c _ _ hz]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply (kernelRun1_C c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _ _ _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 HR]
    · iapply (Sc1_join c _ _ _)
      isplitl [HS0]; · iexact HS0
      isplitl [HS1]; · iexact HS1
      isplitl [HS2]; · iexact HS2
      iexact HR
    isplitl [Ho]; · iexact Ho
    isplitl [H0]; · iexact H0
    isplitl [H1]; · iexact H1
    isplitl [H2]; · iexact H2
    iexists _; iexact H3

set_option maxHeartbeats 8000000 in
/-- The body at a point of case D — the last key block on the diagonal (`ki = 7 = qi`): the scratch is updated, then the accumulator over the normaliser is stored into the output block: the inputs' memrefs hold their blocks, the case's run applies,
    the invariant hands over the scratch buffers and takes them back at this point's contents, the other scoped buffers, the
    generator register and the core's debts pass through. -/
theorem sound_body1_D (c : Dev nD) (t : Fin cfg1.N) (h0 : ¬t.val % 8 = 0) (h1 : t.val % 8 ≤ t.val / 8 % 8) (h2 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2048 := lt_of_lt_of_eq t.isLt (show cfg1.N = 2048 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t ((hcond1_2 t).mpr h2)], after1_3]
  rw [outsAt1_D V c t h0 h1 h2]
  unfold step1_D out1_D_3 sout1_D_0 sout1_D_1 sout1_D_2; (try dsimp only)
  by_cases hz : t.val = 0
  · exfalso; omega
  · rw [PhiS1_castSucc V c t, PhiS1_pos V c _ _ hz]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 HR]
    · iapply (Sc1_join c _ _ _)
      isplitl [HS0]
      · unfold owns; iexists _; isplitr
        swap; · iexact HS0
        ipureintro; exact View.read_writes_of_cover _ _ _ _ _ (scover1_D_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_D_1 c _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_D_2 c _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_D_3 c _ _ _ _ _ _ _ _ _ _ _ _ _ _ _ _ _ _ _ _ _ _ _ _)

set_option maxHeartbeats 8000000 in
/-- The body at a point of case E — the last key block above the diagonal (`ki = 7 > qi`): only the accumulator over the normaliser is stored into the output block: the inputs' memrefs hold their blocks, the case's run applies,
    the invariant hands over the scratch buffers and takes them back at this point's contents, the other scoped buffers, the
    generator register and the core's debts pass through. -/
theorem sound_body1_E (c : Dev nD) (t : Fin cfg1.N) (h0 : ¬t.val % 8 = 0) (h1 : ¬t.val % 8 ≤ t.val / 8 % 8) (h2 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2048 := lt_of_lt_of_eq t.isLt (show cfg1.N = 2048 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t ((hcond1_2 t).mpr h2)], after1_3]
  rw [outsAt1_E V c t h0 h1 h2]
  unfold step1_E out1_E_3; (try dsimp only)
  by_cases hz : t.val = 0
  · exfalso; omega
  · rw [PhiS1_castSucc V c t, PhiS1_pos V c _ _ hz]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply ((kernelRun1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HS0 HS1 HS2 HR]
    · iapply (Sc1_join c _ _ _)
      isplitl [HS0]; · iexact HS0
      isplitl [HS1]; · iexact HS1
      isplitl [HS2]; · iexact HS2
      iexact HR
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_E_3 c _ _ _ _ _ _ _ _ _ _ _ _ _ _ _ _ _ _ _ _ _ _ _ _)

/-- The body at any point: the closed forms say which of the five cases the point is in (the other sign patterns of the
    three conditions meet no point: `ki = 0` excludes `ki = 7` and implies `ki ≤ qi`). -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · by_cases h1 : t.val % 8 ≤ t.val / 8 % 8
    · by_cases h2 : t.val % 8 = 7
      · exfalso; omega
      · exact sound_body1_A V c t h0 h1 h2
    · exfalso; omega
  · by_cases h1 : t.val % 8 ≤ t.val / 8 % 8
    · by_cases h2 : t.val % 8 = 7
      · exact sound_body1_D V c t h0 h1 h2
      · exact sound_body1_B V c t h0 h1 h2
    · by_cases h2 : t.val % 8 = 7
      · exact sound_body1_E V c t h0 h1 h2
      · exact sound_body1_C V c t h0 h1 h2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the scratch buffers' named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro HΦ
  ihave HΦ' := (Sc1_split c _ _ _) $$ HΦ
  icases HΦ' with ⟨HS0, HS1, HS2, HR⟩
  iapply (Sc1_join c _ _ _)
  isplitl [HS0]; · iexists _; iexact HS0
  isplitl [HS1]; · iexists _; iexact HS1
  isplitl [HS2]; · iexists _; iexact HS2
  iexact HR

/-- The same after the last point. -/
theorem hout1 (c : Dev nD) : (dat1 V c).Φ (Fin.last cfg1.N) ⊢ Pipeline.ΦA spec1 c :=
  Phi_out1 V c _ (by rw [Fin.val_last]; have : cfg1.N = 2048 := N_1; omega)

end Entry

end Cert.Kernel.Fr

end
-- ==== Proof.KRegion2.lean ====
/-
  Region 2 of @main (custom_call 2, the tiled product of the attention rows with the rounded output projection weight, grid 8 by 1) at a parameter V: the TensorCore's buffer contents when the region is entered.
  Window w's block at grid point t is the rectangle of w's array that the window's index map selects there, read off V.
  The body reads its two input blocks whole and overwrites its output block whole with the payload of the two reads
  (the block product), so after the body each input buffer still holds its block and the output buffer holds that
  payload; this file states those contents (`iblk2`, `out2_2`), proves the body's triple against them, collects
  them as the pipeline's proof data (`dat2`) and discharges the pipeline's obligation on the body at every grid point.
-/
import proofs.«112669_j738734375717_2_alg».proof.Proof.Gen.Kernel.Launch
import proofs.«112669_j738734375717_2_alg».proof.Proof.Gen.Kernel.Skeleton
import proofs.«112669_j738734375717_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is checked structurally, one step per coordinate of the
-- long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): where the window is not
    fetched its block index has not moved since the point before, so the block kept from there is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-! ## What the body leaves in the output window's buffer -/

/-- Window 2's staging buffer after the body, from the input windows' blocks: its one store, of the payload of the
    two reads, laid over the buffer. -/
def out2_2 (x0 : Vec F S512x1024 .bf16) (x1 : Vec F S1024x1024 .bf16) : Vec F S512x1024 .f32 :=
  View.canon [⟨r2_2, k2_pay1 (View.ld x0 r2_0) (View.ld x1 r2_1)⟩]

/-- The store's rectangle is the whole buffer, so it covers every index. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

/-! ## The body's triple -/

set_option maxHeartbeats 1000000 in
/-- The kernel body on whole staging memrefs, the inputs' at read contents `x0`, `x1` and the output's at anything, runs
    to the continuation holding the inputs' as they were and the output's at `out2_2 x0 x1`: two reads of the inputs, a
    read of the output buffer whose value nothing uses, and one store over the whole output buffer. -/
theorem sound_kernel2 (c : Dev nD) (E : Set ℕ) (i : grid2.Coords) (arg0 : Memref sig .tc .vmem S512x1024 .bf16) (harg0 : arg0.IsWhole) (arg1 : Memref sig .tc .vmem S1024x1024 .bf16) (harg1 : arg1.IsWhole) (arg2 : Memref sig .tc .vmem S512x1024 .f32) (harg2 : arg2.IsWhole)
    (x0 : Vec F S512x1024 .bf16) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2` applies;
    the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on its body, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KRun.lean ====
/-
  The program's run as a whole. The program is three tiled kernel regions among four stretches of host operations:
  the input is reshaped to rows and the projection weight transposed; region 0 multiplies them; the product is cut
  into query, key and value rows per head; region 1 is the causal attention, one (head, query tile) at a time over
  the key tiles; the heads are laid side by side again and the output weight transposed; region 2 multiplies them;
  the product is reshaped to the result. The contents of every buffer at each boundary between a stretch and a
  region are a fold from the launch memory: a host stretch applies its operations, a region leaves its input arrays
  as it found them and its output array at what its write-backs leave. Every weakly fair execution runs through the
  seven segments and ends with every buffer at the last boundary's contents; in particular the three argument
  arrays, which no stretch writes and no region stages as an output, end as launched.
-/
import proofs.«112669_j738734375717_2_alg».proof.Proof.Gen.Kernel.Launch
import proofs.«112669_j738734375717_2_alg».proof.Proof.Gen.Kernel.Skeleton
import proofs.«112669_j738734375717_2_alg».proof.Proof.Gen.Kernel.Points
import proofs.«112669_j738734375717_2_alg».proof.Proof.Gen.Kernel.Regions
import proofs.«112669_j738734375717_2_alg».proof.Proof.KRegion0
import proofs.«112669_j738734375717_2_alg».proof.Proof.KRegion1
import proofs.«112669_j738734375717_2_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between a host stretch and a region: a fold through the program -/

/-- Core `c`'s buffers at launch. -/
abbrev Wb0 : Dev nD → Valuation τ sig (Elt F) := fun c b => (s₀ m ρ).mem ((c : Dev nD), b)
/-- After the first host stretch (the input reshaped to rows, the projection weight transposed): region 0's entry. -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b

/-- After region 0: its arrays at what the pipeline leaves (an input as entered, the output's write-backs folded),
    every other buffer as entered. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
/-- The same read at the TensorCore's references. -/
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- After the second host stretch (the projection split into query, key and value rows per head): region 1's entry. -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b

/-- After region 1: its arrays at what the pipeline leaves (an input as entered, the output's write-backs folded),
    every other buffer as entered. -/
def Wb4 (c : Dev nD) : Valuation τ sig (Elt F) :=
  Pipeline.withArrays spec1 c (Wb3 m ρ c) fun w => (dat1 (Vb3 m ρ) c).arrAt w cfg1.N
theorem Wb4_arr (c : Dev nD) (w : Fin cfg1.W) :
    Wb4 m ρ c (Proc.devRef .tc (Pipeline.arrRef spec1 w)) = (dat1 (Vb3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
/-- The same read at the TensorCore's references. -/
abbrev Vb4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vb4 m ρ c (Pipeline.arrRef spec1 w) :=
  (Wb4_arr m ρ c w).symm
theorem hrest1 (c : Dev nD) : ∀ b, b ∉ Finset.univ.image (Pipeline.arrRef spec1) → Vb4 m ρ c b = Vb3 m ρ c b :=
  fun b hb => Wb4_of_ne m ρ c b fun w e => hb (Finset.mem_image.mpr ⟨w, Finset.mem_univ _, e⟩)

/-- After the third host stretch (the heads laid side by side again, the output weight transposed): region 2's entry. -/
abbrev Wb5 : Dev nD → Valuation τ sig (Elt F) := fun c => StableHlo.after hostOps2 (Wb4 m ρ c)
abbrev Vb5 : (c : Dev nD) → (b : Ref sig .tc) → Buf (Elt F) ((c : Thread nD τ).loc b) := fun c b => Wb5 m ρ c b

/-- After region 2: its arrays at what the pipeline leaves (an input as entered, the output's write-backs folded),
    every other buffer as entered. -/
def Wb6 (c : Dev nD) : Valuation τ sig (Elt F) :=
  Pipeline.withArrays spec2 c (Wb5 m ρ c) fun w => (dat2 (Vb5 m ρ) c).arrAt w cfg2.N
theorem Wb6_arr (c : Dev nD) (w : Fin cfg2.W) :
    Wb6 m ρ c (Proc.devRef .tc (Pipeline.arrRef spec2 w)) = (dat2 (Vb5 m ρ) c).arrAt w cfg2.N := by
  unfold Wb6; exact Pipeline.withArrays_arr spec2 launch2.win.arr_inj c _ _ w
theorem Wb6_of_ne (c : Dev nD) (b : Ref sig .tc) (hb : ∀ w, Pipeline.arrRef spec2 w ≠ b) :
    Wb6 m ρ c (Proc.devRef .tc b) = Wb5 m ρ c (Proc.devRef .tc b) := by
  unfold Wb6; exact Pipeline.withArrays_of_ne spec2 c _ _ b hb
/-- The same read at the TensorCore's references. -/
abbrev Vb6 : (c : Dev nD) → (b : Ref sig .tc) → Buf (Elt F) ((c : Thread nD τ).loc b) := fun c b => Wb6 m ρ c b
theorem hF2 (c : Dev nD) (w : Fin cfg2.W) : (dat2 (Vb5 m ρ) c).arrAt w cfg2.N = Vb6 m ρ c (Pipeline.arrRef spec2 w) :=
  (Wb6_arr m ρ c w).symm
theorem hrest2 (c : Dev nD) : ∀ b, b ∉ Finset.univ.image (Pipeline.arrRef spec2) → Vb6 m ρ c b = Vb5 m ρ c b :=
  fun b hb => Wb6_of_ne m ρ c b fun w e => hb (Finset.mem_image.mpr ⟨w, Finset.mem_univ _, e⟩)

/-- After the last host stretch (the result reshaped): the contents the program ends with. -/
abbrev Wb7 : Dev nD → Valuation τ sig (Elt F) := fun c => StableHlo.after hostOps3 (Wb6 m ρ c)

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb3 m ρ) c
  | ⟨2, _⟩ => fun c => dat2 (Vb5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents, the generator register at some state. -/
abbrev Tₙ (c : Dev nD) : sProp 𝕄 := iprop(StableHlo.held (c : Thread nD τ) (Pipeline.ucRefs τ sig) (Wb7 m ρ c) ∗ ∃ r, prngReg c r)

/-- The generator register and the scoped buffers no window stages make region 1's class invariant (whatever else rides along is dropped). -/
theorem toΦA1 (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp
/-- and the class invariant gives them back. -/
theorem fromΦA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr
/-- The last host stretch leaves the final contents beside the generator register and the core owing nothing: the run's last thread state. -/
theorem lastLink (c : Dev nD) :
    iprop(StableHlo.held (c : Thread nD τ) (Pipeline.ucRefs τ sig) (Wb7 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered with every unscoped buffer at the contents after the host stretch before it,
    left with the region's arrays at what its write-backs leave and every other buffer as entered. The arrays are split
    out of the unscoped buffers and put back; the generator register goes into the region's invariant and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (Wb1 m ρ c) ∗ R c)
  post c := iprop(StableHlo.held (c : Thread nD τ) (Pipeline.ucRefs τ sig) (Wb2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents after the host stretch before it,
    left with the region's arrays at what its write-backs leave and every other buffer as entered. The arrays are split
    out of the unscoped buffers and put back; the generator register goes into the region's invariant and comes out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ L lv 1 fun _ _ => rfl
  pre c := iprop(StableHlo.held (c : Thread nD τ) (Pipeline.ucRefs τ sig) (Wb3 m ρ c) ∗ R c)
  post c := iprop(StableHlo.held (c : Thread nD τ) (Pipeline.ucRefs τ sig) (Wb4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (toΦA1 c _).trans (hin1 (Vb3 m ρ) c)
  hout c := by
    rw [Pipeline.ownSems0_none]
    exact (hout1 (Vb3 m ρ) c).trans (fromΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb3 m ρ c) (Vb4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents after the host stretch before it,
    left with the region's arrays at what its write-backs leave and every other buffer as entered. The arrays are split
    out of the unscoped buffers and put back; the generator register goes into the region's invariant and comes out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb5 m ρ) c).loose
  hwaits := Pipeline.hwaits_of_owed_zero _ _ _ _ L lv 2 fun _ _ => rfl
  pre c := iprop(StableHlo.held (c : Thread nD τ) (Pipeline.ucRefs τ sig) (Wb5 m ρ c) ∗ R c)
  post c := iprop(StableHlo.held (c : Thread nD τ) (Pipeline.ucRefs τ sig) (Wb6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vb5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vb5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vb5 m ρ c) (Vb6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh' (Wb0 m ρ)),
    .region (reg0 m ρ),
    .host (hseg hostOps1 hostOps1_sub hostOps1_fresh' (Wb2 m ρ)),
    .region (reg1 m ρ),
    .host (hseg hostOps2 hostOps2_sub hostOps2_fresh' (Wb4 m ρ)),
    .region (reg2 m ρ),
    .host (hseg hostOps3 hostOps3_sub hostOps3_fresh' (Wb6 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ R c)) (Tₙ := Tₙ m ρ)
    (hch := ⟨fun _ => .rfl, fun _ => .rfl, fun _ => .rfl, fun _ => .rfl, fun _ => .rfl, fun _ => .rfl, fun _ => .rfl, fun c => lastLink m ρ c⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb7 m ρ c) s')
      isplitl [Hh] <;> iassumption)
    (hQ := fun s h c => h c)

/-! ## The frame: the arguments end as launched -/

/-- A buffer that no host stretch writes and no region stages ends holding its launch contents. -/
theorem Wb7_keep (c : Dev nD) (r : Ref sig .tc) (h0 : r ∉ hostOps0_W) (h1 : r ∉ hostOps1_W) (h2 : r ∉ hostOps2_W) (h3 : r ∉ hostOps3_W)
    (g0 : ∀ w, Pipeline.arrRef spec0 w ≠ r) (g1 : ∀ w, Pipeline.arrRef spec1 w ≠ r) (g2 : ∀ w, Pipeline.arrRef spec2 w ≠ r) :
    Wb7 m ρ c (Proc.devRef .tc r) = m ((c : Thread nD τ).loc r) :=
  calc Wb7 m ρ c (Proc.devRef .tc r)
    _ = Wb6 m ρ c (Proc.devRef .tc r) := StableHlo.after_of_writes_sub hostOps3 _ hostOps3_writes h3
    _ = Wb5 m ρ c (Proc.devRef .tc r) := Wb6_of_ne m ρ c r g2
    _ = Wb4 m ρ c (Proc.devRef .tc r) := StableHlo.after_of_writes_sub hostOps2 _ hostOps2_writes h2
    _ = Wb3 m ρ c (Proc.devRef .tc r) := Wb4_of_ne m ρ c r g1
    _ = Wb2 m ρ c (Proc.devRef .tc r) := StableHlo.after_of_writes_sub hostOps1 _ hostOps1_writes h1
    _ = Wb1 m ρ c (Proc.devRef .tc r) := Wb2_of_ne m ρ c r g0
    _ = Wb0 m ρ c (Proc.devRef .tc r) := StableHlo.after_of_writes_sub hostOps0 _ hostOps0_writes h0
    _ = m ((c : Thread nD τ).loc r) := rfl

/-- THE FRAME, at any float instance: every weakly fair execution terminates, nothing faulting, and the three argument
    arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Wb7_keep m ρ c main_arg0 (by decide) (by decide) (by decide) (by decide) (by decide) (by decide) (by decide)),
     (h c _ (mem_uc main_arg1 (by decide))).trans (Wb7_keep m ρ c main_arg1 (by decide) (by decide) (by decide) (by decide) (by decide) (by decide) (by decide)),
     (h c _ (mem_uc main_arg2 (by decide))).trans (Wb7_keep m ρ c main_arg2 (by decide) (by decide) (by decide) (by decide) (by decide) (by decide) (by decide))⟩)
    (run_all m ρ)

end Cert.Kernel.Fr

end
-- ==== Proof.KiRegion0.lean ====
/-
  Region 0 of @main (custom_call 0, the tiled product of the rounded input with the rounded joint projection weight, grid 8 by 3) at a parameter V: the TensorCore's buffer contents when the region is entered.
  Window w's block at grid point t is the rectangle of w's array that the window's index map selects there, read off V.
  The body reads its two input blocks whole and overwrites its output block whole with the payload of the two reads
  (the block product), so after the body each input buffer still holds its block and the output buffer holds that
  payload; this file states those contents (`iblk0`, `out0_2`), proves the body's triple against them, collects
  them as the pipeline's proof data (`dat0`) and discharges the pipeline's obligation on the body at every grid point.
-/
import proofs.«112669_j738734375717_2_alg».proof.Proof.Gen.KernelIdeal.Launch
import proofs.«112669_j738734375717_2_alg».proof.Proof.Gen.KernelIdeal.Skeleton
import proofs.«112669_j738734375717_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is checked structurally, one step per coordinate of the
-- long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its block index has not moved since the point before, so the block kept from there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S512x1024 := Rect.unit (s := S512x1024) ![0, 0] S512x1024.size inb_S512x1024_S512x1024_0_0

/-! ## What the body leaves in the output window's buffer -/

/-- Window 2's staging buffer after the body, from the input windows' blocks: its one store, of the payload of the
    two reads, laid over the buffer. -/
def out0_2 (x0 : Vec F S512x1024 .f32) (x1 : Vec F S1024x1024 .bf16) : Vec F S512x1024 .bf16 :=
  View.canon [⟨r0_2, k0_pay1 (View.ld x0 r0_0) (View.ld x1 r0_1)⟩]

/-- The store's rectangle is the whole buffer, so it covers every index. -/
theorem cover0_2 (p0 : Vec F S512x1024 .bf16) (y : S512x1024.Idx) :
    ∃ pc ∈ ([⟨r0_2, p0⟩] : List (View.Piece (Elt F) S512x1024 .bf16)), y ∈ pc.1.set :=
  View.cover_of_tiled [⟨r0_2, p0⟩] S512x1024.size (by rfl) y

/-! ## The body's triple -/

set_option maxHeartbeats 1000000 in
/-- The kernel body on whole staging memrefs, the inputs' at read contents `x0`, `x1` and the output's at anything, runs
    to the continuation holding the inputs' as they were and the output's at `out0_2 x0 x1`: two reads of the inputs, a
    read of the output buffer whose value nothing uses, and one store over the whole output buffer. -/
theorem sound_kernel0 (c : Dev nD) (E : Set ℕ) (i : grid0.Coords) (arg0 : Memref sig .tc .vmem S512x1024 .f32) (harg0 : arg0.IsWhole) (arg1 : Memref sig .tc .vmem S1024x1024 .bf16) (harg1 : arg1.IsWhole) (arg2 : Memref sig .tc .vmem S512x1024 .bf16) (harg2 : arg2.IsWhole)
    (x0 : Vec F S512x1024 .f32) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0` applies;
    the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on its body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiRuns1.lean ====
/- Region 1 of @main (the causal flash-attention kernel) — what its five control cases' runs share: each window's
   block at a point, read off the array as the region finds it; the three branch conditions of the body and their
   closed forms over the grid; where the output window is idle and where it is written back; the staging and scratch
   memrefs; and the region's invariant with the three scratch buffers singled out of the core's scoped rest. Everything
   is stated at a parameter `V`, the TensorCore's buffer contents when the region is entered. -/
import proofs.«112669_j738734375717_2_alg».proof.Proof.Gen.KernelIdeal.Launch
import proofs.«112669_j738734375717_2_alg».proof.Proof.Gen.KernelIdeal.Skeleton
import proofs.«112669_j738734375717_2_alg».proof.Proof.Gen.KernelIdeal.Points
import Idealize.ShloMosaic.Lib.Pipeline.FrameBody
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Entry
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents' (`hA`) and whose body leaves the block in place (`hafter`): unfetched,
    the block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' (`hA`) and whose body leaves the block in place (`hafter`): unfetched,
    the block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' (`hA`) and whose body leaves the block in place (`hafter`): unfetched,
    the block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's branch conditions

A point `t` of the grid (32, 8, 8) has key-block index `ki = t % 8` and query-block index `qi = t / 8 % 8`. -/

/-- The condition of the body's first `scf.if` (`ki = 0`: initialise the running maximum, the normaliser and the
    accumulator), from the grid coordinates. -/
abbrev cond1_0 (i : grid1.Coords) : Prop := (Scalar.cmpi .ne (Scalar.extui (Scalar.cmpi .eq (BitVec.ofNat 32 (i 2).val) 0#32)) 0#32) = 1#1
/-- It holds where the key-block index is 0 — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (`ki ≤ qi`: the key block is not wholly above the diagonal, so
    the online-softmax update runs), from the grid coordinates. -/
abbrev cond1_1 (i : grid1.Coords) : Prop := (Scalar.cmpi .ne (Scalar.extui (Scalar.cmpi .sle (BitVec.ofNat 32 (i 2).val) (BitVec.ofNat 32 (i 1).val))) 0#32) = 1#1
/-- It holds where the key-block index is at most the query-block index — decided over the grid. -/
theorem hcond1_1 : ∀ t : Fin cfg1.N, cond1_1 (grid1.coords t) ↔ t.val % 8 ≤ t.val / 8 % 8 :=
  (by decide +kernel : ∀ t : Fin grid1.N, cond1_1 (grid1.coords t) ↔ t.val % 8 ≤ t.val / 8 % 8)

/-- The condition of the body's third `scf.if` (`ki = 7`, the last key block: normalise the accumulator into the
    output block), from the grid coordinates. -/
abbrev cond1_2 (i : grid1.Coords) : Prop := k1_cond3 i = 1#1
/-- It holds where the key-block index is 7 — decided over the grid. -/
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the third condition fails the configuration calls the output window idle: the body stores nothing into it. -/
theorem idleAt1_3 (t : Fin cfg1.N) (h : ¬cond1_2 (grid1.coords t)) : cfg1.idle 3 (grid1.coords t) = true := by
  show (!(k1_cond3 (grid1.coords t) == 1#1)) = true
  rw [Bool.not_eq_true', beq_eq_false_iff_ne]; exact h
/-- There the pipeline does not write the output block back either: it is written back at `ki = 7` only. -/
theorem noFlush1_3 (t : Fin cfg1.N) (h : ¬cond1_2 (grid1.coords t)) : (cfg1.win 3).flush t = false :=
  Bool.eq_false_iff.mpr fun hf => h ((hcond1_2 t).mpr ((flush1_3 t).mp hf))
/-- Where the third condition holds the output window is live: the body stores its block. -/
theorem liveAt1_3 (t : Fin cfg1.N) (h : cond1_2 (grid1.coords t)) : cfg1.idle 3 (grid1.coords t) = false := by
  show (!(k1_cond3 (grid1.coords t) == 1#1)) = false
  rw [show k1_cond3 (grid1.coords t) = 1#1 from h]; rfl

/-! ## The staging and scratch memrefs -/

/-- One staging buffer of the output window, through which its contents are stated (the choice does not matter). -/
abbrev VO1_3 : View sig .tc .vmem S1x256x64 .bf16 := (Memref.whole cc1_stg3_0 : Memref sig .tc .vmem S1x256x64 .bf16).view
/-- Each window's current staging memref at point `t`, spelled as the pipeline passes it, and its wholeness. -/
abbrev ms1_0 (t : Fin cfg1.N) : Memref sig .tc .vmem S1x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x64 .bf16 := win1_3.stage (cfg1.slots t 3)
abbrev hs1_3 (t : Fin cfg1.N) : (ms1_3 t).IsWhole := hstage1_3 ((cfg1.slots t 3).cast nbuf1_3)
/-- The scratch operands — the running maximum, the normaliser, the accumulator —: whole scoped buffers of the
    kernel's own, passed beside the windows and carried between points. -/
abbrev scM1_0 : Memref sig .tc .vmem S256x1 .f32 := Memref.whole cc1_scratch0
abbrev scM1_1 : Memref sig .tc .vmem S256x1 .f32 := Memref.whole cc1_scratch1
abbrev scM1_2 : Memref sig .tc .vmem S256x64 .f32 := Memref.whole cc1_scratch2
/-- The same as views: what each holds is stated through them. -/
abbrev VS1_0 : View sig .tc .vmem S256x1 .f32 := scM1_0.view
abbrev VS1_1 : View sig .tc .vmem S256x1 .f32 := scM1_1.view
abbrev VS1_2 : View sig .tc .vmem S256x64 .f32 := scM1_2.view

/-! ## The region's invariant, the three scratch buffers singled out -/

/-- The core's scoped buffers that are no staging buffer of this region, each whole at some contents, and the
    generator register at some state — with the three scratch buffers at `P0`, `P1`, `P2` instead. -/
def Sc1 (c : Dev nD) (P0 P1 P2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P0 ∗ P1 ∗ P2 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

/-- The other regions' staging buffers and the generator register: what the body never touches. -/
def Sc1R (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ r, prngReg c r))

/-- The invariant the launch hands the region is `Sc1` with each scratch buffer owned at some contents. -/
theorem PhiA1_eq (c : Dev nD) :
    (Pipeline.ΦA spec1 c : sProp 𝕄)
      = Sc1 c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA Sc1; rw [scopedRest1_eq]; simp only [scM1_0, scM1_1, scM1_2, owns_whole]; try rfl

/-- The scratch buffers taken out of the invariant, -/
theorem Sc1_split (c : Dev nD) (P0 P1 P2 : sProp 𝕄) : Sc1 (F := F) c P0 P1 P2 ⊢ iprop(P0 ∗ P1 ∗ P2 ∗ Sc1R (F := F) c) := by
  unfold Sc1 Sc1R
  iintro ⟨⟨Ha0, Ha1, Ha2, Ha3, Ha4, Ha5, HS0, HS1, HS2, Hb0, Hb1, Hb2, Hb3, Hb4⟩, Hg⟩
  isplitl [HS0]; · iexact HS0
  isplitl [HS1]; · iexact HS1
  isplitl [HS2]; · iexact HS2
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Hb0]; · iexact Hb0
  isplitl [Hb1]; · iexact Hb1
  isplitl [Hb2]; · iexact Hb2
  isplitl [Hb3]; · iexact Hb3
  isplitl [Hb4]; · iexact Hb4
  iexact Hg

/-- and put back. -/
theorem Sc1_join (c : Dev nD) (P0 P1 P2 : sProp 𝕄) : iprop(P0 ∗ P1 ∗ P2 ∗ Sc1R (F := F) c) ⊢ Sc1 (F := F) c P0 P1 P2 := by
  unfold Sc1 Sc1R
  iintro ⟨HS0, HS1, HS2, Ha0, Ha1, Ha2, Ha3, Ha4, Ha5, Hb0, Hb1, Hb2, Hb3, Hb4, Hg⟩
  isplitr [Hg]
  swap; · iexact Hg
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [HS0]; · iexact HS0
  isplitl [HS1]; · iexact HS1
  isplitl [HS2]; · iexact HS2
  isplitl [Hb0]; · iexact Hb0
  isplitl [Hb1]; · iexact Hb1
  isplitl [Hb2]; · iexact Hb2
  isplitl [Hb3]; · iexact Hb3
  iexact Hb4

end Cert.KernelIdeal.Fr

end
-- ==== Proof.KiRun1A.lean ====
/- Region 1 of @main, the whole-body run of the attention kernel in CASE A of its control — the first key block (`ki = 0`): the scratch is initialised, then updated; the output block is not touched. -/
import proofs.«112669_j738734375717_2_alg».proof.Proof.KiRuns1

-- membership in a rectangle of production extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- CASE A (`scf.if` 0 taken, `scf.if` 1 taken, `scf.if` 2 not taken): on whole staging memrefs — the inputs' at their contents; the output's at contents `xi3` handed back untouched (no store: the window is idle and not written back at the case's points);
    the three scratch at anything (each is stored whole before it is read) — the body runs to the continuation holding the inputs'
    as they were, each scratch with its pieces written (`LS·`, last first): the printed function is its skeleton,
    which is run operation by operation, each `scf.if` decided by the case's hypotheses; the pieces are the witness that run finds. -/
noncomputable def kernelRun1_A (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    Σ' (LS0 : List (View.Piece (Elt F) S256x1 .f32)) (LS1 : List (View.Piece (Elt F) S256x1 .f32)), { LS2 : List (View.Piece (Elt F) S256x64 .f32) //
      ∀ (xi3 : Vec F S1x256x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.KiRun1B.lean ====
/- Region 1 of @main, the whole-body run of the attention kernel in CASE B of its control — a key block at or below the diagonal that is neither the first nor the last (`0 < ki ≤ qi`, `ki < 7`): the scratch is updated; the output block is not touched. -/
import proofs.«112669_j738734375717_2_alg».proof.Proof.KiRun1A

-- membership in a rectangle of production extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- CASE B (`scf.if` 0 not taken, `scf.if` 1 taken, `scf.if` 2 not taken): on whole staging memrefs — the inputs' at their contents; the output's at contents `xi3` handed back untouched (no store: the window is idle and not written back at the case's points);
    the three scratch at the contents the point before left (`xs·`) — the body runs to the continuation holding the inputs'
    as they were, each scratch with its pieces written (`LS·`, last first): the printed function is its skeleton,
    which is run operation by operation, each `scf.if` decided by the case's hypotheses; the pieces are the witness that run finds. -/
noncomputable def kernelRun1_B (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    Σ' (LS0 : List (View.Piece (Elt F) S256x1 .f32)) (LS1 : List (View.Piece (Elt F) S256x1 .f32)), { LS2 : List (View.Piece (Elt F) S256x64 .f32) //
      ∀ (xi3 : Vec F S1x256x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.KiRun1C.lean ====
/- Region 1 of @main, the whole-body run of the attention kernel in CASE C of its control — a key block wholly above the diagonal that is not the last (`qi < ki < 7`): the body does nothing. -/
import proofs.«112669_j738734375717_2_alg».proof.Proof.KiRun1B

-- membership in a rectangle of production extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- CASE C (`scf.if` 0 not taken, `scf.if` 1 not taken, `scf.if` 2 not taken): on whole staging memrefs — the inputs' at their contents; the output's at contents `xi3` handed back untouched (no store: the window is idle and not written back at the case's points);
    the three scratch at the contents the point before left (`xs·`) — the body runs to the continuation holding the inputs'
    as they were, each scratch as it was: the printed function is its skeleton,
    which is run operation by operation, each `scf.if` decided by the case's hypotheses. -/
theorem kernelRun1_C (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : ¬cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ (xi3 : Vec F S1x256x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K := by
  intro xi3 E K
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Fr

end
-- ==== Proof.KiRun1D.lean ====
/- Region 1 of @main, the whole-body run of the attention kernel in CASE D of its control — the last key block on the diagonal (`ki = 7 = qi`): the scratch is updated, then the accumulator over the normaliser is stored into the output block. -/
import proofs.«112669_j738734375717_2_alg».proof.Proof.KiRun1C

-- membership in a rectangle of production extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- CASE D (`scf.if` 0 not taken, `scf.if` 1 taken, `scf.if` 2 taken): on whole staging memrefs — the inputs' at their contents; the output's at anything;
    the three scratch at the contents the point before left (`xs·`) — the body runs to the continuation holding the inputs'
    as they were, the output's buffer with its pieces written (`L3`), each scratch with its pieces written (`LS·`, last first): the printed function is its skeleton,
    which is run operation by operation, each `scf.if` decided by the case's hypotheses; the pieces are the witness that run finds. -/
noncomputable def kernelRun1_D (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    Σ' (L3 : List (View.Piece (Elt F) S1x256x64 .bf16)) (LS0 : List (View.Piece (Elt F) S256x1 .f32)) (LS1 : List (View.Piece (Elt F) S256x1 .f32)), { LS2 : List (View.Piece (Elt F) S256x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KiRun1E.lean ====
/- Region 1 of @main, the whole-body run of the attention kernel in CASE E of its control — the last key block above the diagonal (`ki = 7 > qi`): only the accumulator over the normaliser is stored into the output block. -/
import proofs.«112669_j738734375717_2_alg».proof.Proof.KiRun1D

-- membership in a rectangle of production extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- CASE E (`scf.if` 0 not taken, `scf.if` 1 not taken, `scf.if` 2 taken): on whole staging memrefs — the inputs' at their contents; the output's at anything;
    the three scratch at the contents the point before left (`xs·`) — the body runs to the continuation holding the inputs'
    as they were, the output's buffer with its pieces written (`L3`), each scratch as it was: the printed function is its skeleton,
    which is run operation by operation, each `scf.if` decided by the case's hypotheses; the pieces are the witness that run finds. -/
noncomputable def kernelRun1_E (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : ¬cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    { L3 : List (View.Piece (Elt F) S1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Fr

end
-- ==== Proof.KiRegion1.lean ====
/- Region 1 of @main (the causal flash-attention kernel), the rest of its half of the frame: what each control case
   leaves in the output block and in the three scratch buffers (covers, contents), what they hold point by point
   (`outsAt1`), the invariant carrying the scratch between points (`PhiS1`), the pipeline's proof data (`dat1`), and the
   body obligation with the invariant's entry and exit — everything at a parameter `V`, the TensorCore's buffer contents
   when the region is entered. -/
import proofs.«112669_j738734375717_2_alg».proof.Proof.KiRun1E

-- membership in a rectangle of production extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves -/

/-- Case A's pieces for the running maximum (scratch 0) cover it: each is a whole-buffer store. -/
theorem scover1_A_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    ∀ y : S256x1.Idx, ∃ pc ∈ (kernelRun1_A c i arg3 harg3 arg4 harg4 arg5 harg5 arg6 harg6 arg7 harg7 arg8 harg8 arg9 harg9 hc0 hc1 hc2 x0 x1 x2).1, y ∈ pc.1.set :=
  fun y => View.cover_of_tiledL (kernelRun1_A c i arg3 harg3 arg4 harg4 arg5 harg5 arg6 harg6 arg7 harg7 arg8 harg8 arg9 harg9 hc0 hc1 hc2 x0 x1 x2).1 S256x1.size (by sl_kernel_rfl) y

/-- What case A leaves in the running maximum: its pieces read back over junk. -/
def sout1_A_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) : Vec F S256x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

/-- Case A's pieces for the normaliser (scratch 1) cover it: each is a whole-buffer store. -/
theorem scover1_A_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    ∀ y : S256x1.Idx, ∃ pc ∈ (kernelRun1_A c i arg3 harg3 arg4 harg4 arg5 harg5 arg6 harg6 arg7 harg7 arg8 harg8 arg9 harg9 hc0 hc1 hc2 x0 x1 x2).2.1, y ∈ pc.1.set :=
  fun y => View.cover_of_tiledL (kernelRun1_A c i arg3 harg3 arg4 harg4 arg5 harg5 arg6 harg6 arg7 harg7 arg8 harg8 arg9 harg9 hc0 hc1 hc2 x0 x1 x2).2.1 S256x1.size (by sl_kernel_rfl) y

/-- What case A leaves in the normaliser: its pieces read back over junk. -/
def sout1_A_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) : Vec F S256x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

/-- Case A's pieces for the accumulator (scratch 2) cover it: each is a whole-buffer store. -/
theorem scover1_A_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    ∀ y : S256x64.Idx, ∃ pc ∈ (kernelRun1_A c i arg3 harg3 arg4 harg4 arg5 harg5 arg6 harg6 arg7 harg7 arg8 harg8 arg9 harg9 hc0 hc1 hc2 x0 x1 x2).2.2.1, y ∈ pc.1.set :=
  fun y => View.cover_of_tiledL (kernelRun1_A c i arg3 harg3 arg4 harg4 arg5 harg5 arg6 harg6 arg7 harg7 arg8 harg8 arg9 harg9 hc0 hc1 hc2 x0 x1 x2).2.2.1 S256x64.size (by sl_kernel_rfl) y

/-- What case A leaves in the accumulator: its pieces read back over junk. -/
def sout1_A_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) : Vec F S256x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

/-- Case B's pieces for the running maximum (scratch 0) cover it: each is a whole-buffer store. -/
theorem scover1_B_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x1.Idx, ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  fun y => View.cover_of_tiledL (kernelRun1_B c i arg3 harg3 arg4 harg4 arg5 harg5 arg6 harg6 arg7 harg7 arg8 harg8 arg9 harg9 hc0 hc1 hc2 x0 x1 x2 xs0 xs1 xs2).1 S256x1.size (by sl_kernel_rfl) y

/-- What case B leaves in the running maximum: its pieces read back over junk. -/
def sout1_B_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

/-- Case B's pieces for the normaliser (scratch 1) cover it: each is a whole-buffer store. -/
theorem scover1_B_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x1.Idx, ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  fun y => View.cover_of_tiledL (kernelRun1_B c i arg3 harg3 arg4 harg4 arg5 harg5 arg6 harg6 arg7 harg7 arg8 harg8 arg9 harg9 hc0 hc1 hc2 x0 x1 x2 xs0 xs1 xs2).2.1 S256x1.size (by sl_kernel_rfl) y

/-- What case B leaves in the normaliser: its pieces read back over junk. -/
def sout1_B_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

/-- Case B's pieces for the accumulator (scratch 2) cover it: each is a whole-buffer store. -/
theorem scover1_B_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x64.Idx, ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  fun y => View.cover_of_tiledL (kernelRun1_B c i arg3 harg3 arg4 harg4 arg5 harg5 arg6 harg6 arg7 harg7 arg8 harg8 arg9 harg9 hc0 hc1 hc2 x0 x1 x2 xs0 xs1 xs2).2.2.1 S256x64.size (by sl_kernel_rfl) y

/-- What case B leaves in the accumulator: its pieces read back over junk. -/
def sout1_B_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x64 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

/-- Case D's one store into the output block tiles it, so its pieces cover it. -/
theorem cover1_D_3 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S1x256x64.Idx, ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  fun y => View.cover_of_tiledL (kernelRun1_D c i arg3 harg3 arg4 harg4 arg5 harg5 arg6 harg6 arg7 harg7 arg8 harg8 arg9 harg9 hc0 hc1 hc2 x0 x1 x2 xs0 xs1 xs2).1 S1x256x64.size (by sl_kernel_rfl) y

/-- What case D leaves in the output window's staging buffer: its pieces read back over junk. -/
def out1_D_3 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S1x256x64 .bf16 :=
  VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).1)

/-- Case D's pieces for the running maximum (scratch 0) cover it: each is a whole-buffer store. -/
theorem scover1_D_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x1.Idx, ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  fun y => View.cover_of_tiledL (kernelRun1_D c i arg3 harg3 arg4 harg4 arg5 harg5 arg6 harg6 arg7 harg7 arg8 harg8 arg9 harg9 hc0 hc1 hc2 x0 x1 x2 xs0 xs1 xs2).2.1 S256x1.size (by sl_kernel_rfl) y

/-- What case D leaves in the running maximum: its pieces read back over junk. -/
def sout1_D_0 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).2.1)

/-- Case D's pieces for the normaliser (scratch 1) cover it: each is a whole-buffer store. -/
theorem scover1_D_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x1.Idx, ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  fun y => View.cover_of_tiledL (kernelRun1_D c i arg3 harg3 arg4 harg4 arg5 harg5 arg6 harg6 arg7 harg7 arg8 harg8 arg9 harg9 hc0 hc1 hc2 x0 x1 x2 xs0 xs1 xs2).2.2.1 S256x1.size (by sl_kernel_rfl) y

/-- What case D leaves in the normaliser: its pieces read back over junk. -/
def sout1_D_1 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.2.1)

/-- Case D's pieces for the accumulator (scratch 2) cover it: each is a whole-buffer store. -/
theorem scover1_D_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S256x64.Idx, ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  fun y => View.cover_of_tiledL (kernelRun1_D c i arg3 harg3 arg4 harg4 arg5 harg5 arg6 harg6 arg7 harg7 arg8 harg8 arg9 harg9 hc0 hc1 hc2 x0 x1 x2 xs0 xs1 xs2).2.2.2.1 S256x64.size (by sl_kernel_rfl) y

/-- What case D leaves in the accumulator: its pieces read back over junk. -/
def sout1_D_2 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S256x64 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.2.1)

/-- Case E's one store into the output block tiles it, so its pieces cover it. -/
theorem cover1_E_3 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : ¬cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    ∀ y : S1x256x64.Idx, ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  fun y => View.cover_of_tiledL (kernelRun1_E c i arg3 harg3 arg4 harg4 arg5 harg5 arg6 harg6 arg7 harg7 arg8 harg8 arg9 harg9 hc0 hc1 hc2 x0 x1 x2 xs0 xs1 xs2).1 S1x256x64.size (by sl_kernel_rfl) y

/-- What case E leaves in the output window's staging buffer: its pieces read back over junk. -/
def out1_E_3 (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : ¬cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) : Vec F S1x256x64 .bf16 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-- Where the body stores nothing into the output block (the window is idle and not written back): a placeholder
    (junk read back) that nothing consults. -/
def idleOut1_3 : Vec F S1x256x64 .bf16 := VO1_3.read (Elt F) VO1_3.junk

section Entry
variable (V : (c : Dev nD) → (b : Ref sig .tc) → Buf (Elt F) ((c : Thread nD τ).loc b))

/-! ## What the output block and the scratch hold after each point -/

/-- What a point of case A leaves (the output block, then the three scratch): the first key block (`ki = 0`): the scratch is initialised, then updated; the output block is not touched. -/
def step1_A (c : Dev nD) (t : Fin cfg1.N) (h0 : t.val % 8 = 0) (h1 : t.val % 8 ≤ t.val / 8 % 8) (h2 : ¬t.val % 8 = 7) : Vec F S1x256x64 .bf16 × Vec F S256x1 .f32 × Vec F S256x1 .f32 × Vec F S256x64 .f32 :=
  (idleOut1_3,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))

/-- What a point of case B leaves (the output block, then the three scratch), over what the point before left (`p`): a key block at or below the diagonal that is neither the first nor the last (`0 < ki ≤ qi`, `ki < 7`): the scratch is updated; the output block is not touched. -/
def step1_B (c : Dev nD) (t : Fin cfg1.N) (h0 : ¬t.val % 8 = 0) (h1 : t.val % 8 ≤ t.val / 8 % 8) (h2 : ¬t.val % 8 = 7) (p : Vec F S1x256x64 .bf16 × Vec F S256x1 .f32 × Vec F S256x1 .f32 × Vec F S256x64 .f32) : Vec F S1x256x64 .bf16 × Vec F S256x1 .f32 × Vec F S256x1 .f32 × Vec F S256x64 .f32 :=
  (idleOut1_3,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2)

/-- What a point of case C leaves (the output block, then the three scratch), over what the point before left (`p`): a key block wholly above the diagonal that is not the last (`qi < ki < 7`): the body does nothing. -/
def step1_C (c : Dev nD) (t : Fin cfg1.N) (h0 : ¬t.val % 8 = 0) (h1 : ¬t.val % 8 ≤ t.val / 8 % 8) (h2 : ¬t.val % 8 = 7) (p : Vec F S1x256x64 .bf16 × Vec F S256x1 .f32 × Vec F S256x1 .f32 × Vec F S256x64 .f32) : Vec F S1x256x64 .bf16 × Vec F S256x1 .f32 × Vec F S256x1 .f32 × Vec F S256x64 .f32 :=
  (idleOut1_3,
   p.2.1,
   p.2.2.1,
   p.2.2.2)

/-- What a point of case D leaves (the output block, then the three scratch), over what the point before left (`p`): the last key block on the diagonal (`ki = 7 = qi`): the scratch is updated, then the accumulator over the normaliser is stored into the output block. -/
def step1_D (c : Dev nD) (t : Fin cfg1.N) (h0 : ¬t.val % 8 = 0) (h1 : t.val % 8 ≤ t.val / 8 % 8) (h2 : t.val % 8 = 7) (p : Vec F S1x256x64 .bf16 × Vec F S256x1 .f32 × Vec F S256x1 .f32 × Vec F S256x64 .f32) : Vec F S1x256x64 .bf16 × Vec F S256x1 .f32 × Vec F S256x1 .f32 × Vec F S256x64 .f32 :=
  (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2,
   sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2,
   sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2,
   sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2)

/-- What a point of case E leaves (the output block, then the three scratch), over what the point before left (`p`): the last key block above the diagonal (`ki = 7 > qi`): only the accumulator over the normaliser is stored into the output block. -/
def step1_E (c : Dev nD) (t : Fin cfg1.N) (h0 : ¬t.val % 8 = 0) (h1 : ¬t.val % 8 ≤ t.val / 8 % 8) (h2 : t.val % 8 = 7) (p : Vec F S1x256x64 .bf16 × Vec F S256x1 .f32 × Vec F S256x1 .f32 × Vec F S256x64 .f32) : Vec F S1x256x64 .bf16 × Vec F S256x1 .f32 × Vec F S256x1 .f32 × Vec F S256x64 .f32 :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) p.2.1 p.2.2.1 p.2.2.2,
   p.2.1,
   p.2.2.1,
   p.2.2.2)

/-- THE ACCUMULATION. What the output window's staging buffer and the three scratch buffers hold after the body at
    position `n` (the output block, then the running maximum, the normaliser, the accumulator): the case the closed
    forms select at `n`, run at the point's memrefs and input blocks, over what the point before left in the scratch.
    An assignment of the conditions that no point meets is no case. -/
def outsAt1 (c : Dev nD) : (n : ℕ) → n < cfg1.N → Vec F S1x256x64 .bf16 × Vec F S256x1 .f32 × Vec F S256x1 .f32 × Vec F S256x64 .f32
  | 0, hn => step1_A V c ⟨0, hn⟩ (Nat.zero_mod _) (by (try dsimp only); omega) (fun h => by (try dsimp only at h); omega)
  | n + 1, hn =>
    if h0 : (n + 1) % 8 = 0 then
      if h1 : (n + 1) % 8 ≤ (n + 1) / 8 % 8 then
        if h2 : (n + 1) % 8 = 7 then
          False.elim (by omega)
        else
          step1_A V c ⟨n + 1, hn⟩ h0 h1 h2
      else
        False.elim (by omega)
    else
      if h1 : (n + 1) % 8 ≤ (n + 1) / 8 % 8 then
        if h2 : (n + 1) % 8 = 7 then
          step1_D V c ⟨n + 1, hn⟩ h0 h1 h2 (outsAt1 c n (Nat.lt_of_succ_lt hn))
        else
          step1_B V c ⟨n + 1, hn⟩ h0 h1 h2 (outsAt1 c n (Nat.lt_of_succ_lt hn))
      else
        if h2 : (n + 1) % 8 = 7 then
          step1_E V c ⟨n + 1, hn⟩ h0 h1 h2 (outsAt1 c n (Nat.lt_of_succ_lt hn))
        else
          step1_C c ⟨n + 1, hn⟩ h0 h1 h2 (outsAt1 c n (Nat.lt_of_succ_lt hn))

/-- `outsAt1` at a point of case A: that case's contents. -/
theorem outsAt1_A (c : Dev nD) (t : Fin cfg1.N) (h0 : t.val % 8 = 0) (h1 : t.val % 8 ≤ t.val / 8 % 8) (h2 : ¬t.val % 8 = 7) :
    outsAt1 V c t.val t.isLt = step1_A V c t h0 h1 h2 := by
  obtain ⟨n, hn⟩ := t
  cases n with
  | zero => exact rfl
  | succ n => exact (dif_pos h0).trans ((dif_pos h1).trans ((dif_neg h2).trans rfl))

/-- `outsAt1` at a point of case B: that case's contents, over what the point before left. -/
theorem outsAt1_B (c : Dev nD) (t : Fin cfg1.N) (h0 : ¬t.val % 8 = 0) (h1 : t.val % 8 ≤ t.val / 8 % 8) (h2 : ¬t.val % 8 = 7) :
    outsAt1 V c t.val t.isLt = step1_B V c t h0 h1 h2 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a point of case C: that case's contents, over what the point before left. -/
theorem outsAt1_C (c : Dev nD) (t : Fin cfg1.N) (h0 : ¬t.val % 8 = 0) (h1 : ¬t.val % 8 ≤ t.val / 8 % 8) (h2 : ¬t.val % 8 = 7) :
    outsAt1 V c t.val t.isLt = step1_C c t h0 h1 h2 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt1` at a point of case D: that case's contents, over what the point before left. -/
theorem outsAt1_D (c : Dev nD) (t : Fin cfg1.N) (h0 : ¬t.val % 8 = 0) (h1 : t.val % 8 ≤ t.val / 8 % 8) (h2 : t.val % 8 = 7) :
    outsAt1 V c t.val t.isLt = step1_D V c t h0 h1 h2 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- `outsAt1` at a point of case E: that case's contents, over what the point before left. -/
theorem outsAt1_E (c : Dev nD) (t : Fin cfg1.N) (h0 : ¬t.val % 8 = 0) (h1 : ¬t.val % 8 ≤ t.val / 8 % 8) (h2 : t.val % 8 = 7) :
    outsAt1 V c t.val t.isLt = step1_E V c t h0 h1 h2 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region's invariant before position `n`: before the first point what the launch hands the region (every scratch
    buffer at anything); afterwards the same with each scratch buffer at what the point before left in it. -/
def PhiS1 (c : Dev nD) : (n : ℕ) → n ≤ cfg1.N → sProp 𝕄
  | 0, _ => Pipeline.ΦA spec1 c
  | n + 1, hn => Sc1 c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2)

theorem PhiS1_zero (c : Dev nD) (n : ℕ) (h : n ≤ cfg1.N) (hz : n = 0) : PhiS1 V c n h = Pipeline.ΦA spec1 c := by
  subst hz; rfl

/-- After point `n` (before point `n + 1`): each scratch buffer at that point's contents. -/
theorem PhiS1_succ (c : Dev nD) (n : ℕ) (hn : n < cfg1.N) :
    PhiS1 V c (n + 1) hn = Sc1 c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) := rfl

/-- Before a point that is not the first: each scratch buffer at what the point before left. -/
theorem PhiS1_pos (c : Dev nD) (n : ℕ) (h : n ≤ cfg1.N) (hz : n ≠ 0) :
    PhiS1 V c n h = Sc1 c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at a point of case A — the first key block (`ki = 0`): the scratch is initialised, then updated; the output block is not touched: the inputs' memrefs hold their blocks, the case's run applies,
    the invariant hands over the scratch buffers and takes them back at this point's contents, the other scoped buffers, the
    generator register and the core's debts pass through. -/
theorem sound_body1_A (c : Dev nD) (t : Fin cfg1.N) (h0 : t.val % 8 = 0) (h1 : t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2048 := lt_of_lt_of_eq t.isLt (show cfg1.N = 2048 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_A V c t h0 h1 h2]
  unfold step1_A sout1_A_0 sout1_A_1 sout1_A_2; (try dsimp only)
  by_cases hz : t.val = 0
  · rw [PhiS1_castSucc V c t, PhiS1_zero V c _ _ hz, PhiA1_eq]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 HR]
    · iapply (Sc1_join c _ _ _)
      isplitl [HS0]
      · unfold owns; iexists _; isplitr
        swap; · iexact HS0
        ipureintro; exact View.read_writes_of_cover _ _ _ _ _ (scover1_A_0 c _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _)
      iexact HR
    isplitl [Ho]; · iexact Ho
    isplitl [H0]; · iexact H0
    isplitl [H1]; · iexact H1
    isplitl [H2]; · iexact H2
    iexists _; iexact H3
  · rw [PhiS1_castSucc V c t, PhiS1_pos V c _ _ hz]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, ⟨%es0, HS0⟩, ⟨%es1, HS1⟩, ⟨%es2, HS2⟩⟩
    isplitl [HS0 HS1 HS2 HR]
    · iapply (Sc1_join c _ _ _)
      isplitl [HS0]
      · unfold owns; iexists _; isplitr
        swap; · iexact HS0
        ipureintro; exact View.read_writes_of_cover _ _ _ _ _ (scover1_A_0 c _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _)
      iexact HR
    isplitl [Ho]; · iexact Ho
    isplitl [H0]; · iexact H0
    isplitl [H1]; · iexact H1
    isplitl [H2]; · iexact H2
    iexists _; iexact H3

set_option maxHeartbeats 8000000 in
/-- The body at a point of case B — a key block at or below the diagonal that is neither the first nor the last (`0 < ki ≤ qi`, `ki < 7`): the scratch is updated; the output block is not touched: the inputs' memrefs hold their blocks, the case's run applies,
    the invariant hands over the scratch buffers and takes them back at this point's contents, the other scoped buffers, the
    generator register and the core's debts pass through. -/
theorem sound_body1_B (c : Dev nD) (t : Fin cfg1.N) (h0 : ¬t.val % 8 = 0) (h1 : t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2048 := lt_of_lt_of_eq t.isLt (show cfg1.N = 2048 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_B V c t h0 h1 h2]
  unfold step1_B sout1_B_0 sout1_B_1 sout1_B_2; (try dsimp only)
  by_cases hz : t.val = 0
  · exfalso; omega
  · rw [PhiS1_castSucc V c t, PhiS1_pos V c _ _ hz]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 HR]
    · iapply (Sc1_join c _ _ _)
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    iexists _; iexact H3

set_option maxHeartbeats 8000000 in
/-- The body at a point of case C — a key block wholly above the diagonal that is not the last (`qi < ki < 7`): the body does nothing: the inputs' memrefs hold their blocks, the case's run applies,
    the invariant hands over the scratch buffers and takes them back at this point's contents, the other scoped buffers, the
    generator register and the core's debts pass through. -/
theorem sound_body1_C (c : Dev nD) (t : Fin cfg1.N) (h0 : ¬t.val % 8 = 0) (h1 : ¬t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2048 := lt_of_lt_of_eq t.isLt (show cfg1.N = 2048 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_C V c t h0 h1 h2]
  unfold step1_C; (try dsimp only)
  by_cases hz : t.val = 0
  · exfalso; omega
  · rw [PhiS1_castSucc V c t, PhiS1_pos V c _ _ hz]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply (kernelRun1_C c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _ _ _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 HR]
    · iapply (Sc1_join c _ _ _)
      isplitl [HS0]; · iexact HS0
      isplitl [HS1]; · iexact HS1
      isplitl [HS2]; · iexact HS2
      iexact HR
    isplitl [Ho]; · iexact Ho
    isplitl [H0]; · iexact H0
    isplitl [H1]; · iexact H1
    isplitl [H2]; · iexact H2
    iexists _; iexact H3

set_option maxHeartbeats 8000000 in
/-- The body at a point of case D — the last key block on the diagonal (`ki = 7 = qi`): the scratch is updated, then the accumulator over the normaliser is stored into the output block: the inputs' memrefs hold their blocks, the case's run applies,
    the invariant hands over the scratch buffers and takes them back at this point's contents, the other scoped buffers, the
    generator register and the core's debts pass through. -/
theorem sound_body1_D (c : Dev nD) (t : Fin cfg1.N) (h0 : ¬t.val % 8 = 0) (h1 : t.val % 8 ≤ t.val / 8 % 8) (h2 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2048 := lt_of_lt_of_eq t.isLt (show cfg1.N = 2048 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t ((hcond1_2 t).mpr h2)], after1_3]
  rw [outsAt1_D V c t h0 h1 h2]
  unfold step1_D out1_D_3 sout1_D_0 sout1_D_1 sout1_D_2; (try dsimp only)
  by_cases hz : t.val = 0
  · exfalso; omega
  · rw [PhiS1_castSucc V c t, PhiS1_pos V c _ _ hz]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 HR]
    · iapply (Sc1_join c _ _ _)
      isplitl [HS0]
      · unfold owns; iexists _; isplitr
        swap; · iexact HS0
        ipureintro; exact View.read_writes_of_cover _ _ _ _ _ (scover1_D_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_D_1 c _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_D_2 c _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_D_3 c _ _ _ _ _ _ _ _ _ _ _ _ _ _ _ _ _ _ _ _ _ _ _ _)

set_option maxHeartbeats 8000000 in
/-- The body at a point of case E — the last key block above the diagonal (`ki = 7 > qi`): only the accumulator over the normaliser is stored into the output block: the inputs' memrefs hold their blocks, the case's run applies,
    the invariant hands over the scratch buffers and takes them back at this point's contents, the other scoped buffers, the
    generator register and the core's debts pass through. -/
theorem sound_body1_E (c : Dev nD) (t : Fin cfg1.N) (h0 : ¬t.val % 8 = 0) (h1 : ¬t.val % 8 ≤ t.val / 8 % 8) (h2 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2048 := lt_of_lt_of_eq t.isLt (show cfg1.N = 2048 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t ((hcond1_2 t).mpr h2)], after1_3]
  rw [outsAt1_E V c t h0 h1 h2]
  unfold step1_E out1_E_3; (try dsimp only)
  by_cases hz : t.val = 0
  · exfalso; omega
  · rw [PhiS1_castSucc V c t, PhiS1_pos V c _ _ hz]
    iintro ⟨HΦ, Ho, ⟨%d0, H0⟩, ⟨%d1, H1⟩, ⟨%d2, H2⟩, ⟨%d3, H3⟩⟩
    ihave HΦ' := (Sc1_split c _ _ _) $$ HΦ
    icases HΦ' with ⟨HS0, HS1, HS2, HR⟩
    iapply ((kernelRun1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HS0 HS1 HS2 HR]
    · iapply (Sc1_join c _ _ _)
      isplitl [HS0]; · iexact HS0
      isplitl [HS1]; · iexact HS1
      isplitl [HS2]; · iexact HS2
      iexact HR
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_E_3 c _ _ _ _ _ _ _ _ _ _ _ _ _ _ _ _ _ _ _ _ _ _ _ _)

/-- The body at any point: the closed forms say which of the five cases the point is in (the other sign patterns of the
    three conditions meet no point: `ki = 0` excludes `ki = 7` and implies `ki ≤ qi`). -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · by_cases h1 : t.val % 8 ≤ t.val / 8 % 8
    · by_cases h2 : t.val % 8 = 7
      · exfalso; omega
      · exact sound_body1_A V c t h0 h1 h2
    · exfalso; omega
  · by_cases h1 : t.val % 8 ≤ t.val / 8 % 8
    · by_cases h2 : t.val % 8 = 7
      · exact sound_body1_D V c t h0 h1 h2
      · exact sound_body1_B V c t h0 h1 h2
    · by_cases h2 : t.val % 8 = 7
      · exact sound_body1_E V c t h0 h1 h2
      · exact sound_body1_C V c t h0 h1 h2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the scratch buffers' named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro HΦ
  ihave HΦ' := (Sc1_split c _ _ _) $$ HΦ
  icases HΦ' with ⟨HS0, HS1, HS2, HR⟩
  iapply (Sc1_join c _ _ _)
  isplitl [HS0]; · iexists _; iexact HS0
  isplitl [HS1]; · iexists _; iexact HS1
  isplitl [HS2]; · iexists _; iexact HS2
  iexact HR

/-- The same after the last point. -/
theorem hout1 (c : Dev nD) : (dat1 V c).Φ (Fin.last cfg1.N) ⊢ Pipeline.ΦA spec1 c :=
  Phi_out1 V c _ (by rw [Fin.val_last]; have : cfg1.N = 2048 := N_1; omega)

end Entry

end Cert.KernelIdeal.Fr

end
-- ==== Proof.KiRegion2.lean ====
/-
  Region 2 of @main (custom_call 2, the tiled product of the attention rows with the rounded output projection weight, grid 8 by 1) at a parameter V: the TensorCore's buffer contents when the region is entered.
  Window w's block at grid point t is the rectangle of w's array that the window's index map selects there, read off V.
  The body reads its two input blocks whole and overwrites its output block whole with the payload of the two reads
  (the block product), so after the body each input buffer still holds its block and the output buffer holds that
  payload; this file states those contents (`iblk2`, `out2_2`), proves the body's triple against them, collects
  them as the pipeline's proof data (`dat2`) and discharges the pipeline's obligation on the body at every grid point.
-/
import proofs.«112669_j738734375717_2_alg».proof.Proof.Gen.KernelIdeal.Launch
import proofs.«112669_j738734375717_2_alg».proof.Proof.Gen.KernelIdeal.Skeleton
import proofs.«112669_j738734375717_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is checked structurally, one step per coordinate of the
-- long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): where the window is not
    fetched its block index has not moved since the point before, so the block kept from there is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-! ## What the body leaves in the output window's buffer -/

/-- Window 2's staging buffer after the body, from the input windows' blocks: its one store, of the payload of the
    two reads, laid over the buffer. -/
def out2_2 (x0 : Vec F S512x1024 .bf16) (x1 : Vec F S1024x1024 .bf16) : Vec F S512x1024 .f32 :=
  View.canon [⟨r2_2, k2_pay1 (View.ld x0 r2_0) (View.ld x1 r2_1)⟩]

/-- The store's rectangle is the whole buffer, so it covers every index. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

/-! ## The body's triple -/

set_option maxHeartbeats 1000000 in
/-- The kernel body on whole staging memrefs, the inputs' at read contents `x0`, `x1` and the output's at anything, runs
    to the continuation holding the inputs' as they were and the output's at `out2_2 x0 x1`: two reads of the inputs, a
    read of the output buffer whose value nothing uses, and one store over the whole output buffer. -/
theorem sound_kernel2 (c : Dev nD) (E : Set ℕ) (i : grid2.Coords) (arg0 : Memref sig .tc .vmem S512x1024 .bf16) (harg0 : arg0.IsWhole) (arg1 : Memref sig .tc .vmem S1024x1024 .bf16) (harg1 : arg1.IsWhole) (arg2 : Memref sig .tc .vmem S512x1024 .f32) (harg2 : arg2.IsWhole)
    (x0 : Vec F S512x1024 .bf16) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2` applies;
    the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on its body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KiRun.lean ====
/-
  The program's run as a whole. The program is three tiled kernel regions among four stretches of host operations:
  the input is reshaped to rows and the projection weight transposed; region 0 multiplies them; the product is cut
  into query, key and value rows per head; region 1 is the causal attention, one (head, query tile) at a time over
  the key tiles; the heads are laid side by side again and the output weight transposed; region 2 multiplies them;
  the product is reshaped to the result. The contents of every buffer at each boundary between a stretch and a
  region are a fold from the launch memory: a host stretch applies its operations, a region leaves its input arrays
  as it found them and its output array at what its write-backs leave. Every weakly fair execution runs through the
  seven segments and ends with every buffer at the last boundary's contents; in particular the three argument
  arrays, which no stretch writes and no region stages as an output, end as launched.
-/
import proofs.«112669_j738734375717_2_alg».proof.Proof.Gen.KernelIdeal.Launch
import proofs.«112669_j738734375717_2_alg».proof.Proof.Gen.KernelIdeal.Skeleton
import proofs.«112669_j738734375717_2_alg».proof.Proof.Gen.KernelIdeal.Points
import proofs.«112669_j738734375717_2_alg».proof.Proof.Gen.KernelIdeal.Regions
import proofs.«112669_j738734375717_2_alg».proof.Proof.KiRegion0
import proofs.«112669_j738734375717_2_alg».proof.Proof.KiRegion1
import proofs.«112669_j738734375717_2_alg».proof.Proof.KiRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary between a host stretch and a region: a fold through the program -/

/-- Core `c`'s buffers at launch. -/
abbrev Wb0 : Dev nD → Valuation τ sig (Elt F) := fun c b => (s₀ m ρ).mem ((c : Dev nD), b)
/-- After the first host stretch (the input reshaped to rows, the projection weight transposed): region 0's entry. -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b

/-- After region 0: its arrays at what the pipeline leaves (an input as entered, the output's write-backs folded),
    every other buffer as entered. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
/-- The same read at the TensorCore's references. -/
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- After the second host stretch (the projection split into query, key and value rows per head): region 1's entry. -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b

/-- After region 1: its arrays at what the pipeline leaves (an input as entered, the output's write-backs folded),
    every other buffer as entered. -/
def Wb4 (c : Dev nD) : Valuation τ sig (Elt F) :=
  Pipeline.withArrays spec1 c (Wb3 m ρ c) fun w => (dat1 (Vb3 m ρ) c).arrAt w cfg1.N
theorem Wb4_arr (c : Dev nD) (w : Fin cfg1.W) :
    Wb4 m ρ c (Proc.devRef .tc (Pipeline.arrRef spec1 w)) = (dat1 (Vb3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
/-- The same read at the TensorCore's references. -/
abbrev Vb4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vb4 m ρ c (Pipeline.arrRef spec1 w) :=
  (Wb4_arr m ρ c w).symm
theorem hrest1 (c : Dev nD) : ∀ b, b ∉ Finset.univ.image (Pipeline.arrRef spec1) → Vb4 m ρ c b = Vb3 m ρ c b :=
  fun b hb => Wb4_of_ne m ρ c b fun w e => hb (Finset.mem_image.mpr ⟨w, Finset.mem_univ _, e⟩)

/-- After the third host stretch (the heads laid side by side again, the output weight transposed): region 2's entry. -/
abbrev Wb5 : Dev nD → Valuation τ sig (Elt F) := fun c => StableHlo.after hostOps2 (Wb4 m ρ c)
abbrev Vb5 : (c : Dev nD) → (b : Ref sig .tc) → Buf (Elt F) ((c : Thread nD τ).loc b) := fun c b => Wb5 m ρ c b

/-- After region 2: its arrays at what the pipeline leaves (an input as entered, the output's write-backs folded),
    every other buffer as entered. -/
def Wb6 (c : Dev nD) : Valuation τ sig (Elt F) :=
  Pipeline.withArrays spec2 c (Wb5 m ρ c) fun w => (dat2 (Vb5 m ρ) c).arrAt w cfg2.N
theorem Wb6_arr (c : Dev nD) (w : Fin cfg2.W) :
    Wb6 m ρ c (Proc.devRef .tc (Pipeline.arrRef spec2 w)) = (dat2 (Vb5 m ρ) c).arrAt w cfg2.N := by
  unfold Wb6; exact Pipeline.withArrays_arr spec2 launch2.win.arr_inj c _ _ w
theorem Wb6_of_ne (c : Dev nD) (b : Ref sig .tc) (hb : ∀ w, Pipeline.arrRef spec2 w ≠ b) :
    Wb6 m ρ c (Proc.devRef .tc b) = Wb5 m ρ c (Proc.devRef .tc b) := by
  unfold Wb6; exact Pipeline.withArrays_of_ne spec2 c _ _ b hb
/-- The same read at the TensorCore's references. -/
abbrev Vb6 : (c : Dev nD) → (b : Ref sig .tc) → Buf (Elt F) ((c : Thread nD τ).loc b) := fun c b => Wb6 m ρ c b
theorem hF2 (c : Dev nD) (w : Fin cfg2.W) : (dat2 (Vb5 m ρ) c).arrAt w cfg2.N = Vb6 m ρ c (Pipeline.arrRef spec2 w) :=
  (Wb6_arr m ρ c w).symm
theorem hrest2 (c : Dev nD) : ∀ b, b ∉ Finset.univ.image (Pipeline.arrRef spec2) → Vb6 m ρ c b = Vb5 m ρ c b :=
  fun b hb => Wb6_of_ne m ρ c b fun w e => hb (Finset.mem_image.mpr ⟨w, Finset.mem_univ _, e⟩)

/-- After the last host stretch (the result reshaped): the contents the program ends with. -/
abbrev Wb7 : Dev nD → Valuation τ sig (Elt F) := fun c => StableHlo.after hostOps3 (Wb6 m ρ c)

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb3 m ρ) c
  | ⟨2, _⟩ => fun c => dat2 (Vb5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents, the generator register at some state. -/
abbrev Tₙ (c : Dev nD) : sProp 𝕄 := iprop(StableHlo.held (c : Thread nD τ) (Pipeline.ucRefs τ sig) (Wb7 m ρ c) ∗ ∃ r, prngReg c r)

/-- The generator register and the scoped buffers no window stages make region 1's class invariant (whatever else rides along is dropped). -/
theorem toΦA1 (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp
/-- and the class invariant gives them back. -/
theorem fromΦA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr
/-- The last host stretch leaves the final contents beside the generator register and the core owing nothing: the run's last thread state. -/
theorem lastLink (c : Dev nD) :
    iprop(StableHlo.held (c : Thread nD τ) (Pipeline.ucRefs τ sig) (Wb7 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered with every unscoped buffer at the contents after the host stretch before it,
    left with the region's arrays at what its write-backs leave and every other buffer as entered. The arrays are split
    out of the unscoped buffers and put back; the generator register goes into the region's invariant and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (Wb1 m ρ c) ∗ R c)
  post c := iprop(StableHlo.held (c : Thread nD τ) (Pipeline.ucRefs τ sig) (Wb2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents after the host stretch before it,
    left with the region's arrays at what its write-backs leave and every other buffer as entered. The arrays are split
    out of the unscoped buffers and put back; the generator register goes into the region's invariant and comes out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ L lv 1 fun _ _ => rfl
  pre c := iprop(StableHlo.held (c : Thread nD τ) (Pipeline.ucRefs τ sig) (Wb3 m ρ c) ∗ R c)
  post c := iprop(StableHlo.held (c : Thread nD τ) (Pipeline.ucRefs τ sig) (Wb4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (toΦA1 c _).trans (hin1 (Vb3 m ρ) c)
  hout c := by
    rw [Pipeline.ownSems0_none]
    exact (hout1 (Vb3 m ρ) c).trans (fromΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb3 m ρ c) (Vb4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents after the host stretch before it,
    left with the region's arrays at what its write-backs leave and every other buffer as entered. The arrays are split
    out of the unscoped buffers and put back; the generator register goes into the region's invariant and comes out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb5 m ρ) c).loose
  hwaits := Pipeline.hwaits_of_owed_zero _ _ _ _ L lv 2 fun _ _ => rfl
  pre c := iprop(StableHlo.held (c : Thread nD τ) (Pipeline.ucRefs τ sig) (Wb5 m ρ c) ∗ R c)
  post c := iprop(StableHlo.held (c : Thread nD τ) (Pipeline.ucRefs τ sig) (Wb6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vb5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vb5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vb5 m ρ c) (Vb6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh' (Wb0 m ρ)),
    .region (reg0 m ρ),
    .host (hseg hostOps1 hostOps1_sub hostOps1_fresh' (Wb2 m ρ)),
    .region (reg1 m ρ),
    .host (hseg hostOps2 hostOps2_sub hostOps2_fresh' (Wb4 m ρ)),
    .region (reg2 m ρ),
    .host (hseg hostOps3 hostOps3_sub hostOps3_fresh' (Wb6 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ R c)) (Tₙ := Tₙ m ρ)
    (hch := ⟨fun _ => .rfl, fun _ => .rfl, fun _ => .rfl, fun _ => .rfl, fun _ => .rfl, fun _ => .rfl, fun _ => .rfl, fun c => lastLink m ρ c⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb7 m ρ c) s')
      isplitl [Hh] <;> iassumption)
    (hQ := fun s h c => h c)

/-! ## The frame: the arguments end as launched -/

/-- A buffer that no host stretch writes and no region stages ends holding its launch contents. -/
theorem Wb7_keep (c : Dev nD) (r : Ref sig .tc) (h0 : r ∉ hostOps0_W) (h1 : r ∉ hostOps1_W) (h2 : r ∉ hostOps2_W) (h3 : r ∉ hostOps3_W)
    (g0 : ∀ w, Pipeline.arrRef spec0 w ≠ r) (g1 : ∀ w, Pipeline.arrRef spec1 w ≠ r) (g2 : ∀ w, Pipeline.arrRef spec2 w ≠ r) :
    Wb7 m ρ c (Proc.devRef .tc r) = m ((c : Thread nD τ).loc r) :=
  calc Wb7 m ρ c (Proc.devRef .tc r)
    _ = Wb6 m ρ c (Proc.devRef .tc r) := StableHlo.after_of_writes_sub hostOps3 _ hostOps3_writes h3
    _ = Wb5 m ρ c (Proc.devRef .tc r) := Wb6_of_ne m ρ c r g2
    _ = Wb4 m ρ c (Proc.devRef .tc r) := StableHlo.after_of_writes_sub hostOps2 _ hostOps2_writes h2
    _ = Wb3 m ρ c (Proc.devRef .tc r) := Wb4_of_ne m ρ c r g1
    _ = Wb2 m ρ c (Proc.devRef .tc r) := StableHlo.after_of_writes_sub hostOps1 _ hostOps1_writes h1
    _ = Wb1 m ρ c (Proc.devRef .tc r) := Wb2_of_ne m ρ c r g0
    _ = Wb0 m ρ c (Proc.devRef .tc r) := StableHlo.after_of_writes_sub hostOps0 _ hostOps0_writes h0
    _ = m ((c : Thread nD τ).loc r) := rfl

/-- THE FRAME, at any float instance: every weakly fair execution terminates, nothing faulting, and the three argument
    arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Wb7_keep m ρ c main_arg0 (by decide) (by decide) (by decide) (by decide) (by decide) (by decide) (by decide)),
     (h c _ (mem_uc main_arg1 (by decide))).trans (Wb7_keep m ρ c main_arg1 (by decide) (by decide) (by decide) (by decide) (by decide) (by decide) (by decide)),
     (h c _ (mem_uc main_arg2 (by decide))).trans (Wb7_keep m ρ c main_arg2 (by decide) (by decide) (by decide) (by decide) (by decide) (by decide) (by decide))⟩)
    (run_all m ρ)

end Cert.KernelIdeal.Fr

end
-- ==== Proof.KiHost.lean ====
/-
  The four stretches of host operations of @main, each read at an index.

  Between the three kernel regions @main only moves data: reshapes, transposes, unit-stride slices, and one change of
  float format, which at the ideal reading (a float an extended real) is the identity. So every buffer a stretch
  writes holds, at each index, the value at ONE index of a buffer the stretch found: this file names that index.
  Throughout, `W` is an arbitrary valuation, the buffers' contents when the stretch begins, and
  `StableHlo.after hostOpsK W` the contents when it ends.

  A reshape keeps the row-major position, so
    [2,2048,1024] ↔ [4096,1024]        pairs (b, t, c) with (b·2048 + t, c),
    [2,2048,1024] ↔ [2,2048,16,64]     pairs (b, t, h·64 + d) with (b, t, h, d),
    [2,16,2048,64] ↔ [32,2048,64]      pairs (b, h, t, d) with (b·16 + h, t, d);
  a transpose with permutation [0,2,1,3] exchanges the two middle coordinates, one with [1,0] the two coordinates;
  a slice at offsets (0, 0, k) shifts the last coordinate by k.

  Each buffer is first written as the composed layout term of its operations (`…_eq`), then that term is read one
  operation at a time, outermost first, the index arithmetic of each step a linear identity over the coordinates.
  `hostK_keep`: a buffer the stretch does not write keeps its contents.
-/
import proofs.«112669_j738734375717_2_alg».proof.Proof.Gen.KernelIdeal.Launch
import proofs.«112669_j738734375717_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.SL.Sem

-- the buffers' contents when a stretch begins
variable (W : Valuation τ sig (Elt Ideal))

/-! ## Stretch 0: the activations flattened, the joint projection weight transposed -/

/-- A buffer stretch 0 does not write keeps its contents. -/
theorem host0_keep (r : Ref sig .tc) (h : r ∉ hostOps0_W) :
    StableHlo.after hostOps0 W (Proc.devRef .tc r) = W (Proc.devRef .tc r) :=
  StableHlo.after_of_writes_sub hostOps0 _ hostOps0_writes h

theorem host0_v0_eq : StableHlo.after hostOps0 W (Proc.devRef .tc main_v0)
      = shapeCast _ (W (Proc.devRef .tc main_arg0)) shapeCasts_S2x2048x1024_S4096x1024 := by
  simp only [hostOps0]; after_results <;> rfl

/-- Row b·2048 + t of the flattened activations is row t of batch b. -/
theorem host0_v0 (b : Fin 2) (t : Fin 2048) (c : Fin 1024) :
    StableHlo.after hostOps0 W (Proc.devRef .tc main_v0) (ix2 (⟨b.val * 2048 + t.val, by omega⟩ : Fin 4096) c)
      = W (Proc.devRef .tc main_arg0) (ix3 b t c) := by
  rw [host0_v0_eq]
  exact shapeCast_apply _ shapeCasts_S2x2048x1024_S4096x1024 _ _
    (by rewrite [Shape.rowMajor_val_three, Shape.rowMajor_val_two]
        show (b.val * 2048 + t.val) * 1024 + c.val = (b.val * 2048 + t.val) * 1024 + c.val
        rfl)

theorem host0_v2_eq : StableHlo.after hostOps0 W (Proc.devRef .tc main_v2)
      = (truncf (F := Ideal) .bf16 (transpose S1024x3072 [1, 0] (W (Proc.devRef .tc main_arg1) : FVec Ideal S3072x1024 .f32) transposes_S3072x1024_S1024x3072_1_0) bitsLt_bf16_f32 : FVec Ideal S1024x3072 .bf16) := by
  simp only [hostOps0]; after_results <;> rfl

/-- The region's weight operand is the joint projection weight transposed (the format change is the identity). -/
theorem host0_v2 (c : Fin 1024) (f : Fin 3072) :
    StableHlo.after hostOps0 W (Proc.devRef .tc main_v2) (ix2 c f) = W (Proc.devRef .tc main_arg1) (ix2 f c) := by
  rw [host0_v2_eq]
  refine (truncf_apply _ bitsLt_bf16_f32 _).trans ?_
  exact transpose_apply [1, 0] _ transposes_S3072x1024_S1024x3072_1_0 _ _ (fun a => match a with
    | ⟨0, _⟩ => rfl
    | ⟨1, _⟩ => rfl)

/-! ## Stretch 1: the joint projection cut into queries, keys and values, one [2048,64] block per (batch, head) -/

/-- A buffer stretch 1 does not write keeps its contents. -/
theorem host1_keep (r : Ref sig .tc) (h : r ∉ hostOps1_W) :
    StableHlo.after hostOps1 W (Proc.devRef .tc r) = W (Proc.devRef .tc r) :=
  StableHlo.after_of_writes_sub hostOps1 _ hostOps1_writes h

/-- The queries, as the composed layout term over the region's output. -/
theorem host1_q_eq : StableHlo.after hostOps1 W (Proc.devRef .tc main_v10)
      = shapeCast S32x2048x64 (transpose S2x16x2048x64 [0, 2, 1, 3] (shapeCast S2x2048x16x64
          (extractStridedSlice S2x2048x1024 ![0, 0, 0]
            (shapeCast S2x2048x3072 (W (Proc.devRef .tc main_v3)) shapeCasts_S4096x3072_S2x2048x3072)
            slices_S2x2048x3072_S2x2048x1024_0_0_0)
          shapeCasts_S2x2048x1024_S2x2048x16x64) transposes_S2x2048x16x64_S2x16x2048x64_0_2_1_3) shapeCasts_S2x16x2048x64_S32x2048x64 := by
  simp only [hostOps1]; after_results_simp <;> rfl

/-- The queries at (batch b, head h, position t, feature d): row b·2048 + t of the joint projection, column
    h·64 + d. -/
theorem host1_q (b : Fin 2) (h : Fin 16) (t : Fin 2048) (d : Fin 64) :
    StableHlo.after hostOps1 W (Proc.devRef .tc main_v10) (ix3 (⟨b.val * 16 + h.val, by omega⟩ : Fin 32) t d)
      = W (Proc.devRef .tc main_v3) (ix2 (⟨b.val * 2048 + t.val, by omega⟩ : Fin 4096) (⟨h.val * 64 + d.val, by omega⟩ : Fin 3072)) := by
  rw [host1_q_eq]
  -- [32,2048,64] from [2,16,2048,64]: equal row-major positions
  refine (shapeCast_apply _ shapeCasts_S2x16x2048x64_S32x2048x64 _ (ix4 b h t d)
    (by rewrite [Shape.rowMajor_val_four, Shape.rowMajor_val_three]
        show ((b.val * 16 + h.val) * 2048 + t.val) * 64 + d.val = ((b.val * 16 + h.val) * 2048 + t.val) * 64 + d.val
        rfl)).trans ?_
  -- [2,16,2048,64] from [2,2048,16,64]: the two middle axes exchanged
  refine (transpose_apply [0, 2, 1, 3] _ transposes_S2x2048x16x64_S2x16x2048x64_0_2_1_3 _ (ix4 b t h d) (fun a => match a with
    | ⟨0, _⟩ => rfl
    | ⟨1, _⟩ => rfl
    | ⟨2, _⟩ => rfl
    | ⟨3, _⟩ => rfl)).trans ?_
  -- [2,2048,16,64] from [2,2048,1024]: column h·64 + d
  refine (shapeCast_apply _ shapeCasts_S2x2048x1024_S2x2048x16x64 _ (ix3 b t (⟨h.val * 64 + d.val, by omega⟩ : Fin 1024))
    (by rewrite [Shape.rowMajor_val_three, Shape.rowMajor_val_four]
        show (b.val * 2048 + t.val) * 1024 + (h.val * 64 + d.val) = ((b.val * 2048 + t.val) * 16 + h.val) * 64 + d.val
        omega)).trans ?_
  -- the slice: the last axis shifted by 0
  refine (extractStridedSlice_apply ![0, 0, 0] _ slices_S2x2048x3072_S2x2048x1024_0_0_0 _
    (ix3 b t (⟨h.val * 64 + d.val, by omega⟩ : Fin 3072)) (fun a => match a with
    | ⟨0, _⟩ => by show b.val = 0 + b.val; omega
    | ⟨1, _⟩ => by show t.val = 0 + t.val; omega
    | ⟨2, _⟩ => by show h.val * 64 + d.val = 0 + (h.val * 64 + d.val); omega)).trans ?_
  -- [2,2048,3072] from [4096,3072]: row b·2048 + t
  exact shapeCast_apply _ shapeCasts_S4096x3072_S2x2048x3072 _ _
    (by rewrite [Shape.rowMajor_val_two, Shape.rowMajor_val_three]
        show (b.val * 2048 + t.val) * 3072 + (h.val * 64 + d.val) = (b.val * 2048 + t.val) * 3072 + (h.val * 64 + d.val)
        rfl)

/-- The keys, as the composed layout term over the region's output. -/
theorem host1_k_eq : StableHlo.after hostOps1 W (Proc.devRef .tc main_v13)
      = shapeCast S32x2048x64 (transpose S2x16x2048x64 [0, 2, 1, 3] (shapeCast S2x2048x16x64
          (extractStridedSlice S2x2048x1024 ![0, 0, 1024]
            (shapeCast S2x2048x3072 (W (Proc.devRef .tc main_v3)) shapeCasts_S4096x3072_S2x2048x3072)
            slices_S2x2048x3072_S2x2048x1024_0_0_1024)
          shapeCasts_S2x2048x1024_S2x2048x16x64) transposes_S2x2048x16x64_S2x16x2048x64_0_2_1_3) shapeCasts_S2x16x2048x64_S32x2048x64 := by
  simp only [hostOps1]; after_results_simp <;> rfl

/-- The keys at (batch b, head h, position t, feature d): row b·2048 + t of the joint projection, column
    1024 + h·64 + d. -/
theorem host1_k (b : Fin 2) (h : Fin 16) (t : Fin 2048) (d : Fin 64) :
    StableHlo.after hostOps1 W (Proc.devRef .tc main_v13) (ix3 (⟨b.val * 16 + h.val, by omega⟩ : Fin 32) t d)
      = W (Proc.devRef .tc main_v3) (ix2 (⟨b.val * 2048 + t.val, by omega⟩ : Fin 4096) (⟨1024 + h.val * 64 + d.val, by omega⟩ : Fin 3072)) := by
  rw [host1_k_eq]
  -- [32,2048,64] from [2,16,2048,64]: equal row-major positions
  refine (shapeCast_apply _ shapeCasts_S2x16x2048x64_S32x2048x64 _ (ix4 b h t d)
    (by rewrite [Shape.rowMajor_val_four, Shape.rowMajor_val_three]
        show ((b.val * 16 + h.val) * 2048 + t.val) * 64 + d.val = ((b.val * 16 + h.val) * 2048 + t.val) * 64 + d.val
        rfl)).trans ?_
  -- [2,16,2048,64] from [2,2048,16,64]: the two middle axes exchanged
  refine (transpose_apply [0, 2, 1, 3] _ transposes_S2x2048x16x64_S2x16x2048x64_0_2_1_3 _ (ix4 b t h d) (fun a => match a with
    | ⟨0, _⟩ => rfl
    | ⟨1, _⟩ => rfl
    | ⟨2, _⟩ => rfl
    | ⟨3, _⟩ => rfl)).trans ?_
  -- [2,2048,16,64] from [2,2048,1024]: column h·64 + d
  refine (shapeCast_apply _ shapeCasts_S2x2048x1024_S2x2048x16x64 _ (ix3 b t (⟨h.val * 64 + d.val, by omega⟩ : Fin 1024))
    (by rewrite [Shape.rowMajor_val_three, Shape.rowMajor_val_four]
        show (b.val * 2048 + t.val) * 1024 + (h.val * 64 + d.val) = ((b.val * 2048 + t.val) * 16 + h.val) * 64 + d.val
        omega)).trans ?_
  -- the slice: the last axis shifted by 1024
  refine (extractStridedSlice_apply ![0, 0, 1024] _ slices_S2x2048x3072_S2x2048x1024_0_0_1024 _
    (ix3 b t (⟨1024 + h.val * 64 + d.val, by omega⟩ : Fin 3072)) (fun a => match a with
    | ⟨0, _⟩ => by show b.val = 0 + b.val; omega
    | ⟨1, _⟩ => by show t.val = 0 + t.val; omega
    | ⟨2, _⟩ => by show 1024 + h.val * 64 + d.val = 1024 + (h.val * 64 + d.val); omega)).trans ?_
  -- [2,2048,3072] from [4096,3072]: row b·2048 + t
  exact shapeCast_apply _ shapeCasts_S4096x3072_S2x2048x3072 _ _
    (by rewrite [Shape.rowMajor_val_two, Shape.rowMajor_val_three]
        show (b.val * 2048 + t.val) * 3072 + (1024 + h.val * 64 + d.val) = (b.val * 2048 + t.val) * 3072 + (1024 + h.val * 64 + d.val)
        rfl)

/-- The values, as the composed layout term over the region's output. -/
theorem host1_v_eq : StableHlo.after hostOps1 W (Proc.devRef .tc main_v16)
      = shapeCast S32x2048x64 (transpose S2x16x2048x64 [0, 2, 1, 3] (shapeCast S2x2048x16x64
          (extractStridedSlice S2x2048x1024 ![0, 0, 2048]
            (shapeCast S2x2048x3072 (W (Proc.devRef .tc main_v3)) shapeCasts_S4096x3072_S2x2048x3072)
            slices_S2x2048x3072_S2x2048x1024_0_0_2048)
          shapeCasts_S2x2048x1024_S2x2048x16x64) transposes_S2x2048x16x64_S2x16x2048x64_0_2_1_3) shapeCasts_S2x16x2048x64_S32x2048x64 := by
  simp only [hostOps1]; after_results_simp <;> rfl

/-- The values at (batch b, head h, position t, feature d): row b·2048 + t of the joint projection, column
    2048 + h·64 + d. -/
theorem host1_v (b : Fin 2) (h : Fin 16) (t : Fin 2048) (d : Fin 64) :
    StableHlo.after hostOps1 W (Proc.devRef .tc main_v16) (ix3 (⟨b.val * 16 + h.val, by omega⟩ : Fin 32) t d)
      = W (Proc.devRef .tc main_v3) (ix2 (⟨b.val * 2048 + t.val, by omega⟩ : Fin 4096) (⟨2048 + h.val * 64 + d.val, by omega⟩ : Fin 3072)) := by
  rw [host1_v_eq]
  -- [32,2048,64] from [2,16,2048,64]: equal row-major positions
  refine (shapeCast_apply _ shapeCasts_S2x16x2048x64_S32x2048x64 _ (ix4 b h t d)
    (by rewrite [Shape.rowMajor_val_four, Shape.rowMajor_val_three]
        show ((b.val * 16 + h.val) * 2048 + t.val) * 64 + d.val = ((b.val * 16 + h.val) * 2048 + t.val) * 64 + d.val
        rfl)).trans ?_
  -- [2,16,2048,64] from [2,2048,16,64]: the two middle axes exchanged
  refine (transpose_apply [0, 2, 1, 3] _ transposes_S2x2048x16x64_S2x16x2048x64_0_2_1_3 _ (ix4 b t h d) (fun a => match a with
    | ⟨0, _⟩ => rfl
    | ⟨1, _⟩ => rfl
    | ⟨2, _⟩ => rfl
    | ⟨3, _⟩ => rfl)).trans ?_
  -- [2,2048,16,64] from [2,2048,1024]: column h·64 + d
  refine (shapeCast_apply _ shapeCasts_S2x2048x1024_S2x2048x16x64 _ (ix3 b t (⟨h.val * 64 + d.val, by omega⟩ : Fin 1024))
    (by rewrite [Shape.rowMajor_val_three, Shape.rowMajor_val_four]
        show (b.val * 2048 + t.val) * 1024 + (h.val * 64 + d.val) = ((b.val * 2048 + t.val) * 16 + h.val) * 64 + d.val
        omega)).trans ?_
  -- the slice: the last axis shifted by 2048
  refine (extractStridedSlice_apply ![0, 0, 2048] _ slices_S2x2048x3072_S2x2048x1024_0_0_2048 _
    (ix3 b t (⟨2048 + h.val * 64 + d.val, by omega⟩ : Fin 3072)) (fun a => match a with
    | ⟨0, _⟩ => by show b.val = 0 + b.val; omega
    | ⟨1, _⟩ => by show t.val = 0 + t.val; omega
    | ⟨2, _⟩ => by show 2048 + h.val * 64 + d.val = 2048 + (h.val * 64 + d.val); omega)).trans ?_
  -- [2,2048,3072] from [4096,3072]: row b·2048 + t
  exact shapeCast_apply _ shapeCasts_S4096x3072_S2x2048x3072 _ _
    (by rewrite [Shape.rowMajor_val_two, Shape.rowMajor_val_three]
        show (b.val * 2048 + t.val) * 3072 + (2048 + h.val * 64 + d.val) = (b.val * 2048 + t.val) * 3072 + (2048 + h.val * 64 + d.val)
        rfl)

/-! ## Stretch 2: the heads' outputs laid side by side again, the output projection weight transposed -/

/-- A buffer stretch 2 does not write keeps its contents. -/
theorem host2_keep (r : Ref sig .tc) (h : r ∉ hostOps2_W) :
    StableHlo.after hostOps2 W (Proc.devRef .tc r) = W (Proc.devRef .tc r) :=
  StableHlo.after_of_writes_sub hostOps2 _ hostOps2_writes h

theorem host2_v21_eq : StableHlo.after hostOps2 W (Proc.devRef .tc main_v21)
      = shapeCast S4096x1024 (shapeCast S2x2048x1024 (transpose S2x2048x16x64 [0, 2, 1, 3]
          (shapeCast S2x16x2048x64 (W (Proc.devRef .tc main_v17)) shapeCasts_S32x2048x64_S2x16x2048x64)
          transposes_S2x16x2048x64_S2x2048x16x64_0_2_1_3) shapeCasts_S2x2048x16x64_S2x2048x1024) shapeCasts_S2x2048x1024_S4096x1024 := by
  simp only [hostOps2]; after_results <;> rfl

/-- Row b·2048 + t, column h·64 + d of the merged heads is head h of batch b at position t, feature d. -/
theorem host2_v21 (b : Fin 2) (h : Fin 16) (t : Fin 2048) (d : Fin 64) :
    StableHlo.after hostOps2 W (Proc.devRef .tc main_v21) (ix2 (⟨b.val * 2048 + t.val, by omega⟩ : Fin 4096) (⟨h.val * 64 + d.val, by omega⟩ : Fin 1024))
      = W (Proc.devRef .tc main_v17) (ix3 (⟨b.val * 16 + h.val, by omega⟩ : Fin 32) t d) := by
  rw [host2_v21_eq]
  -- [4096,1024] from [2,2048,1024]: row b·2048 + t
  refine (shapeCast_apply _ shapeCasts_S2x2048x1024_S4096x1024 _ (ix3 b t (⟨h.val * 64 + d.val, by omega⟩ : Fin 1024))
    (by rewrite [Shape.rowMajor_val_three, Shape.rowMajor_val_two]
        show (b.val * 2048 + t.val) * 1024 + (h.val * 64 + d.val) = (b.val * 2048 + t.val) * 1024 + (h.val * 64 + d.val)
        rfl)).trans ?_
  -- [2,2048,1024] from [2,2048,16,64]: column h·64 + d
  refine (shapeCast_apply _ shapeCasts_S2x2048x16x64_S2x2048x1024 _ (ix4 b t h d)
    (by rewrite [Shape.rowMajor_val_four, Shape.rowMajor_val_three]
        show ((b.val * 2048 + t.val) * 16 + h.val) * 64 + d.val = (b.val * 2048 + t.val) * 1024 + (h.val * 64 + d.val)
        omega)).trans ?_
  -- [2,2048,16,64] from [2,16,2048,64]: the two middle axes exchanged
  refine (transpose_apply [0, 2, 1, 3] _ transposes_S2x16x2048x64_S2x2048x16x64_0_2_1_3 _ (ix4 b h t d) (fun a => match a with
    | ⟨0, _⟩ => rfl
    | ⟨1, _⟩ => rfl
    | ⟨2, _⟩ => rfl
    | ⟨3, _⟩ => rfl)).trans ?_
  -- [2,16,2048,64] from [32,2048,64]: block b·16 + h
  exact shapeCast_apply _ shapeCasts_S32x2048x64_S2x16x2048x64 _ _
    (by rewrite [Shape.rowMajor_val_three, Shape.rowMajor_val_four]
        show ((b.val * 16 + h.val) * 2048 + t.val) * 64 + d.val = ((b.val * 16 + h.val) * 2048 + t.val) * 64 + d.val
        rfl)

theorem host2_v23_eq : StableHlo.after hostOps2 W (Proc.devRef .tc main_v23)
      = (truncf (F := Ideal) .bf16 (transpose S1024x1024 [1, 0] (W (Proc.devRef .tc main_arg2) : FVec Ideal S1024x1024 .f32) transposes_S1024x1024_S1024x1024_1_0) bitsLt_bf16_f32 : FVec Ideal S1024x1024 .bf16) := by
  simp only [hostOps2]; after_results <;> rfl

/-- The region's weight operand is the output projection weight transposed (the format change is the identity). -/
theorem host2_v23 (c o : Fin 1024) :
    StableHlo.after hostOps2 W (Proc.devRef .tc main_v23) (ix2 c o) = W (Proc.devRef .tc main_arg2) (ix2 o c) := by
  rw [host2_v23_eq]
  refine (truncf_apply _ bitsLt_bf16_f32 _).trans ?_
  exact transpose_apply [1, 0] _ transposes_S1024x1024_S1024x1024_1_0 _ _ (fun a => match a with
    | ⟨0, _⟩ => rfl
    | ⟨1, _⟩ => rfl)

/-! ## Stretch 3: the result unflattened -/

/-- A buffer stretch 3 does not write keeps its contents. -/
theorem host3_keep (r : Ref sig .tc) (h : r ∉ hostOps3_W) :
    StableHlo.after hostOps3 W (Proc.devRef .tc r) = W (Proc.devRef .tc r) :=
  StableHlo.after_of_writes_sub hostOps3 _ hostOps3_writes h

theorem host3_v25_eq : StableHlo.after hostOps3 W (Proc.devRef .tc main_v25)
      = shapeCast _ (W (Proc.devRef .tc main_v24)) shapeCasts_S4096x1024_S2x2048x1024 := by
  simp only [hostOps3]; after_results <;> rfl

/-- Row t of batch b of the result is row b·2048 + t of the last region's output. -/
theorem host3_v25 (b : Fin 2) (t : Fin 2048) (o : Fin 1024) :
    StableHlo.after hostOps3 W (Proc.devRef .tc main_v25) (ix3 b t o)
      = W (Proc.devRef .tc main_v24) (ix2 (⟨b.val * 2048 + t.val, by omega⟩ : Fin 4096) o) := by
  rw [host3_v25_eq]
  exact shapeCast_apply _ shapeCasts_S4096x1024_S2x2048x1024 _ _
    (by rewrite [Shape.rowMajor_val_two, Shape.rowMajor_val_three]
        show (b.val * 2048 + t.val) * 1024 + o.val = (b.val * 2048 + t.val) * 1024 + o.val
        rfl)

end Cert.KernelIdeal.Val
-- ==== Proof.KiPayMatmul.lean ====
/-
  The two projection kernels' payloads read at an index, on the extended reals where every operation is exact and a
  change of float format is the identity. A [512,1024]·[1024,1024] matrix product into the zero splat, read at (p, j),
  is the sum over the shared axis of the products of the left operand's row p and the right operand's column j; the
  contraction index has one axis and the sum is re-indexed through its single coordinate. Each kernel's output element
  is that sum (pay0_apply, pay2_apply); the narrowing of the first kernel's operand and result is the identity.
-/
import proofs.«112669_j738734375717_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx
open scoped BigOperators

/-! ## The matrix product read at an index -/

theorem dot512_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dot512_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem dot512_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem dot512_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The [512,1024] × [1024,1024] product into the zero splat, at (p, j): the sum over the shared axis of the products. -/
theorem dot512_apply (a : FVec Ideal S512x1024 .bf16) (b : FVec Ideal S1024x1024 .bf16) (p : Fin 512) (j : Fin 1024) :
    matmul dot_S512x1024_S1024x1024_S512x1024_1_0_0_1_n_n none a b (constant (F := Ideal) S512x1024 .f32 0x00000000#32) (ix2 p j)
      = ∑ k : Fin 1024, a (ix2 p k) * b (ix2 k j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p j) ((contrEquiv1 dot_S512x1024_S1024x1024_S512x1024_1_0_0_1_n_n 1024 rfl rfl).symm k) = ix2 p k :=
    funext fun a => Fin.ext (by
      match a with
      | ⟨0, _⟩ => exact dot512_lhs0 _ _
      | ⟨1, _⟩ => exact (dot512_lhs1 _ _).trans hk)
  have er : dot_S512x1024_S1024x1024_S512x1024_1_0_0_1_n_n.rhsIdx (ix2 p j) ((contrEquiv1 dot_S512x1024_S1024x1024_S512x1024_1_0_0_1_n_n 1024 rfl rfl).symm k) = ix2 k j :=
    funext fun a => Fin.ext (by
      match a with
      | ⟨0, _⟩ => exact (dot512_rhs0 _ _).trans hk
      | ⟨1, _⟩ => exact dot512_rhs1 _ _)
  rw [el, er]

/-! ## The projection kernels -/

theorem pay0_apply (v0 : Vec Ideal S512x1024 .f32) (v3 : Vec Ideal S1024x1024 .bf16) (p : Fin 512) (j : Fin 1024) :
    k0_pay1 (F := Ideal) v0 v3 (ix2 p j) = ∑ k : Fin 1024, v0 (ix2 p k) * v3 (ix2 k j) := by
  unfold k0_pay1
  simp only [shapeCast_self]
  exact dot512_apply (truncf .bf16 v0 bitsLt_bf16_f32) v3 p j

theorem pay2_apply (v0 : Vec Ideal S512x1024 .bf16) (v2 : Vec Ideal S1024x1024 .bf16) (p : Fin 512) (j : Fin 1024) :
    k2_pay1 (F := Ideal) v0 v2 (ix2 p j) = ∑ k : Fin 1024, v0 (ix2 p k) * v2 (ix2 k j) := by
  unfold k2_pay1
  simp only [shapeCast_self]
  exact dot512_apply v0 v2 p j

end Cert.KernelIdeal.Val

end
-- ==== Proof.KiValue0.lean ====
/-
  The joint projection's array after its region, as one function of the arrays the region finds on entry. The grid's
  point (i, j) owns block (i, j) of the output (512 rows by 1024 columns of the [4096,3072] array); there the body reads row
  block i of the left array (all 1024 columns) and column block j of the right array (all 1024 rows) and stores their product
  over the shared axis of 1024. Read at an index of the whole array, every point therefore writes the same thing: the sum
  over k of left[row, k] · right[k, column]. The 8 by 3 blocks tile the array, so after the last point the output array is
  that sum at every index.
-/
import proofs.«112669_j738734375717_2_alg».proof.Proof.KiRegion0
import proofs.«112669_j738734375717_2_alg».proof.Proof.KiPayMatmul
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

-- the TensorCore's buffer contents when the region is entered, on the extended reals
variable (V : (c : Dev nD) → (b : Ref sig .tc) → Buf (Elt Ideal) ((c : Thread nD τ).loc b))

/-- The body's accesses start at the origin of their buffers. -/
theorem origin0 : (![0, 0] : Fin 2 → Nat) = fun _ => 0 := funext fun a => by fin_cases a <;> rfl

/-- The product of a [4096,1024] array with a [1024,3072] array over their shared axis, index by index. -/
abbrev prodArr0 (A : S4096x1024.Idx → EReal) (B : S1024x3072.Idx → EReal) : S4096x3072.Idx → EReal :=
  fun i => ∑ k : Fin 1024, A (ix2 (i 0) k) * B (ix2 k (i 1))

/-- The payload of two blocks, at (p, q), is the array product at an index i, when row p of the left block is row
    `i 0` of the left array and column q of the right block is column `i 1` of the right array. -/
theorem pay0_of_rows (A : S4096x1024.Idx → EReal) (B : S1024x3072.Idx → EReal)
    (x0 : Vec Ideal S512x1024 .f32) (x1 : Vec Ideal S1024x1024 .bf16) (i : S4096x3072.Idx) (p : Fin 512) (q : Fin 1024)
    (h0 : ∀ k : Fin 1024, x0 (ix2 p k) = A (ix2 (i 0) k)) (h1 : ∀ k : Fin 1024, x1 (ix2 k q) = B (ix2 k (i 1))) :
    k0_pay1 (F := Ideal) x0 x1 (ix2 p q) = prodArr0 A B i := by
  rw [pay0_apply]
  exact Finset.sum_congr rfl fun k _ => by rw [h0, h1]

/-- The printed index maps, decided over the grid's 24 points: the left window moves with the output's row block and
    stays at column block 0, the right window stays at row block 0 and moves with the output's column block, and the
    output's block indices stay in their ranges. -/
theorem blocks_aligned0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7
    ∧ win0_2.index t (1 : Fin 2) ≤ 2 :=
  (by decide +kernel : ∀ t : Fin grid0.N, _)

/-- Every block of the output array is some point's. -/
theorem blocks_onto0 : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

/-- What point `t` writes back is block `t` of the array product of the two arrays as the region finds them. -/
theorem wrote0 (c : Dev nD) (t : Fin cfg0.N) :
    (dat0 V c).flushed 2 t = ((cfg0.win 2).blk t).view.read (Elt Ideal) (prodArr0 (V c main_v0) (V c main_v2)) := by
  show (cfg0.win 2).cut (grid0.coords t) ((dat0 V c).after 2 t) = _
  rw [after0_2]
  unfold out0_2
  rw [View.canon_unit_zero origin0]
  simp only [View.ld_unit_zero (S := S512x1024) origin0, View.ld_unit_zero (S := S1024x1024) origin0]
  obtain ⟨e0, e1, e2, e3, e4, e5⟩ := blocks_aligned0 t
  refine funext fun (j : S512x1024.Idx) => ?_
  obtain ⟨p, q, rfl⟩ : ∃ (p : Fin 512) (q : Fin 1024), j = ix2 p q := ⟨j 0, j 1, eq_ix2 j⟩
  refine pay0_of_rows (V c main_v0) (V c main_v2) (iblk0 V c 0 t) (iblk0 V c 1 t) (((cfg0.win 2).blk t).view.emb (ix2 p q)) p q (fun k => ?_) (fun k => ?_)
  · show V c main_v0 (((cfg0.win 0).blk t).view.emb (ix2 p k)) = V c main_v0 _
    refine congrArg _ (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  · show V c main_v2 (((cfg0.win 1).blk t).view.emb (ix2 k q)) = V c main_v2 _
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_2.index t (1 : Fin 2) * 1024 + 1 * q.val; omega

/-- An index of the output array is in point `t`'s block iff each coordinate is in the block's range on its axis. -/
theorem mem_block0 (t : Fin cfg0.N) (i : S4096x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3).slice (win0_2.rect t)).set ↔ _
  rw [View.set_slice_whole, Rect.mem_set_unit]
  exact Iff.rfl

/-- Every index of the output array is in some point's block: row r is in row block r / 512, column f in column
    block f / 1024. -/
theorem covered0 (i : S4096x3072.Idx) : ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := blocks_onto0 ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The joint projection's array after the region: the product of the two arrays the region finds, index by index. -/
theorem arr0 (c : Dev nD) : (dat0 V c).arrAt 2 cfg0.N = prodArr0 (V c main_v0) (V c main_v2) :=
  (dat0 V c).arrAt_eq_of_cover 2 (prodArr0 (V c main_v0) (V c main_v2)) (fun t _ => wrote0 V c t) covered0

/-- The array product at row r and column f. -/
theorem prodArr0_apply (A : S4096x1024.Idx → EReal) (B : S1024x3072.Idx → EReal) (r : Fin 4096) (f : Fin 3072) :
    prodArr0 A B (ix2 r f) = ∑ k : Fin 1024, A (ix2 r k) * B (ix2 k f) := rfl

/-- The same read at row r and column f, with the two arrays the region finds named as functions into the extended
    reals (`hA`, `hB`): the form a caller who knows what the host wrote into them applies. -/
theorem arr0_at (c : Dev nD) (A : S4096x1024.Idx → EReal) (B : S1024x3072.Idx → EReal) (hA : V c main_v0 = A) (hB : V c main_v2 = B)
    (r : Fin 4096) (f : Fin 3072) :
    ((dat0 V c).arrAt 2 cfg0.N : S4096x3072.Idx → EReal) (ix2 r f) = ∑ k : Fin 1024, A (ix2 r k) * B (ix2 k f) := by
  subst hA hB
  exact congrFun (arr0 V c) (ix2 r f)

end Cert.KernelIdeal.Val

end
-- ==== Proof.KiStep1.lean ====
/- Region 1 of @main (the causal flash-attention kernel): the STEP EQUATIONS that hide the five control cases. What the
   three scratch buffers hold after a point is one online-softmax update of what the point started from when the key
   block is not wholly above the diagonal, and unchanged otherwise; a point starts from the initial values at a first key
   block and from what the point before left elsewhere; and at a last key block the output block is the accumulator over
   the normaliser. Each is read off the pieces the case runs found: every store of this kernel covers its whole buffer,
   so a buffer's final contents is the payload of its last store. -/
import proofs.«112669_j738734375717_2_alg».proof.Proof.KiRegion1
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F] [Named F]

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The grid coordinates of a point -/

/-- The query-block index of point `t` of the grid (32, 8, 8) — decided over the grid. -/
theorem coords1_qi : ∀ t : Fin cfg1.N, ((grid1.coords t) 1).val = t.val / 8 % 8 :=
  (by decide +kernel : ∀ t : Fin grid1.N, ((grid1.coords t) 1).val = t.val / 8 % 8)
/-- Its key-block index. -/
theorem coords1_ki : ∀ t : Fin cfg1.N, ((grid1.coords t) 2).val = t.val % 8 :=
  (by decide +kernel : ∀ t : Fin grid1.N, ((grid1.coords t) 2).val = t.val % 8)

/-! ## What each case's pieces are -/

/-- Case A (the first key block: the scratch reads back the just-stored initial values): the running maximum is the new maximum — the payload of the buffer's last store, whose loads read whole buffers. -/
theorem sout1_A_0_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    sout1_A_0 c i arg3 harg3 arg4 harg4 arg5 harg5 arg6 harg6 arg7 harg7 arg8 harg8 arg9 harg9 hc0 hc1 hc2 x0 x1 x2 = k1_pay5 (k1_pay8 (BitVec.ofNat 32 (i 1).val) (BitVec.ofNat 32 (i 2).val) x0 x1 (k1_pay1 (F := F))) := by
  unfold sout1_A_0
  rw [View.read_writes_eq_canon _ _ _ (scover1_A_0 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero (S := S256x1) hz2]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2, View.readCov_unit_zero (S := S256x1) _ hz2, View.readCov_unit_zero (S := S256x64) _ hz2]

/-- Case A (the first key block: the scratch reads back the just-stored initial values): the normaliser is the rescaled old one plus the block's row sums — the payload of the buffer's last store, whose loads read whole buffers. -/
theorem sout1_A_1_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    sout1_A_1 c i arg3 harg3 arg4 harg4 arg5 harg5 arg6 harg6 arg7 harg7 arg8 harg8 arg9 harg9 hc0 hc1 hc2 x0 x1 x2 = k1_pay11 (BitVec.ofNat 32 (i 1).val) (BitVec.ofNat 32 (i 2).val) x0 x1 (k1_pay1 (F := F)) (k1_pay2 (F := F)) := by
  unfold sout1_A_1
  rw [View.read_writes_eq_canon _ _ _ (scover1_A_1 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero (S := S256x1) hz2]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2, View.readCov_unit_zero (S := S256x1) _ hz2, View.readCov_unit_zero (S := S256x64) _ hz2]

/-- Case A (the first key block: the scratch reads back the just-stored initial values): the accumulator is the rescaled old one plus the block's weighted values — the payload of the buffer's last store, whose loads read whole buffers. -/
theorem sout1_A_2_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : cond1_0 i) (hc1 : cond1_1 i) (hc2 : ¬cond1_2 i)
    (x0 : Vec F S1x256x64 .bf16) (x1 : Vec F S1x256x64 .bf16) (x2 : Vec F S1x256x64 .bf16) :
    sout1_A_2 c i arg3 harg3 arg4 harg4 arg5 harg5 arg6 harg6 arg7 harg7 arg8 harg8 arg9 harg9 hc0 hc1 hc2 x0 x1 x2 = k1_pay4 (k1_pay9 (BitVec.ofNat 32 (i 1).val) (BitVec.ofNat 32 (i 2).val) x0 x1 (k1_pay1 (F := F))) (k1_pay10 (BitVec.ofNat 32 (i 1).val) (BitVec.ofNat 32 (i 2).val) x0 x1 (k1_pay1 (F := F))) x2 (k1_pay3 (F := F)) := by
  unfold sout1_A_2
  rw [View.read_writes_eq_canon _ _ _ (scover1_A_2 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero (S := S256x64) hz2]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2, View.readCov_unit_zero (S := S256x1) _ hz2, View.readCov_unit_zero (S := S256x64) _ hz2]

/-- Case B (an update over what the point before left): the running maximum is the new maximum — the payload of the buffer's last store, whose loads read whole buffers. -/
theorem sout1_B_0_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    sout1_B_0 c i arg3 harg3 arg4 harg4 arg5 harg5 arg6 harg6 arg7 harg7 arg8 harg8 arg9 harg9 hc0 hc1 hc2 x0 x1 x2 xs0 xs1 xs2 = k1_pay5 (k1_pay8 (BitVec.ofNat 32 (i 1).val) (BitVec.ofNat 32 (i 2).val) x0 x1 xs0) := by
  unfold sout1_B_0
  rw [View.read_writes_eq_canon _ _ _ (scover1_B_0 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_cons_unit_zero (S := S256x1) hz2]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2]

/-- Case B (an update over what the point before left): the normaliser is the rescaled old one plus the block's row sums — the payload of the buffer's last store, whose loads read whole buffers. -/
theorem sout1_B_1_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    sout1_B_1 c i arg3 harg3 arg4 harg4 arg5 harg5 arg6 harg6 arg7 harg7 arg8 harg8 arg9 harg9 hc0 hc1 hc2 x0 x1 x2 xs0 xs1 xs2 = k1_pay11 (BitVec.ofNat 32 (i 1).val) (BitVec.ofNat 32 (i 2).val) x0 x1 xs0 xs1 := by
  unfold sout1_B_1
  rw [View.read_writes_eq_canon _ _ _ (scover1_B_1 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_cons_unit_zero (S := S256x1) hz2]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2]

/-- Case B (an update over what the point before left): the accumulator is the rescaled old one plus the block's weighted values — the payload of the buffer's last store, whose loads read whole buffers. -/
theorem sout1_B_2_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : ¬cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    sout1_B_2 c i arg3 harg3 arg4 harg4 arg5 harg5 arg6 harg6 arg7 harg7 arg8 harg8 arg9 harg9 hc0 hc1 hc2 x0 x1 x2 xs0 xs1 xs2 = k1_pay4 (k1_pay9 (BitVec.ofNat 32 (i 1).val) (BitVec.ofNat 32 (i 2).val) x0 x1 xs0) (k1_pay10 (BitVec.ofNat 32 (i 1).val) (BitVec.ofNat 32 (i 2).val) x0 x1 xs0) x2 xs2 := by
  unfold sout1_B_2
  rw [View.read_writes_eq_canon _ _ _ (scover1_B_2 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_cons_unit_zero (S := S256x64) hz2]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2]

/-- Case D (the last key block on the diagonal: an update over what the point before left): the running maximum is the new maximum — the payload of the buffer's last store, whose loads read whole buffers. -/
theorem sout1_D_0_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    sout1_D_0 c i arg3 harg3 arg4 harg4 arg5 harg5 arg6 harg6 arg7 harg7 arg8 harg8 arg9 harg9 hc0 hc1 hc2 x0 x1 x2 xs0 xs1 xs2 = k1_pay5 (k1_pay8 (BitVec.ofNat 32 (i 1).val) (BitVec.ofNat 32 (i 2).val) x0 x1 xs0) := by
  unfold sout1_D_0
  rw [View.read_writes_eq_canon _ _ _ (scover1_D_0 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  rw [View.canon_cons_unit_zero (S := S256x1) hz2]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2]

/-- Case D (the last key block on the diagonal: an update over what the point before left): the normaliser is the rescaled old one plus the block's row sums — the payload of the buffer's last store, whose loads read whole buffers. -/
theorem sout1_D_1_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    sout1_D_1 c i arg3 harg3 arg4 harg4 arg5 harg5 arg6 harg6 arg7 harg7 arg8 harg8 arg9 harg9 hc0 hc1 hc2 x0 x1 x2 xs0 xs1 xs2 = k1_pay11 (BitVec.ofNat 32 (i 1).val) (BitVec.ofNat 32 (i 2).val) x0 x1 xs0 xs1 := by
  unfold sout1_D_1
  rw [View.read_writes_eq_canon _ _ _ (scover1_D_1 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  rw [View.canon_cons_unit_zero (S := S256x1) hz2]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2]

/-- Case D (the last key block on the diagonal: an update over what the point before left): the accumulator is the rescaled old one plus the block's weighted values — the payload of the buffer's last store, whose loads read whole buffers. -/
theorem sout1_D_2_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    sout1_D_2 c i arg3 harg3 arg4 harg4 arg5 harg5 arg6 harg6 arg7 harg7 arg8 harg8 arg9 harg9 hc0 hc1 hc2 x0 x1 x2 xs0 xs1 xs2 = k1_pay4 (k1_pay9 (BitVec.ofNat 32 (i 1).val) (BitVec.ofNat 32 (i 2).val) x0 x1 xs0) (k1_pay10 (BitVec.ofNat 32 (i 1).val) (BitVec.ofNat 32 (i 2).val) x0 x1 xs0) x2 xs2 := by
  unfold sout1_D_2
  rw [View.read_writes_eq_canon _ _ _ (scover1_D_2 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  rw [View.canon_cons_unit_zero (S := S256x64) hz2]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2]

/-- Case D: the output block is the new accumulator over the new normaliser. -/
theorem out1_D_3_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    out1_D_3 c i arg3 harg3 arg4 harg4 arg5 harg5 arg6 harg6 arg7 harg7 arg8 harg8 arg9 harg9 hc0 hc1 hc2 x0 x1 x2 xs0 xs1 xs2 = k1_pay6 (k1_pay4 (k1_pay9 (BitVec.ofNat 32 (i 1).val) (BitVec.ofNat 32 (i 2).val) x0 x1 xs0) (k1_pay10 (BitVec.ofNat 32 (i 1).val) (BitVec.ofNat 32 (i 2).val) x0 x1 xs0) x2 xs2) (k1_pay11 (BitVec.ofNat 32 (i 1).val) (BitVec.ofNat 32 (i 2).val) x0 x1 xs0 xs1) := by
  unfold out1_D_3
  rw [View.read_writes_eq_canon _ _ _ (cover1_D_3 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  rw [View.canon_cons_unit_zero (S := S1x256x64) hz3]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2, View.readCov_unit_zero (S := S256x1) _ hz2, View.readCov_unit_zero (S := S256x64) _ hz2]

/-- Case E: the output block is the accumulator over the normaliser, both as the point before left them. -/
theorem out1_E_3_eq (c : Dev nD) (i : grid1.Coords) (arg3 : Memref sig .tc .vmem S1x256x64 .bf16) (harg3 : arg3.IsWhole) (arg4 : Memref sig .tc .vmem S1x256x64 .bf16) (harg4 : arg4.IsWhole) (arg5 : Memref sig .tc .vmem S1x256x64 .bf16) (harg5 : arg5.IsWhole) (arg6 : Memref sig .tc .vmem S1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hc0 : ¬cond1_0 i) (hc1 : ¬cond1_1 i) (hc2 : cond1_2 i)
    (x0 : Vec F S1x256x64 .bf16) (x1 : Vec F S1x256x64 .bf16) (x2 : Vec F S1x256x64 .bf16) (xs0 : Vec F S256x1 .f32) (xs1 : Vec F S256x1 .f32) (xs2 : Vec F S256x64 .f32) :
    out1_E_3 c i arg3 harg3 arg4 harg4 arg5 harg5 arg6 harg6 arg7 harg7 arg8 harg8 arg9 harg9 hc0 hc1 hc2 x0 x1 x2 xs0 xs1 xs2 = k1_pay6 xs2 xs1 := by
  unfold out1_E_3
  rw [View.read_writes_eq_canon _ _ _ (cover1_E_3 c i arg3 harg3 arg4 harg4 arg5 harg5 arg6 harg6 arg7 harg7 arg8 harg8 arg9 harg9 hc0 hc1 hc2 x0 x1 x2 xs0 xs1 xs2)]
  unfold kernelRun1_E
  dsimp only
  sl_unfold_words
  rw [View.canon_cons_unit_zero (S := S1x256x64) hz3]
  simp only [View.readAt_eq_ld, harg3.read_unread, harg4.read_unread, harg5.read_unread, harg7.read_unread, harg8.read_unread, harg9.read_unread, View.ld_unit_zero (S := S1x256x64) hz3, View.ld_unit_zero (S := S256x1) hz2, View.ld_unit_zero (S := S256x64) hz2]

section Entry
variable (V : (c : Dev nD) → (b : Ref sig .tc) → Buf (Elt F) ((c : Thread nD τ).loc b))

/-! ## The step equations -/

/-- The scratch (running maximum, normaliser, accumulator) a point starts from: the initial contents at a first key tile, else what the point before left. -/
def scrBefore (c : Dev nD) (t : Fin cfg1.N) : Vec F S256x1 .f32 × Vec F S256x1 .f32 × Vec F S256x64 .f32 :=
  if h : t.val % 8 = 0 then (k1_pay1, k1_pay2, k1_pay3) else (outsAt1 V c (t.val - 1) (Nat.lt_of_le_of_lt (Nat.sub_le _ _) t.isLt)).2

/-- THE SCRATCH STEP: after a point whose key block is not wholly above the diagonal the scratch is one online-softmax
    update of what the point started from — the new maximum, the rescaled normaliser plus the block's row sums, the
    rescaled accumulator plus the block's weighted values —; after any other point it is unchanged. -/
theorem scr_step (c : Dev nD) (t : Fin cfg1.N) :
    (outsAt1 V c t.val t.isLt).2 =
      if t.val % 8 ≤ t.val / 8 % 8 then
        (k1_pay5 (k1_pay8 (BitVec.ofNat 32 (t.val / 8 % 8)) (BitVec.ofNat 32 (t.val % 8)) (iblk1 V c 0 t) (iblk1 V c 1 t) (scrBefore V c t).1),
         k1_pay11 (BitVec.ofNat 32 (t.val / 8 % 8)) (BitVec.ofNat 32 (t.val % 8)) (iblk1 V c 0 t) (iblk1 V c 1 t) (scrBefore V c t).1 (scrBefore V c t).2.1,
         k1_pay4 (k1_pay9 (BitVec.ofNat 32 (t.val / 8 % 8)) (BitVec.ofNat 32 (t.val % 8)) (iblk1 V c 0 t) (iblk1 V c 1 t) (scrBefore V c t).1)
                 (k1_pay10 (BitVec.ofNat 32 (t.val / 8 % 8)) (BitVec.ofNat 32 (t.val % 8)) (iblk1 V c 0 t) (iblk1 V c 1 t) (scrBefore V c t).1)
                 (iblk1 V c 2 t) (scrBefore V c t).2.2)
      else scrBefore V c t := by
  have hN : t.val < 2048 := lt_of_lt_of_eq t.isLt (show cfg1.N = 2048 from N_1)
  by_cases h0 : t.val % 8 = 0
  · by_cases h1 : t.val % 8 ≤ t.val / 8 % 8
    · by_cases h2 : t.val % 8 = 7
      · exfalso; omega
      · rw [outsAt1_A V c t h0 h1 h2, if_pos h1]
        unfold step1_A scrBefore
        rw [dif_pos h0]
        dsimp only
        rw [sout1_A_0_eq, sout1_A_1_eq, sout1_A_2_eq, coords1_qi t, coords1_ki t]
    · exfalso; omega
  · by_cases h1 : t.val % 8 ≤ t.val / 8 % 8
    · by_cases h2 : t.val % 8 = 7
      · rw [outsAt1_D V c t h0 h1 h2, if_pos h1]
        unfold step1_D scrBefore
        rw [dif_neg h0]
        dsimp only
        rw [sout1_D_0_eq, sout1_D_1_eq, sout1_D_2_eq, coords1_qi t, coords1_ki t]
      · rw [outsAt1_B V c t h0 h1 h2, if_pos h1]
        unfold step1_B scrBefore
        rw [dif_neg h0]
        dsimp only
        rw [sout1_B_0_eq, sout1_B_1_eq, sout1_B_2_eq, coords1_qi t, coords1_ki t]
    · by_cases h2 : t.val % 8 = 7
      · rw [outsAt1_E V c t h0 h1 h2, if_neg h1]
        unfold step1_E scrBefore
        rw [dif_neg h0]
      · rw [outsAt1_C V c t h0 h1 h2, if_neg h1]
        unfold step1_C scrBefore
        rw [dif_neg h0]

/-- THE OUTPUT STEP: at a last key block the output block is the accumulator over the normaliser, as the point leaves them. -/
theorem out_step (c : Dev nD) (t : Fin cfg1.N) (h7 : t.val % 8 = 7) :
    (outsAt1 V c t.val t.isLt).1 = k1_pay6 (outsAt1 V c t.val t.isLt).2.2.2 (outsAt1 V c t.val t.isLt).2.2.1 := by
  have h0 : ¬t.val % 8 = 0 := by omega
  by_cases h1 : t.val % 8 ≤ t.val / 8 % 8
  · rw [outsAt1_D V c t h0 h1 h7]
    unfold step1_D
    dsimp only
    rw [out1_D_3_eq, sout1_D_1_eq, sout1_D_2_eq]
  · rw [outsAt1_E V c t h0 h1 h7]
    unfold step1_E
    dsimp only
    rw [out1_E_3_eq]

end Entry

end Cert.KernelIdeal.Fr

end
-- ==== Proof.LibOnlineSoftmax.lean ====
/-
  The online softmax. A row of scores is read tile by tile (T tiles of B columns); a running maximum m, a running
  normaliser l and a running weighted sum acc are kept, and each new tile rescales what was accumulated by
  exp(m_old − m_new). After the tiles that hold every unmasked score, acc / l is the softmax-weighted average of the
  value rows computed in one pass over the whole row. Scores are real or −∞ (masked), values are real, and the first
  tile holds at least one real score, so every running maximum after the first tile is real.
-/
import Idealize.ShloMosaic.PureOps.Ideal

noncomputable section

namespace Cert.OnlineSoftmax

open Idealize.ShloMosaic
open scoped BigOperators

variable {B D : ℕ}

/-- A tile row's maximum, from −∞. -/
def tileMax (s : Fin B → EReal) : EReal := (Finset.univ : Finset (Fin B)).fold max ⊥ s

/-- The running maximum, normaliser and weighted sum. -/
structure State (D : ℕ) where
  m : EReal
  l : EReal
  acc : Fin D → EReal

/-- Before the first tile: maximum −∞, normaliser and sums zero. -/
def init (D : ℕ) : State D := ⟨⊥, 0, fun _ => 0⟩

/-- One tile: the new maximum, the rescaling factor exp(m − m'), the tile's weights exp(s_j − m'). -/
def step (s : Fin B → EReal) (v : Fin B → Fin D → EReal) (st : State D) : State D :=
  { m := max st.m (tileMax s)
    l := Ideal.exp (st.m - max st.m (tileMax s)) * st.l + ∑ j : Fin B, Ideal.exp (s j - max st.m (tileMax s))
    acc := fun d => Ideal.exp (st.m - max st.m (tileMax s)) * st.acc d
      + ∑ j : Fin B, Ideal.exp (s j - max st.m (tileMax s)) * v j d }

/-- The state after the first k tiles of a tile-indexed family. -/
def stateAfter (s : ℕ → Fin B → EReal) (v : ℕ → Fin B → Fin D → EReal) : ℕ → State D
  | 0 => init D
  | k + 1 => step (s k) (v k) (stateAfter s v k)

/-- Tile k of a row of N = T·B scores (−∞ past the row's end, which no use reaches). -/
def tileOf {N : ℕ} (B : ℕ) (S : Fin N → EReal) (k : ℕ) (j : Fin B) : EReal :=
  if h : k * B + j.val < N then S ⟨k * B + j.val, h⟩ else ⊥

/-- Tile k of the value rows (zero past the end). -/
def vtileOf {N : ℕ} (B : ℕ) (V : Fin N → Fin D → EReal) (k : ℕ) (j : Fin B) (d : Fin D) : EReal :=
  if h : k * B + j.val < N then V ⟨k * B + j.val, h⟩ d else 0

/-! ### Real sums inside the extended reals -/

/-- The coercion of a finite real sum is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ### The weight exp(s − M) of a score that is real or −∞, against a real maximum M -/

/-- The weight exp(s − M) as a real number. -/
def ew (s : EReal) (M : ℝ) : ℝ := (Ideal.exp (s - (M : EReal))).toReal

theorem ew_bot (M : ℝ) : ew ⊥ M = 0 := by
  simp [ew, sub_eq_add_neg, EReal.bot_add]

theorem ew_coe (r M : ℝ) : ew (r : EReal) M = Real.exp (r - M) := by
  rw [ew, ← EReal.coe_sub, Ideal.exp_coe, EReal.toReal_coe]

/-- For a score that is real or −∞ the extended-real weight is the real weight. -/
theorem exp_sub_eq (s : EReal) (hs : s = ⊥ ∨ ∃ r : ℝ, s = (r : EReal)) (M : ℝ) :
    Ideal.exp (s - (M : EReal)) = ((ew s M : ℝ) : EReal) := by
  rcases hs with rfl | ⟨r, rfl⟩
  · rw [ew_bot]; simp [sub_eq_add_neg, EReal.bot_add]
  · rw [ew_coe, ← EReal.coe_sub, Ideal.exp_coe]

theorem ew_nonneg (s : EReal) (hs : s = ⊥ ∨ ∃ r : ℝ, s = (r : EReal)) (M : ℝ) : 0 ≤ ew s M := by
  rcases hs with rfl | ⟨r, rfl⟩
  · rw [ew_bot]
  · rw [ew_coe]; exact (Real.exp_pos _).le

/-- Moving the reference maximum from a to b multiplies every weight by exp(a − b). -/
theorem ew_rescale (s : EReal) (hs : s = ⊥ ∨ ∃ r : ℝ, s = (r : EReal)) (a b : ℝ) :
    Real.exp (a - b) * ew s a = ew s b := by
  rcases hs with rfl | ⟨r, rfl⟩
  · rw [ew_bot, ew_bot, mul_zero]
  · rw [ew_coe, ew_coe, ← Real.exp_add]; congr 1; ring

/-! ### A tile's maximum -/

theorem le_tileMax (s : Fin B → EReal) (j : Fin B) : s j ≤ tileMax s :=
  ((Finset.fold_max_le (tileMax s)).1 le_rfl).2 j (Finset.mem_univ j)

/-- A tile's maximum is −∞ or is attained. -/
theorem tileMax_attained (s : Fin B → EReal) : tileMax s = ⊥ ∨ ∃ j, s j = tileMax s := by
  rcases (Finset.le_fold_max (tileMax s)).1 (le_refl (tileMax s)) with h | ⟨j, _, h⟩
  · exact Or.inl (le_bot_iff.1 h)
  · exact Or.inr ⟨j, le_antisymm (le_tileMax s j) h⟩

theorem tileMax_cases (s : Fin B → EReal) (hs : ∀ j, s j = ⊥ ∨ ∃ r : ℝ, s j = (r : EReal)) :
    tileMax s = ⊥ ∨ ∃ r : ℝ, tileMax s = (r : EReal) := by
  rcases tileMax_attained s with h | ⟨j, h⟩
  · exact Or.inl h
  · rw [← h]; exact hs j

/-! ### One tile, in real numbers -/

/-- One step from a state whose normaliser and sums are real, when the new maximum is the real M and the rescaling
    factor is the real c: the new normaliser and sums are the real numbers c·L + Σ_j w_j and c·A + Σ_j w_j·v_j. -/
theorem step_coe (s : Fin B → EReal) (v : Fin B → Fin D → EReal) (st : State D)
    (hs : ∀ j, s j = ⊥ ∨ ∃ r : ℝ, s j = (r : EReal))
    (vr : Fin B → Fin D → ℝ) (hv : ∀ j d, v j d = (vr j d : EReal))
    (M c L : ℝ) (A : Fin D → ℝ)
    (hM : max st.m (tileMax s) = (M : EReal)) (hc : Ideal.exp (st.m - (M : EReal)) = (c : EReal))
    (hl : st.l = (L : EReal)) (hacc : ∀ d, st.acc d = (A d : EReal)) :
    (step s v st).m = (M : EReal)
      ∧ (step s v st).l = ((c * L + ∑ j, ew (s j) M : ℝ) : EReal)
      ∧ ∀ d, (step s v st).acc d = ((c * A d + ∑ j, ew (s j) M * vr j d : ℝ) : EReal) := by
  refine ⟨hM, ?_, fun d => ?_⟩
  · show Ideal.exp (st.m - max st.m (tileMax s)) * st.l + ∑ j : Fin B, Ideal.exp (s j - max st.m (tileMax s)) = _
    rw [hM, hc, hl, EReal.coe_add, EReal.coe_mul, coe_sum]
    congr 1
    exact Finset.sum_congr rfl fun j _ => exp_sub_eq (s j) (hs j) M
  · show Ideal.exp (st.m - max st.m (tileMax s)) * st.acc d
        + ∑ j : Fin B, Ideal.exp (s j - max st.m (tileMax s)) * v j d = _
    rw [hM, hc, hacc d, EReal.coe_add, EReal.coe_mul, coe_sum]
    congr 1
    refine Finset.sum_congr rfl fun j _ => ?_
    rw [exp_sub_eq (s j) (hs j) M, hv j d, EReal.coe_mul]

/-! ### The invariant after k ≥ 1 tiles -/

section Invariant

variable (s : ℕ → Fin B → EReal) (v : ℕ → Fin B → Fin D → EReal) (vr : ℕ → Fin B → Fin D → ℝ)

/-- After k tiles: the running maximum is the real M, which bounds and is attained by the scores read so far, and the
    normaliser and sums are the real sums of the weights against M. -/
def Inv (k : ℕ) (M : ℝ) : Prop :=
  (stateAfter s v k).m = (M : EReal)
    ∧ (∀ i < k, ∀ j, s i j ≤ (M : EReal))
    ∧ (∃ i < k, ∃ j, s i j = (M : EReal))
    ∧ (stateAfter s v k).l = ((∑ i ∈ Finset.range k, ∑ j, ew (s i j) M : ℝ) : EReal)
    ∧ ∀ d, (stateAfter s v k).acc d = ((∑ i ∈ Finset.range k, ∑ j, ew (s i j) M * vr i j d : ℝ) : EReal)

variable {s v vr}

theorem inv_one (hs : ∀ i j, s i j = ⊥ ∨ ∃ r : ℝ, s i j = (r : EReal))
    (hs0 : ∃ j, ∃ r : ℝ, s 0 j = (r : EReal)) (hv : ∀ i j d, v i j d = (vr i j d : EReal)) :
    ∃ M : ℝ, Inv s v vr 1 M := by
  obtain ⟨j0, r0, hj0⟩ := hs0
  have hne : tileMax (s 0) ≠ ⊥ := fun h => by
    have := le_tileMax (s 0) j0
    rw [h, hj0] at this
    exact EReal.coe_ne_bot r0 (le_bot_iff.1 this)
  obtain ⟨M, hM⟩ := (tileMax_cases (s 0) (hs 0)).resolve_left hne
  obtain ⟨jM, hjM⟩ := (tileMax_attained (s 0)).resolve_left hne
  have hstep := step_coe (s 0) (v 0) (init D) (hs 0) (vr 0) (hv 0) M 0 0 (fun _ => 0)
    (by show max ⊥ (tileMax (s 0)) = _; rw [bot_sup_eq, hM])
    (by show Ideal.exp (⊥ - (M : EReal)) = _; simp [sub_eq_add_neg, EReal.bot_add])
    (by show (0 : EReal) = _; simp) (fun _ => by show (0 : EReal) = _; simp)
  refine ⟨M, hstep.1, ?_, ⟨0, Nat.one_pos, jM, hjM.trans hM⟩, ?_, fun d => ?_⟩
  · intro i hi j
    obtain rfl : i = 0 := by omega
    rw [← hM]; exact le_tileMax (s 0) j
  · show (step (s 0) (v 0) (init D)).l = _
    rw [hstep.2.1, Finset.sum_range_one, zero_mul, zero_add]
  · show (step (s 0) (v 0) (init D)).acc d = _
    rw [hstep.2.2 d, Finset.sum_range_one, zero_mul, zero_add]

theorem inv_succ (hs : ∀ i j, s i j = ⊥ ∨ ∃ r : ℝ, s i j = (r : EReal))
    (hv : ∀ i j d, v i j d = (vr i j d : EReal)) (k : ℕ) (M : ℝ) (h : Inv s v vr k M) :
    ∃ M' : ℝ, Inv s v vr (k + 1) M' := by
  obtain ⟨hm, hle, ⟨i0, hi0, j0, hij0⟩, hl, hacc⟩ := h
  -- the new maximum is a real M' ≥ M
  obtain ⟨M', hM', hMM'⟩ : ∃ M' : ℝ, max (M : EReal) (tileMax (s k)) = (M' : EReal) ∧ M ≤ M' := by
    rcases tileMax_cases (s k) (hs k) with h | ⟨r, h⟩
    · exact ⟨M, by rw [h, sup_bot_eq], le_rfl⟩
    · exact ⟨max M r, by rw [h]; exact (EReal.coe_strictMono.monotone.map_max).symm, le_max_left _ _⟩
  have hstep := step_coe (s k) (v k) (stateAfter s v k) (hs k) (vr k) (hv k) M' (Real.exp (M - M'))
    (∑ i ∈ Finset.range k, ∑ j, ew (s i j) M) (fun d => ∑ i ∈ Finset.range k, ∑ j, ew (s i j) M * vr i j d)
    (by rw [hm, hM']) (by rw [hm, ← EReal.coe_sub, Ideal.exp_coe]) hl hacc
  refine ⟨M', hstep.1, ?_, ?_, ?_, fun d => ?_⟩
  · intro i hi j
    rcases Nat.lt_succ_iff_lt_or_eq.1 hi with hi | rfl
    · exact (hle i hi j).trans (EReal.coe_le_coe_iff.2 hMM')
    · rw [← hM']; exact (le_tileMax (s i) j).trans (le_max_right _ _)
  · rcases max_choice (M : EReal) (tileMax (s k)) with h | h
    · exact ⟨i0, Nat.lt_succ_of_lt hi0, j0, by rw [hij0, ← hM', h]⟩
    · have hne : tileMax (s k) ≠ ⊥ := by rw [← h, hM']; exact EReal.coe_ne_bot M'
      obtain ⟨j, hj⟩ := (tileMax_attained (s k)).resolve_left hne
      exact ⟨k, Nat.lt_succ_self k, j, by rw [hj, ← hM', h]⟩
  · show (step (s k) (v k) (stateAfter s v k)).l = _
    rw [hstep.2.1, Finset.sum_range_succ, Finset.mul_sum]
    congr 2
    refine Finset.sum_congr rfl fun i _ => ?_
    rw [Finset.mul_sum]
    exact Finset.sum_congr rfl fun j _ => ew_rescale (s i j) (hs i j) M M'
  · show (step (s k) (v k) (stateAfter s v k)).acc d = _
    rw [hstep.2.2 d, Finset.sum_range_succ, Finset.mul_sum]
    congr 2
    refine Finset.sum_congr rfl fun i _ => ?_
    rw [Finset.mul_sum]
    refine Finset.sum_congr rfl fun j _ => ?_
    rw [← mul_assoc, ew_rescale (s i j) (hs i j) M M']

/-- The invariant holds after every positive number of tiles. -/
theorem inv_pos (hs : ∀ i j, s i j = ⊥ ∨ ∃ r : ℝ, s i j = (r : EReal))
    (hs0 : ∃ j, ∃ r : ℝ, s 0 j = (r : EReal)) (hv : ∀ i j d, v i j d = (vr i j d : EReal)) :
    ∀ k, 0 < k → ∃ M : ℝ, Inv s v vr k M
  | 0, h => absurd h (lt_irrefl 0)
  | 1, _ => inv_one hs hs0 hv
  | k + 2, _ => by
    obtain ⟨M, hM⟩ := inv_pos hs hs0 hv (k + 1) (Nat.succ_pos k)
    exact inv_succ hs hv (k + 1) M hM

end Invariant

/-! ### Re-indexing a row as tiles -/

/-- Summing tile by tile over the first n tiles is summing over the first n·B positions. -/
theorem sum_tiles (g : ℕ → ℝ) (n : ℕ) :
    ∑ i ∈ Finset.range n, ∑ j : Fin B, g (i * B + j.val) = ∑ p ∈ Finset.range (n * B), g p := by
  induction n with
  | zero => simp
  | succ n ih =>
    rw [Finset.sum_range_succ, ih, Nat.succ_mul, Finset.sum_range_add,
      Fin.sum_univ_eq_sum_range (fun x => g (n * B + x)) B]

theorem sum_fin_eq_range {N : ℕ} (f : Fin N → ℝ) :
    ∑ j : Fin N, f j = ∑ p ∈ Finset.range N, (if h : p < N then f ⟨p, h⟩ else 0) := by
  rw [Finset.sum_range]
  exact Finset.sum_congr rfl fun j _ => by rw [dif_pos j.2]

/-- A function on a row of N = T·B positions that vanishes from position n·B on sums over the row to its sum over
    the first n tiles. -/
theorem sum_tiles_row {N : ℕ} (T n : ℕ) (hN : N = T * B) (hnT : n ≤ T) (f : Fin N → ℝ)
    (hf : ∀ j : Fin N, n * B ≤ j.val → f j = 0) :
    ∑ i ∈ Finset.range n, ∑ j : Fin B, (if h : i * B + j.val < N then f ⟨i * B + j.val, h⟩ else 0)
      = ∑ j : Fin N, f j := by
  rw [sum_fin_eq_range f]
  refine (sum_tiles (fun p => if h : p < N then f ⟨p, h⟩ else 0) n).trans ?_
  refine Finset.sum_subset (Finset.range_mono (by rw [hN]; exact Nat.mul_le_mul_right B hnT)) ?_
  intro p hp hp'
  rw [Finset.mem_range] at hp hp'
  rw [dif_pos hp]
  exact hf ⟨p, hp⟩ (not_lt.1 hp')

theorem ew_tileOf {N : ℕ} (S : Fin N → EReal) (M : ℝ) (i : ℕ) (j : Fin B) :
    ew (tileOf B S i j) M = if h : i * B + j.val < N then ew (S ⟨i * B + j.val, h⟩) M else 0 := by
  unfold tileOf
  by_cases h : i * B + j.val < N
  · rw [dif_pos h, dif_pos h]
  · rw [dif_neg h, dif_neg h, ew_bot]

/-! ### The theorem -/

/-- THE ONLINE SOFTMAX. For a row S of N = T·B scores, each real or −∞, whose first tile holds a real score and whose
    tiles from n on are all −∞, and real value rows V: the state after the first n tiles gives, as acc / l, the one-pass
    softmax average Σ_j (exp(S_j − M) / Σ_j' exp(S_j' − M))·V_j with M the row's maximum. -/
theorem flash_eq (T B D N : ℕ) (hN : N = T * B) (hB : 0 < B) (S : Fin N → EReal) (V : Fin N → Fin D → EReal)
    (n : ℕ) (hn : 0 < n) (hnT : n ≤ T)
    (hS : ∀ j, S j = ⊥ ∨ ∃ r : ℝ, S j = (r : EReal))
    (hS0 : ∃ j : Fin N, j.val < B ∧ ∃ r : ℝ, S j = (r : EReal))
    (hmask : ∀ j : Fin N, n * B ≤ j.val → S j = ⊥)
    (hV : ∀ j d, ∃ r : ℝ, V j d = (r : EReal)) (d : Fin D) :
    Ideal.div ((stateAfter (tileOf B S) (vtileOf B V) n).acc d) (stateAfter (tileOf B S) (vtileOf B V) n).l
      = ∑ j : Fin N, Ideal.div (Ideal.exp (S j - (Finset.univ : Finset (Fin N)).fold max ⊥ S))
          (∑ j' : Fin N, Ideal.exp (S j' - (Finset.univ : Finset (Fin N)).fold max ⊥ S)) * V j d := by
  -- the real values, on the row and by tiles
  have hVr : ∀ j d, V j d = (((V j d).toReal : ℝ) : EReal) := fun j d => by
    obtain ⟨r, hr⟩ := hV j d; rw [hr, EReal.toReal_coe]
  have hs : ∀ i j, tileOf B S i j = ⊥ ∨ ∃ r : ℝ, tileOf B S i j = (r : EReal) := fun i j => by
    unfold tileOf
    by_cases h : i * B + j.val < N
    · rw [dif_pos h]; exact hS _
    · rw [dif_neg h]; exact Or.inl rfl
  have hs0 : ∃ j, ∃ r : ℝ, tileOf B S 0 j = (r : EReal) := by
    obtain ⟨j0, hj0, r, hr⟩ := hS0
    refine ⟨⟨j0.val, hj0⟩, r, ?_⟩
    have h : 0 * B + j0.val < N := by rw [Nat.zero_mul, Nat.zero_add]; exact j0.2
    unfold tileOf
    rw [dif_pos h, ← hr]
    congr 1
    exact Fin.ext (by simp)
  have hv : ∀ i j d, vtileOf B V i j d
      = ((if h : i * B + j.val < N then (V ⟨i * B + j.val, h⟩ d).toReal else 0 : ℝ) : EReal) := fun i j d => by
    unfold vtileOf
    by_cases h : i * B + j.val < N
    · rw [dif_pos h, dif_pos h]; exact hVr _ d
    · rw [dif_neg h, dif_neg h, EReal.coe_zero]
  obtain ⟨M, -, hle, ⟨i0, hi0, jj0, hij0⟩, hl, hacc⟩ := inv_pos hs hs0 hv n hn
  -- the row's maximum is M
  have hG : (Finset.univ : Finset (Fin N)).fold max ⊥ S = (M : EReal) := by
    apply le_antisymm
    · refine (Finset.fold_max_le _).2 ⟨bot_le, fun j _ => ?_⟩
      by_cases hj : j.val < n * B
      · have hi : j.val / B < n := (Nat.div_lt_iff_lt_mul hB).2 hj
        have h := hle (j.val / B) hi ⟨j.val % B, Nat.mod_lt _ hB⟩
        have hlt : j.val / B * B + j.val % B < N := by rw [Nat.div_add_mod']; exact j.2
        unfold tileOf at h
        rw [dif_pos hlt] at h
        refine le_of_eq_of_le ?_ h
        congr 1
        exact Fin.ext (Nat.div_add_mod' _ _).symm
      · rw [hmask j (not_lt.1 hj)]; exact bot_le
    · refine (Finset.le_fold_max _).2 (Or.inr ?_)
      unfold tileOf at hij0
      by_cases h : i0 * B + jj0.val < N
      · rw [dif_pos h] at hij0
        exact ⟨_, Finset.mem_univ _, hij0.ge⟩
      · rw [dif_neg h] at hij0
        exact absurd hij0.symm (EReal.coe_ne_bot M)
  -- the normaliser and the weighted sum over the tiles are those over the row
  have hZ : ∑ i ∈ Finset.range n, ∑ j, ew (tileOf B S i j) M = ∑ j : Fin N, ew (S j) M := by
    rw [← sum_tiles_row T n hN hnT (fun j => ew (S j) M) (fun j hj => by rw [hmask j hj, ew_bot])]
    exact Finset.sum_congr rfl fun i _ => Finset.sum_congr rfl fun j _ => ew_tileOf S M i j
  have hA : ∑ i ∈ Finset.range n, ∑ j : Fin B,
        ew (tileOf B S i j) M * (if h : i * B + j.val < N then (V ⟨i * B + j.val, h⟩ d).toReal else 0)
      = ∑ j : Fin N, ew (S j) M * (V j d).toReal := by
    rw [← sum_tiles_row T n hN hnT (fun j => ew (S j) M * (V j d).toReal)
      (fun j hj => by rw [hmask j hj, ew_bot, zero_mul])]
    refine Finset.sum_congr rfl fun i _ => Finset.sum_congr rfl fun j _ => ?_
    rw [ew_tileOf S M i j]
    by_cases h : i * B + j.val < N
    · rw [dif_pos h, dif_pos h, dif_pos h]
    · rw [dif_neg h, dif_neg h, dif_neg h, zero_mul]
  -- the normaliser is positive
  have hZpos : 0 < ∑ j : Fin N, ew (S j) M := by
    obtain ⟨j0, -, r, hr⟩ := hS0
    refine Finset.sum_pos' (fun j _ => ew_nonneg (S j) (hS j) M) ⟨j0, Finset.mem_univ _, ?_⟩
    rw [hr, ew_coe]; exact Real.exp_pos _
  -- both sides in real numbers
  have hR : ∀ j : Fin N,
      Ideal.div (Ideal.exp (S j - (M : EReal))) (∑ j' : Fin N, Ideal.exp (S j' - (M : EReal))) * V j d
      = ((ew (S j) M * (1 / ∑ j' : Fin N, ew (S j') M) * (V j d).toReal : ℝ) : EReal) := fun j => by
    have hsum : ∑ j' : Fin N, Ideal.exp (S j' - (M : EReal)) = ((∑ j' : Fin N, ew (S j') M : ℝ) : EReal) := by
      rw [coe_sum]; exact Finset.sum_congr rfl fun j' _ => exp_sub_eq (S j') (hS j') M
    rw [hsum, Ideal.div_coe hZpos.ne', exp_sub_eq (S j) (hS j) M, hVr j d, EReal.toReal_coe, ← EReal.coe_mul,
      ← EReal.coe_mul]
  rw [hG, Finset.sum_congr rfl (fun j _ => hR j), ← coe_sum, hl, hacc d, hZ, hA, Ideal.div_coe hZpos.ne',
    ← EReal.coe_mul]
  congr 1
  rw [Finset.sum_mul]
  exact Finset.sum_congr rfl fun j _ => by ring

end Cert.OnlineSoftmax

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.KiFlashRow.lean ====
/-
  One row of causal attention from the per-head arrays. For head arrays Q, K, V over [32, 2048, 64] the scores of query
  row i are (Σ_d Q[i,d]·K[j,d])·(1/8) for j ≤ i and −∞ beyond; reading them tile by tile (256 columns a tile) through the
  online softmax up to the tile that holds column i gives, as acc / l, the one-pass softmax average of the value rows:
  every tile past that one holds only −∞, the first tile holds the real score of column 0, and real inputs make every
  unmasked score real.
-/
import proofs.«112669_j738734375717_2_alg».proof.Proof.LibOnlineSoftmax
import proofs.«112669_j738734375717_2_alg».proof.Proof.LibRealValued
import Idealize.ShloMosaic.Lib.ValueIdx

noncomputable section

namespace Cert.Attn

open Idealize.ShloMosaic Idealize.ShloMosaic.ValueIdx Cert.Lib.RealValued Cert.OnlineSoftmax
open scoped BigOperators

/-- A per-head array: [32 heads·batches, 2048 rows, 64 features]. -/
abbrev HeadArr : Type := (⟨3, ![32, 2048, 64]⟩ : Shape).Idx → EReal

/-- The causal score of query row i against key row j of head bh. -/
def rowScore (Q K : HeadArr) (bh : Fin 32) (i j : Fin 2048) : EReal :=
  if j.val ≤ i.val then (∑ d : Fin 64, Q (ix3 bh i d) * K (ix3 bh j d)) * (((1 / 8 : ℝ) : ℝ) : EReal) else ⊥

/-- Row i of head bh by the online softmax over the tiles 0 … i/256. -/
def flashRow (Q K V : HeadArr) (bh : Fin 32) (i : Fin 2048) (d : Fin 64) : EReal :=
  Ideal.div ((stateAfter (tileOf 256 (rowScore Q K bh i)) (vtileOf 256 (fun j d => V (ix3 bh j d))) (i.val / 256 + 1)).acc d)
    (stateAfter (tileOf 256 (rowScore Q K bh i)) (vtileOf 256 (fun j d => V (ix3 bh j d))) (i.val / 256 + 1)).l

/-- The whole per-head output array: row i of head bh by the online softmax. -/
def flashArr (Q K V : HeadArr) : HeadArr := fun i => flashRow Q K V (i 0) (i 1) (i 2)
theorem flashArr_apply (Q K V : HeadArr) (bh : Fin 32) (i : Fin 2048) (d : Fin 64) :
    flashArr Q K V (ix3 bh i d) = flashRow Q K V bh i d := rfl

/-- For real-valued head arrays the online softmax row is the one-pass softmax average. -/
theorem flashRow_eq (Q K V : HeadArr) (hQ : AllReal Q) (hK : AllReal K) (hV : AllReal V) (bh : Fin 32) (i : Fin 2048) (d : Fin 64) :
    flashRow Q K V bh i d
      = ∑ j : Fin 2048, Ideal.div (Ideal.exp (rowScore Q K bh i j - (Finset.univ : Finset (Fin 2048)).fold max ⊥ (rowScore Q K bh i)))
          (∑ j' : Fin 2048, Ideal.exp (rowScore Q K bh i j' - (Finset.univ : Finset (Fin 2048)).fold max ⊥ (rowScore Q K bh i)))
          * V (ix3 bh j d) := by
  have hreal : ∀ j : Fin 2048, j.val ≤ i.val → ∃ r : ℝ, rowScore Q K bh i j = (r : EReal) := by
    intro j hj
    have h1 : IsReal ((∑ d : Fin 64, Q (ix3 bh i d) * K (ix3 bh j d)) * (((1 / 8 : ℝ) : ℝ) : EReal)) :=
      IsReal.mul (IsReal.sum _ _ fun d _ => IsReal.mul (hQ _) (hK _)) (IsReal.coe _)
    obtain ⟨r, hr⟩ := h1
    exact ⟨r, by unfold rowScore; rw [if_pos hj]; exact hr⟩
  unfold flashRow
  refine flash_eq 8 256 64 2048 (by norm_num) (by norm_num) (rowScore Q K bh i) (fun j d => V (ix3 bh j d)) (i.val / 256 + 1)
    (by omega) (by have := i.isLt; omega) ?_ ?_ ?_ ?_ d
  · intro j
    by_cases hj : j.val ≤ i.val
    · exact Or.inr (hreal j hj)
    · exact Or.inl (by unfold rowScore; rw [if_neg hj])
  · exact ⟨⟨0, by norm_num⟩, by norm_num, hreal ⟨0, by norm_num⟩ (Nat.zero_le _)⟩
  · intro j hj
    unfold rowScore
    rw [if_neg (by have := i.isLt; omega)]
  · intro j d
    exact hV _

end Cert.Attn

end
-- ==== Proof.KiPayloadsLib.lean ====
/-
  The vocabulary for reading the kernels' payloads at one index, on the extended reals where every operation is exact
  and a change of float format is the identity.
  • A matrix product into the zero splat, read at (p, j), is the sum over the shared axis of the products of the left
    operand's row p and the right operand's column j: one statement per product the attention kernel takes,
    [256,64]·[64,256] and [256,256]·[256,64]. The contraction index has one axis; the sum is
    re-indexed through its single coordinate.
  • A vector of length a viewed as a column [a,1] keeps its entries, and a column [a,1] broadcast to [a,b] repeats
    entry p along row p.
  • A row maximum of a [256,256] block from −∞ is the fold of max over the row, and a row sum is the sum over the row.
  • The causal mask compares global positions t·256 + c held as 32-bit words; with t < 8 and c < 256 every position is
    below 2048, so the signed comparison of the words is the comparison of the naturals.
  • The constants: the pattern 0x3E000000 is 1/8, 0xFF800000 is −∞, and the mask's fill value is named −∞.
-/
import proofs.«112669_j738734375717_2_alg».proof.Proof.Gen.KernelIdeal.Skeleton
import proofs.«112669_j738734375717_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Val

open Cert.KernelIdeal Cert.KernelIdeal.Gen Idealize.ShloMosaic Idealize.ShloMosaic.ValueIdx
open scoped BigOperators

/-! ## Matrix products read at an index -/

theorem dotQK_lhs0 (i : S256x256.Idx) (q : dot_S256x64_S64x256_S256x256_1_0_0_1_n_n.contr.Idx) : (dot_S256x64_S64x256_S256x256_1_0_0_1_n_n.lhsIdx i q 0).val = (i 0).val := by
  unfold DotDims.lhsIdx
  rw [dif_neg (show ¬(0 : Fin S256x64.rank) ∈ dot_S256x64_S64x256_S256x256_1_0_0_1_n_n.lhsBatch by decide), dif_pos (show (0 : Fin S256x64.rank) ∈ dot_S256x64_S64x256_S256x256_1_0_0_1_n_n.lhsNonContracting by decide)]
  rfl
theorem dotQK_lhs1 (i : S256x256.Idx) (q : dot_S256x64_S64x256_S256x256_1_0_0_1_n_n.contr.Idx) : (dot_S256x64_S64x256_S256x256_1_0_0_1_n_n.lhsIdx i q 1).val = (q ⟨0, by decide⟩).val :=
  dot_S256x64_S64x256_S256x256_1_0_0_1_n_n.lhsIdx_val_of_single rfl i q
theorem dotQK_rhs0 (i : S256x256.Idx) (q : dot_S256x64_S64x256_S256x256_1_0_0_1_n_n.contr.Idx) : (dot_S256x64_S64x256_S256x256_1_0_0_1_n_n.rhsIdx i q 0).val = (q ⟨0, by decide⟩).val :=
  dot_S256x64_S64x256_S256x256_1_0_0_1_n_n.rhsIdx_val_of_single rfl i q
theorem dotQK_rhs1 (i : S256x256.Idx) (q : dot_S256x64_S64x256_S256x256_1_0_0_1_n_n.contr.Idx) : (dot_S256x64_S64x256_S256x256_1_0_0_1_n_n.rhsIdx i q 1).val = (i 1).val := by
  unfold DotDims.rhsIdx
  rw [dif_neg (show ¬(1 : Fin S64x256.rank) ∈ dot_S256x64_S64x256_S256x256_1_0_0_1_n_n.rhsBatch by decide), dif_pos (show (1 : Fin S64x256.rank) ∈ dot_S256x64_S64x256_S256x256_1_0_0_1_n_n.rhsNonContracting by decide)]
  rfl

/-- The [256,64] × [64,256] product into the zero splat, at (p, j): the sum over the shared axis of the products. -/
theorem dotQK_apply (a : FVec Ideal S256x64 .bf16) (b : FVec Ideal S64x256 .bf16) (p : Fin 256) (j : Fin 256) :
    matmul dot_S256x64_S64x256_S256x256_1_0_0_1_n_n none a b (constant (F := Ideal) S256x256 .f32 0x00000000#32) (ix2 p j)
      = ∑ k : Fin 64, a (ix2 p k) * b (ix2 k j) := by
  simp only [matmul]
  rw [Ideal.matmul_constant_zero_apply, ← Equiv.sum_comp (contrEquiv1 dot_S256x64_S64x256_S256x256_1_0_0_1_n_n 64 rfl rfl).symm]
  refine Finset.sum_congr rfl fun k _ => ?_
  have hk := contrEquiv1_symm_val dot_S256x64_S64x256_S256x256_1_0_0_1_n_n 64 rfl rfl k
  have el : dot_S256x64_S64x256_S256x256_1_0_0_1_n_n.lhsIdx (ix2 p j) ((contrEquiv1 dot_S256x64_S64x256_S256x256_1_0_0_1_n_n 64 rfl rfl).symm k) = ix2 p k :=
    funext fun a => Fin.ext (by
      match a with
      | ⟨0, _⟩ => exact dotQK_lhs0 _ _
      | ⟨1, _⟩ => exact (dotQK_lhs1 _ _).trans hk)
  have er : dot_S256x64_S64x256_S256x256_1_0_0_1_n_n.rhsIdx (ix2 p j) ((contrEquiv1 dot_S256x64_S64x256_S256x256_1_0_0_1_n_n 64 rfl rfl).symm k) = ix2 k j :=
    funext fun a => Fin.ext (by
      match a with
      | ⟨0, _⟩ => exact (dotQK_rhs0 _ _).trans hk
      | ⟨1, _⟩ => exact dotQK_rhs1 _ _)
  rw [el, er]

theorem dotPV_lhs0 (i : S256x64.Idx) (q : dot_S256x256_S256x64_S256x64_1_0_0_1_n_n.contr.Idx) : (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem dotPV_lhs1 (i : S256x64.Idx) (q : dot_S256x256_S256x64_S256x64_1_0_0_1_n_n.contr.Idx) : (dot_S256x256_S256x64_S256x64_1_0_0_1_n_n.lhsIdx i q 1).val = (q ⟨0, by decide⟩).val :=
  dot_S256x256_S256x64_S256x64_1_0_0_1_n_n.lhsIdx_val_of_single rfl i q
theorem dotPV_rhs0 (i : S256x64.Idx) (q : dot_S256x256_S256x64_S256x64_1_0_0_1_n_n.contr.Idx) : (dot_S256x256_S256x64_S256x64_1_0_0_1_n_n.rhsIdx i q 0).val = (q ⟨0, by decide⟩).val :=
  dot_S256x256_S256x64_S256x64_1_0_0_1_n_n.rhsIdx_val_of_single rfl i q
theorem dotPV_rhs1 (i : S256x64.Idx) (q : dot_S256x256_S256x64_S256x64_1_0_0_1_n_n.contr.Idx) : (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- The [256,256] × [256,64] product into the zero splat, at (p, j): the sum over the shared axis of the products. -/
theorem dotPV_apply (a : FVec Ideal S256x256 .bf16) (b : FVec Ideal S256x64 .bf16) (p : Fin 256) (j : Fin 64) :
    matmul dot_S256x256_S256x64_S256x64_1_0_0_1_n_n none a b (constant (F := Ideal) S256x64 .f32 0x00000000#32) (ix2 p j)
      = ∑ k : Fin 256, a (ix2 p k) * b (ix2 k j) := by
  simp only [matmul]
  rw [Ideal.matmul_constant_zero_apply, ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 p j) ((contrEquiv1 dot_S256x256_S256x64_S256x64_1_0_0_1_n_n 256 rfl rfl).symm k) = ix2 p k :=
    funext fun a => Fin.ext (by
      match a with
      | ⟨0, _⟩ => exact dotPV_lhs0 _ _
      | ⟨1, _⟩ => exact (dotPV_lhs1 _ _).trans hk)
  have er : dot_S256x256_S256x64_S256x64_1_0_0_1_n_n.rhsIdx (ix2 p j) ((contrEquiv1 dot_S256x256_S256x64_S256x64_1_0_0_1_n_n 256 rfl rfl).symm k) = ix2 k j :=
    funext fun a => Fin.ext (by
      match a with
      | ⟨0, _⟩ => exact (dotPV_rhs0 _ _).trans hk
      | ⟨1, _⟩ => exact dotPV_rhs1 _ _)
  rw [el, er]

/-! ## Columns, row maxima and row sums -/

variable {α : Type}

/-- A vector of length a cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row maximum of a [256, 256] block from −∞, at row r: the fold of max over the row's entries. -/
theorem rowMax_apply (src : FVec Ideal S256x256 .f32)
    (hφ : FKind.Formats .f32) (hacc : (0xFF800000#32 : BitVec FTy.f32.bits) = FKind.maximumf.neutral .f32 hφ) (r : Fin 256) :
    multiReduction .maximumf [1] S256 src 0xFF800000#32 reduces_S256x256_S256 hφ hacc (ix1 r)
      = (Finset.univ : Finset (Fin 256)).fold max ⊥ (fun cc => src (ix2 r cc)) := by
  refine (Ideal.multiReduction_maximumf_single src _ reduces_S256x256_S256 hφ hacc (ix1 r)).trans ?_
  have h0 : FloatOps.ofBits (F := Ideal) .f32 0xFF800000#32 = (⊥ : EReal) := by
    simp [Ideal.ofBits, Ideal.ieee]
  rw [h0]
  refine congrArg (fun f => (Finset.univ : Finset (Fin 256)).fold max ⊥ f) (funext fun cc => ?_)
  show src (reduces_S256x256_S256.lift (ix1 r) cc) = src (ix2 r cc)
  refine congrArg src (funext fun c => Fin.ext ?_)
  match c with
  | ⟨0, _⟩ => rfl
  | ⟨1, _⟩ => rfl

/-- The row sum of a [256, 256] block, at row r. -/
theorem rowSum_apply (src : FVec Ideal S256x256 .f32)
    (hφ : FKind.Formats .f32) (hacc : (0x00000000#32 : BitVec FTy.f32.bits) = FKind.add.neutral .f32 hφ) (r : Fin 256) :
    multiReduction .add [1] S256 src 0x00000000#32 reduces_S256x256_S256 hφ hacc (ix1 r)
      = ∑ cc : Fin 256, src (ix2 r cc) := by
  refine (Ideal.multiReduction_add_single src _ reduces_S256x256_S256 hφ hacc (ix1 r)).trans ?_
  refine Finset.sum_congr rfl fun cc _ => ?_
  refine congrArg src (funext fun c => Fin.ext ?_)
  match c with
  | ⟨0, _⟩ => rfl
  | ⟨1, _⟩ => rfl

/-! ## Words and constants -/

theorem cmpi_apply {s : Shape} {w : ℕ} (p : CmpIPredicate) (x y : IVec s w) (i : s.Idx) : cmpi p x y i = IntOp.cmpi p (x i) (y i) := rfl
theorem addi_apply {s : Shape} {w : ℕ} (x y : IVec s w) (i : s.Idx) : addi x y i = IntOp.addi (x i) (y i) := rfl
theorem exp_apply {s : Shape} {φ : FTy} (x : FVec Ideal s φ) (i : s.Idx) : exp x i = Ideal.exp (x i) := rfl

/-- A natural below 2048 as a 32-bit word reads back, signed, as itself. -/
theorem toInt_ofNat_small (n : ℕ) (h : n < 2048) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- A tile offset plus a coordinate, as words, is the word of the natural sum. -/
theorem tile_word (t : Fin 8) (c : Fin 256) :
    IntOp.addi (Scalar.muli (BitVec.ofNat 32 t.val) 256#32) (BitVec.ofNat 32 c.val) = BitVec.ofNat 32 (t.val * 256 + c.val) := by
  simp only [IntOp.addi, Scalar.muli, IntOp.muli]
  rw [BitVec.ofNat_add, BitVec.ofNat_mul]

/-- The causal comparison on words is the comparison of the global positions: nothing wraps below 2048. -/
theorem mask_word (qi ki : Fin 8) (r cc : Fin 256) :
    IntOp.cmpi .sle (IntOp.addi (Scalar.muli (BitVec.ofNat 32 ki.val) 256#32) (BitVec.ofNat 32 cc.val))
        (IntOp.addi (Scalar.muli (BitVec.ofNat 32 qi.val) 256#32) (BitVec.ofNat 32 r.val))
      = if ki.val * 256 + cc.val ≤ qi.val * 256 + r.val then 1#1 else 0#1 := by
  rw [tile_word, tile_word]
  have hk : ki.val * 256 + cc.val < 2048 := by have := ki.isLt; have := cc.isLt; omega
  have hq : qi.val * 256 + r.val < 2048 := by have := qi.isLt; have := r.isLt; omega
  simp only [IntOp.cmpi, BitVec.sle, toInt_ofNat_small _ hk, toInt_ofNat_small _ hq]
  by_cases h : ki.val * 256 + cc.val ≤ qi.val * 256 + r.val
  · have h2 : ((ki.val * 256 + cc.val : ℕ) : Int) ≤ ((qi.val * 256 + r.val : ℕ) : Int) := by exact_mod_cast h
    rw [if_pos h, decide_eq_true h2]; rfl
  · have h2 : ¬ ((ki.val * 256 + cc.val : ℕ) : Int) ≤ ((qi.val * 256 + r.val : ℕ) : Int) := by
      intro h'; exact h (by exact_mod_cast h')
    rw [if_neg h, decide_eq_false h2]; rfl

/-- The scale 2⁻³. -/
theorem ofBits_eighth_f32 : Ideal.ofBits .f32 0x3E000000#32 = (((1 : ℝ) / 8 : ℝ) : EReal) := by
  simp [Ideal.ofBits, Ideal.ieee, -EReal.coe_mul]; norm_num

/-- The pattern of −∞. -/
theorem ofBits_neg_inf_f32 : Ideal.ofBits .f32 0xFF800000#32 = (⊥ : EReal) := by
  simp [Ideal.ofBits, Ideal.ieee]

/-- The mask's fill value is named −∞. -/
theorem named_neg_big : Named.named (F := Ideal) κ "neg_big" (φ := .f32) 0xF149F2CA#32 = (⊥ : EReal) :=
  IdealRules.named_const.ideal_named_scalar _ _ _ _ rfl

end Cert.KernelIdeal.Val

end
-- ==== Proof.KiPayloads.lean ====
/-
  The attention kernel's payloads read at an index, on the extended reals where every operation is exact and a change
  of float format is the identity. (The two projection kernels' payloads, pay0_apply and pay2_apply, are read in the
  imported module on matrix products.)
  tileScore is the causal score of query row r of query tile qi against key row cc of key tile ki: the scaled inner
  product of the two rows where the key's global position ki·256 + cc is not after the query's qi·256 + r, and −∞
  elsewhere (pay7_apply). The state before the first tile is (−∞, 0, 0) (init_apply). One tile's update of row r — the
  new maximum, the new normaliser, the new weighted sums — is exactly one step of the online softmax on the row's
  scores and the value rows (step_apply): the new maximum is the old one against the tile's row maximum, the old
  normaliser and sums are rescaled by exp(m − m'), and the tile adds Σ exp(s − m') and Σ exp(s − m')·v. The kernel's
  output is the quotient of the sums by the normaliser (out_apply).
-/
import proofs.«112669_j738734375717_2_alg».proof.Proof.KiPayloadsLib
import proofs.«112669_j738734375717_2_alg».proof.Proof.KiPayMatmul

noncomputable section

namespace Cert.KernelIdeal.Val

open Cert.KernelIdeal Cert.KernelIdeal.Gen Idealize.ShloMosaic Idealize.ShloMosaic.ValueIdx
open scoped BigOperators

/-! ## The attention kernel -/

/-- One tile's causal scores for row r: query row r of q-tile qi against key row cc of k-tile ki. -/
def tileScore (qi ki : Fin 8) (q k : Vec Ideal S1x256x64 .bf16) (r cc : Fin 256) : EReal :=
  if ki.val * 256 + cc.val ≤ qi.val * 256 + r.val then (∑ d : Fin 64, q (ix3 (0 : Fin 1) r d) * k (ix3 (0 : Fin 1) cc d)) * (((1 / 8 : ℝ) : ℝ) : EReal) else ⊥

theorem pay7_apply (qi ki : Fin 8) (q k : Vec Ideal S1x256x64 .bf16) (r cc : Fin 256) :
    k1_pay7 (F := Ideal) (BitVec.ofNat 32 qi.val) (BitVec.ofNat 32 ki.val) q k (ix2 r cc) = tileScore qi ki q k r cc := by
  unfold k1_pay7 tileScore
  refine (select_apply _ _ _ _).trans ?_
  rw [cmpi_apply, addi_apply, addi_apply, broadcast_apply, broadcast_apply, broadcast_apply,
    iota_single_apply, iota_single_apply, mulf_apply, broadcast_apply]
  show Scalar.select (IntOp.cmpi .sle (IntOp.addi (Scalar.muli (BitVec.ofNat 32 ki.val) 256#32) (BitVec.ofNat 32 cc.val))
        (IntOp.addi (Scalar.muli (BitVec.ofNat 32 qi.val) 256#32) (BitVec.ofNat 32 r.val))) _ _ = _
  rw [mask_word, dotQK_apply]
  have hs : (Scalar.ofBits .f32 0x3E000000#32 : Ideal .f32) = (((1 : ℝ) / 8 : ℝ) : EReal) := ofBits_eighth_f32
  rw [hs, named_neg_big]
  have hsum : (∑ k_1 : Fin 64, shapeCast S256x64 q shapeCasts_S1x256x64_S256x64 (ix2 r k_1) *
        transpose S64x256 [1, 0] (shapeCast S256x64 k shapeCasts_S1x256x64_S256x64) transposes_S256x64_p1_0_S64x256 (ix2 k_1 cc))
      = ∑ d : Fin 64, q (ix3 (0 : Fin 1) r d) * k (ix3 (0 : Fin 1) cc d) :=
    Finset.sum_congr rfl fun d _ => by
      rw [shapeCast_1ab_ab_apply, transpose_ix2_apply, shapeCast_1ab_ab_apply]
  rw [hsum]
  by_cases h : ki.val * 256 + cc.val ≤ qi.val * 256 + r.val
  · rw [if_pos h, if_pos h, select_one]
  · rw [if_neg h, if_neg h, select_zero]

theorem init_apply (r : Fin 256) : k1_pay1 (F := Ideal) (ix2 r (0 : Fin 1)) = ⊥ ∧ k1_pay2 (F := Ideal) (ix2 r (0 : Fin 1)) = 0 ∧ ∀ d : Fin 64, k1_pay3 (F := Ideal) (ix2 r d) = 0 := by
  refine ⟨?_, ?_, fun d => ?_⟩
  · unfold k1_pay1; simp only [shapeCast_self]; exact ofBits_neg_inf_f32
  · unfold k1_pay2; simp only [shapeCast_self]; exact Ideal.ofBits_zero_f32
  · unfold k1_pay3; simp only [shapeCast_self]; exact Ideal.ofBits_zero_f32

theorem out_apply (acc : Vec Ideal S256x64 .f32) (l : Vec Ideal S256x1 .f32) (r : Fin 256) (d : Fin 64) :
    k1_pay6 (F := Ideal) acc l (ix3 (0 : Fin 1) r d) = Ideal.div (acc (ix2 r d)) (l (ix2 r (0 : Fin 1))) := by
  unfold k1_pay6
  refine (shapeCast_ab_1ab_apply _ _ _ _ _).trans ?_
  show Ideal.div (acc (ix2 r d)) (broadcastTo S256x64 l broadcasts_S256x1_S256x64 (ix2 r d)) = _
  rw [broadcastTo_a1_ab_apply]

/-- The new running maximum of row r: the old one against the tile's row maximum. -/
theorem pay8_apply (qi ki : Fin 8) (q k : Vec Ideal S1x256x64 .bf16) (m : Vec Ideal S256x1 .f32) (r : Fin 256) :
    k1_pay8 (F := Ideal) (BitVec.ofNat 32 qi.val) (BitVec.ofNat 32 ki.val) q k m (ix2 r (0 : Fin 1))
      = max (m (ix2 r (0 : Fin 1))) (Cert.OnlineSoftmax.tileMax (fun cc => tileScore qi ki q k r cc)) := by
  unfold k1_pay8
  refine (maximumf_apply _ _ _).trans ?_
  refine congrArg (max (m (ix2 r (0 : Fin 1)))) ?_
  refine (shapeCast_a_a1_apply _ _ _ _).trans ?_
  refine (rowMax_apply _ _ _ _).trans ?_
  unfold Cert.OnlineSoftmax.tileMax
  refine congrArg (fun f => (Finset.univ : Finset (Fin 256)).fold max ⊥ f) (funext fun cc => ?_)
  exact pay7_apply qi ki q k r cc

/-- The rescaling factor of row r. -/
theorem pay9_apply (qi ki : Fin 8) (q k : Vec Ideal S1x256x64 .bf16) (m : Vec Ideal S256x1 .f32) (r : Fin 256) :
    k1_pay9 (F := Ideal) (BitVec.ofNat 32 qi.val) (BitVec.ofNat 32 ki.val) q k m (ix2 r (0 : Fin 1))
      = Ideal.exp (m (ix2 r (0 : Fin 1)) - max (m (ix2 r (0 : Fin 1))) (Cert.OnlineSoftmax.tileMax (fun cc => tileScore qi ki q k r cc))) := by
  unfold k1_pay9
  refine (exp_apply _ _).trans ?_
  rw [subf_apply, pay8_apply]

/-- The tile's weights of row r. -/
theorem pay10_apply (qi ki : Fin 8) (q k : Vec Ideal S1x256x64 .bf16) (m : Vec Ideal S256x1 .f32) (r cc : Fin 256) :
    k1_pay10 (F := Ideal) (BitVec.ofNat 32 qi.val) (BitVec.ofNat 32 ki.val) q k m (ix2 r cc)
      = Ideal.exp (tileScore qi ki q k r cc - max (m (ix2 r (0 : Fin 1))) (Cert.OnlineSoftmax.tileMax (fun cc => tileScore qi ki q k r cc))) := by
  unfold k1_pay10
  refine (exp_apply _ _).trans ?_
  rw [subf_apply, broadcastTo_a1_ab_apply, pay8_apply, pay7_apply]

theorem step_apply (qi ki : Fin 8) (q k v : Vec Ideal S1x256x64 .bf16) (m l : Vec Ideal S256x1 .f32) (acc : Vec Ideal S256x64 .f32) (r : Fin 256) :
    k1_pay5 (k1_pay8 (F := Ideal) (BitVec.ofNat 32 qi.val) (BitVec.ofNat 32 ki.val) q k m) (ix2 r (0 : Fin 1))
        = (Cert.OnlineSoftmax.step (fun cc => tileScore qi ki q k r cc) (fun cc d => v (ix3 (0 : Fin 1) cc d)) ⟨m (ix2 r (0 : Fin 1)), l (ix2 r (0 : Fin 1)), fun d => acc (ix2 r d)⟩).m
      ∧ k1_pay11 (F := Ideal) (BitVec.ofNat 32 qi.val) (BitVec.ofNat 32 ki.val) q k m l (ix2 r (0 : Fin 1))
        = (Cert.OnlineSoftmax.step (fun cc => tileScore qi ki q k r cc) (fun cc d => v (ix3 (0 : Fin 1) cc d)) ⟨m (ix2 r (0 : Fin 1)), l (ix2 r (0 : Fin 1)), fun d => acc (ix2 r d)⟩).l
      ∧ ∀ d : Fin 64, k1_pay4 (k1_pay9 (F := Ideal) (BitVec.ofNat 32 qi.val) (BitVec.ofNat 32 ki.val) q k m) (k1_pay10 (F := Ideal) (BitVec.ofNat 32 qi.val) (BitVec.ofNat 32 ki.val) q k m) v acc (ix2 r d)
        = (Cert.OnlineSoftmax.step (fun cc => tileScore qi ki q k r cc) (fun cc d => v (ix3 (0 : Fin 1) cc d)) ⟨m (ix2 r (0 : Fin 1)), l (ix2 r (0 : Fin 1)), fun d => acc (ix2 r d)⟩).acc d := by
  refine ⟨?_, ?_, fun d => ?_⟩
  · unfold k1_pay5
    simp only [shapeCast_self]
    exact pay8_apply qi ki q k m r
  · unfold k1_pay11
    simp only [shapeCast_self]
    refine (addf_apply _ _ _).trans ?_
    rw [mulf_apply, pay9_apply]
    show _ = Ideal.exp (m (ix2 r (0 : Fin 1)) - max (m (ix2 r (0 : Fin 1))) (Cert.OnlineSoftmax.tileMax (fun cc => tileScore qi ki q k r cc))) * l (ix2 r (0 : Fin 1))
      + ∑ j : Fin 256, Ideal.exp (tileScore qi ki q k r j - max (m (ix2 r (0 : Fin 1))) (Cert.OnlineSoftmax.tileMax (fun cc => tileScore qi ki q k r cc)))
    congr 1
    refine (shapeCast_a_a1_apply _ _ _ _).trans ?_
    refine (rowSum_apply _ _ _ _).trans ?_
    exact Finset.sum_congr rfl fun cc _ => pay10_apply qi ki q k m r cc
  · unfold k1_pay4
    simp only [shapeCast_self]
    refine (addf_apply _ _ _).trans ?_
    rw [mulf_apply, broadcastTo_a1_ab_apply, pay9_apply, dotPV_apply]
    show _ = Ideal.exp (m (ix2 r (0 : Fin 1)) - max (m (ix2 r (0 : Fin 1))) (Cert.OnlineSoftmax.tileMax (fun cc => tileScore qi ki q k r cc))) * acc (ix2 r d)
      + ∑ j : Fin 256, Ideal.exp (tileScore qi ki q k r j - max (m (ix2 r (0 : Fin 1))) (Cert.OnlineSoftmax.tileMax (fun cc => tileScore qi ki q k r cc))) * v (ix3 (0 : Fin 1) j d)
    congr 1
    refine Finset.sum_congr rfl fun cc _ => ?_
    rw [shapeCast_1ab_ab_apply]
    congr 1
    exact pay10_apply qi ki q k m r cc

end Cert.KernelIdeal.Val

end
-- ==== Proof.KiValue1Row.lean ====
/-
  One row of the attention kernel's scratch as an online-softmax state. The kernel keeps, per query tile of 256 rows, a
  running maximum, a normaliser and 64 weighted sums for each row; row r of that triple is a state of the online
  softmax. The initial scratch is the state before the first tile; one tile's update is one step on the row's scores
  and the tile's value rows. When the query, key and value blocks are rows of per-head arrays Q, K, V — the query block
  rows qi·256 + r, the key and value blocks rows ki·256 + cc — the tile's scores are tile ki of the causal scores of row
  qi·256 + r (the two conditions "key position not after query position" agree) and the value block is tile ki of the
  value rows.
-/
import proofs.«112669_j738734375717_2_alg».proof.Proof.KiFlashRow
import proofs.«112669_j738734375717_2_alg».proof.Proof.KiPayloads
import Idealize.ShloMosaic.Lib.ValueIdx

noncomputable section

namespace Cert.KernelIdeal.Val

open Cert.KernelIdeal Cert.KernelIdeal.Gen
open Idealize.ShloMosaic Idealize.ShloMosaic.ValueIdx
open Cert.OnlineSoftmax Cert.Attn
open scoped BigOperators

/-- Row r of row tile q of a head: row q·256 + r of the head's 2048. -/
abbrev rowOf (q : Fin 8) (r : Fin 256) : Fin 2048 := ⟨q.val * 256 + r.val, by have := q.isLt; have := r.isLt; omega⟩

/-- Row r of a scratch triple (running maximum, normaliser, weighted sums) as an online-softmax state. -/
def rowState (s : Vec Ideal S256x1 .f32 × Vec Ideal S256x1 .f32 × Vec Ideal S256x64 .f32) (r : Fin 256) : State 64 :=
  ⟨s.1 (ix2 r (0 : Fin 1)), s.2.1 (ix2 r (0 : Fin 1)), fun d => s.2.2 (ix2 r d)⟩

theorem state_ext (a b : State 64) (h1 : a.m = b.m) (h2 : a.l = b.l) (h3 : ∀ d, a.acc d = b.acc d) : a = b := by
  cases a; cases b
  simp only [State.mk.injEq]
  exact ⟨h1, h2, funext h3⟩

/-- The initial scratch is, row by row, the state before the first tile. -/
theorem rowState_init (r : Fin 256) : rowState (k1_pay1 (F := Ideal), k1_pay2 (F := Ideal), k1_pay3 (F := Ideal)) r = init 64 := by
  obtain ⟨h1, h2, h3⟩ := init_apply r
  exact state_ext _ _ h1 h2 h3

/-- One tile's update of the scratch is, row by row, one step of the online softmax on the row's scores and the tile's
    value rows. -/
theorem rowState_step (qi ki : Fin 8) (q k v : Vec Ideal S1x256x64 .bf16)
    (s : Vec Ideal S256x1 .f32 × Vec Ideal S256x1 .f32 × Vec Ideal S256x64 .f32) (r : Fin 256) :
    rowState (k1_pay5 (k1_pay8 (F := Ideal) (BitVec.ofNat 32 qi.val) (BitVec.ofNat 32 ki.val) q k s.1),
        k1_pay11 (F := Ideal) (BitVec.ofNat 32 qi.val) (BitVec.ofNat 32 ki.val) q k s.1 s.2.1,
        k1_pay4 (k1_pay9 (F := Ideal) (BitVec.ofNat 32 qi.val) (BitVec.ofNat 32 ki.val) q k s.1)
          (k1_pay10 (F := Ideal) (BitVec.ofNat 32 qi.val) (BitVec.ofNat 32 ki.val) q k s.1) v s.2.2) r
      = step (fun cc => tileScore qi ki q k r cc) (fun cc d => v (ix3 (0 : Fin 1) cc d)) (rowState s r) := by
  obtain ⟨h1, h2, h3⟩ := step_apply qi ki q k v s.1 s.2.1 s.2.2 r
  exact state_ext _ _ h1 h2 h3

/-- A tile's scores of row r, computed from a query block and a key block that are rows of the head arrays, are tile
    ki of the row's causal scores. -/
theorem tileScore_eq_tileOf (Q K : HeadArr) (bh : Fin 32) (qi ki : Fin 8) (q k : Vec Ideal S1x256x64 .bf16) (r : Fin 256)
    (hq : ∀ d : Fin 64, q (ix3 (0 : Fin 1) r d) = Q (ix3 bh (rowOf qi r) d))
    (hk : ∀ (cc : Fin 256) (d : Fin 64), k (ix3 (0 : Fin 1) cc d) = K (ix3 bh (rowOf ki cc) d)) :
    (fun cc => tileScore qi ki q k r cc) = tileOf 256 (rowScore Q K bh (rowOf qi r)) ki.val := by
  funext cc
  have hlt : ki.val * 256 + cc.val < 2048 := by have := ki.isLt; have := cc.isLt; omega
  unfold tileScore tileOf
  rw [dif_pos hlt]
  unfold rowScore
  show (if ki.val * 256 + cc.val ≤ qi.val * 256 + r.val then _ else _) = (if ki.val * 256 + cc.val ≤ qi.val * 256 + r.val then _ else _)
  refine if_congr Iff.rfl ?_ rfl
  congr 1
  exact Finset.sum_congr rfl fun d _ => by rw [hq, hk]

/-- A value block that is rows of the head array is tile ki of the value rows. -/
theorem vblock_eq_vtileOf (Vv : HeadArr) (bh : Fin 32) (ki : Fin 8) (v : Vec Ideal S1x256x64 .bf16)
    (hv : ∀ (cc : Fin 256) (d : Fin 64), v (ix3 (0 : Fin 1) cc d) = Vv (ix3 bh (rowOf ki cc) d)) :
    (fun (cc : Fin 256) (d : Fin 64) => v (ix3 (0 : Fin 1) cc d)) = vtileOf 256 (fun j d => Vv (ix3 bh j d)) ki.val := by
  funext cc d
  have hlt : ki.val * 256 + cc.val < 2048 := by have := ki.isLt; have := cc.isLt; omega
  unfold vtileOf
  rw [dif_pos hlt, hv]

/-- The same with the two tile numbers given as naturals equal to qi and ki, the blocks being rows of head arrays Q, K,
    Vv: the step is on tile ki of the row's causal scores and of the value rows. -/
theorem rowState_step_arr (Q K Vv : HeadArr) (bh : Fin 32) (qi ki : Fin 8) (a b : ℕ) (ha : a = qi.val) (hb : b = ki.val)
    (q k v : Vec Ideal S1x256x64 .bf16) (r : Fin 256)
    (hq : ∀ d : Fin 64, q (ix3 (0 : Fin 1) r d) = Q (ix3 bh (rowOf qi r) d))
    (hk : ∀ (cc : Fin 256) (d : Fin 64), k (ix3 (0 : Fin 1) cc d) = K (ix3 bh (rowOf ki cc) d))
    (hv : ∀ (cc : Fin 256) (d : Fin 64), v (ix3 (0 : Fin 1) cc d) = Vv (ix3 bh (rowOf ki cc) d))
    (s : Vec Ideal S256x1 .f32 × Vec Ideal S256x1 .f32 × Vec Ideal S256x64 .f32) :
    rowState (k1_pay5 (k1_pay8 (F := Ideal) (BitVec.ofNat 32 a) (BitVec.ofNat 32 b) q k s.1),
        k1_pay11 (F := Ideal) (BitVec.ofNat 32 a) (BitVec.ofNat 32 b) q k s.1 s.2.1,
        k1_pay4 (k1_pay9 (F := Ideal) (BitVec.ofNat 32 a) (BitVec.ofNat 32 b) q k s.1)
          (k1_pay10 (F := Ideal) (BitVec.ofNat 32 a) (BitVec.ofNat 32 b) q k s.1) v s.2.2) r
      = step (tileOf 256 (rowScore Q K bh (rowOf qi r)) ki.val) (vtileOf 256 (fun j d => Vv (ix3 bh j d)) ki.val) (rowState s r) := by
  subst ha hb
  rw [rowState_step, tileScore_eq_tileOf Q K bh qi ki q k r hq hk, vblock_eq_vtileOf Vv bh ki v hv]

end Cert.KernelIdeal.Val

end
-- ==== Proof.KiValue1Gen.lean ====
/-
  The attention region's output array as one function of the arrays the region finds. The grid's point t works on head
  t / 64, query tile t / 8 mod 8 and key tile t mod 8; its query and output blocks are rows (query tile)·256 … of the head,
  its key and value blocks rows min (key tile) (query tile)·256 …. Going through the eight key tiles of one (head, query
  tile), the scratch holds at row r, after key tile ki, the online-softmax state of row qi·256 + r after its first
  min ki qi + 1 tiles: the first key tile starts from the initial scratch, a key tile not after the query tile takes one
  step, a later one leaves the scratch as it is. After the last key tile the output block is the quotient of the sums by
  the normaliser of the state after qi + 1 tiles: the row of causal attention by the online softmax. Those blocks, one per
  (head, query tile), tile the output array. Everything is stated for any record of what the points leave (outs) that
  steps as the kernel's does, and any proof data whose output block is its first component.
-/
import proofs.«112669_j738734375717_2_alg».proof.Proof.KiRuns1
import proofs.«112669_j738734375717_2_alg».proof.Proof.KiValue1Row
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open Cert.OnlineSoftmax Cert.Attn
open scoped BigOperators

-- the TensorCore's buffer contents when the region is entered, on the extended reals
variable (V : (c : Dev nD) → (b : Ref sig .tc) → Buf (Elt Ideal) ((c : Thread nD τ).loc b))

/-- The printed index maps, decided over the grid's 2048 points: point t works on head t / 64, query tile t / 8 mod 8 and
    key tile t mod 8; the query and output windows sit at block (head, query tile, 0), the key and value windows at
    block (head, min (key tile) (query tile), 0). -/
theorem blocks1 : ∀ t : Fin cfg1.N,
    win1_0.index t (0 : Fin 3) = t.val / 64 ∧ win1_0.index t (1 : Fin 3) = t.val / 8 % 8 ∧ win1_0.index t (2 : Fin 3) = 0
    ∧ win1_1.index t (0 : Fin 3) = t.val / 64 ∧ win1_1.index t (1 : Fin 3) = min (t.val % 8) (t.val / 8 % 8) ∧ win1_1.index t (2 : Fin 3) = 0
    ∧ win1_2.index t (0 : Fin 3) = t.val / 64 ∧ win1_2.index t (1 : Fin 3) = min (t.val % 8) (t.val / 8 % 8) ∧ win1_2.index t (2 : Fin 3) = 0
    ∧ win1_3.index t (0 : Fin 3) = t.val / 64 ∧ win1_3.index t (1 : Fin 3) = t.val / 8 % 8 ∧ win1_3.index t (2 : Fin 3) = 0 :=
  (by decide +kernel : ∀ t : Fin grid1.N, _)

/-- The query block at a point is rows of the query array: row r of the block is row (query tile)·256 + r of the head. -/
theorem qblock_apply (c : Dev nD) (t : Fin cfg1.N) (bh : Fin 32) (qi : Fin 8) (hb : t.val / 64 = bh.val) (hqi : t.val / 8 % 8 = qi.val)
    (r : Fin 256) (d : Fin 64) :
    iblk1 V c 0 t (ix3 (0 : Fin 1) r d) = (V c main_v10 : S32x2048x64.Idx → EReal) (ix3 bh (rowOf qi r) d) := by
  obtain ⟨e0, e1, e2, -⟩ := blocks1 t
  show (V c main_v10 : S32x2048x64.Idx → EReal) (((cfg1.win 0).blk t).view.emb (ix3 (0 : Fin 1) r d)) = _
  refine congrArg _ (funext fun a => Fin.ext ?_)
  match a with
  | ⟨0, _⟩ => show win1_0.index t (0 : Fin 3) * 1 + 1 * 0 = bh.val; omega
  | ⟨1, _⟩ => show win1_0.index t (1 : Fin 3) * 256 + 1 * r.val = qi.val * 256 + r.val; omega
  | ⟨2, _⟩ => show win1_0.index t (2 : Fin 3) * 64 + 1 * d.val = d.val; omega

/-- The key block at a point is rows of the key array, at tile min (key tile) (query tile). -/
theorem kblock_apply (c : Dev nD) (t : Fin cfg1.N) (bh : Fin 32) (kk : Fin 8) (hb : t.val / 64 = bh.val)
    (hkk : min (t.val % 8) (t.val / 8 % 8) = kk.val) (cc : Fin 256) (d : Fin 64) :
    iblk1 V c 1 t (ix3 (0 : Fin 1) cc d) = (V c main_v13 : S32x2048x64.Idx → EReal) (ix3 bh (rowOf kk cc) d) := by
  obtain ⟨-, -, -, e0, e1, e2, -⟩ := blocks1 t
  show (V c main_v13 : S32x2048x64.Idx → EReal) (((cfg1.win 1).blk t).view.emb (ix3 (0 : Fin 1) cc d)) = _
  refine congrArg _ (funext fun a => Fin.ext ?_)
  match a with
  | ⟨0, _⟩ => show win1_1.index t (0 : Fin 3) * 1 + 1 * 0 = bh.val; omega
  | ⟨1, _⟩ => show win1_1.index t (1 : Fin 3) * 256 + 1 * cc.val = kk.val * 256 + cc.val; omega
  | ⟨2, _⟩ => show win1_1.index t (2 : Fin 3) * 64 + 1 * d.val = d.val; omega

/-- The value block at a point is rows of the value array, at the same tile as the key block. -/
theorem vblock_apply (c : Dev nD) (t : Fin cfg1.N) (bh : Fin 32) (kk : Fin 8) (hb : t.val / 64 = bh.val)
    (hkk : min (t.val % 8) (t.val / 8 % 8) = kk.val) (cc : Fin 256) (d : Fin 64) :
    iblk1 V c 2 t (ix3 (0 : Fin 1) cc d) = (V c main_v16 : S32x2048x64.Idx → EReal) (ix3 bh (rowOf kk cc) d) := by
  obtain ⟨-, -, -, -, -, -, e0, e1, e2, -⟩ := blocks1 t
  show (V c main_v16 : S32x2048x64.Idx → EReal) (((cfg1.win 2).blk t).view.emb (ix3 (0 : Fin 1) cc d)) = _
  refine congrArg _ (funext fun a => Fin.ext ?_)
  match a with
  | ⟨0, _⟩ => show win1_2.index t (0 : Fin 3) * 1 + 1 * 0 = bh.val; omega
  | ⟨1, _⟩ => show win1_2.index t (1 : Fin 3) * 256 + 1 * cc.val = kk.val * 256 + cc.val; omega
  | ⟨2, _⟩ => show win1_2.index t (2 : Fin 3) * 64 + 1 * d.val = d.val; omega

section Region
variable {c : Dev nD}
-- what the output block and the three scratch buffers hold after each point
variable (outs : (n : ℕ) → n < cfg1.N → Vec Ideal S1x256x64 .bf16 × Vec Ideal S256x1 .f32 × Vec Ideal S256x1 .f32 × Vec Ideal S256x64 .f32)

/-- The scratch a point starts from: the initial contents at a first key tile, else what the point before left. -/
def scrB (t : Fin cfg1.N) : Vec Ideal S256x1 .f32 × Vec Ideal S256x1 .f32 × Vec Ideal S256x64 .f32 :=
  if h : t.val % 8 = 0 then (k1_pay1 (F := Ideal), k1_pay2 (F := Ideal), k1_pay3 (F := Ideal)) else (outs (t.val - 1) (Nat.lt_of_le_of_lt (Nat.sub_le _ _) t.isLt)).2

/-- The scratch after a point, given the scratch before it: updated by the tile where the key tile is not after the
    query tile, untouched elsewhere. -/
def StepsBy : Prop := ∀ t : Fin cfg1.N,
    (outs t.val t.isLt).2 =
      if t.val % 8 ≤ t.val / 8 % 8 then
        (k1_pay5 (k1_pay8 (F := Ideal) (BitVec.ofNat 32 (t.val / 8 % 8)) (BitVec.ofNat 32 (t.val % 8)) (iblk1 V c 0 t) (iblk1 V c 1 t) (scrB outs t).1),
         k1_pay11 (F := Ideal) (BitVec.ofNat 32 (t.val / 8 % 8)) (BitVec.ofNat 32 (t.val % 8)) (iblk1 V c 0 t) (iblk1 V c 1 t) (scrB outs t).1 (scrB outs t).2.1,
         k1_pay4 (k1_pay9 (F := Ideal) (BitVec.ofNat 32 (t.val / 8 % 8)) (BitVec.ofNat 32 (t.val % 8)) (iblk1 V c 0 t) (iblk1 V c 1 t) (scrB outs t).1)
                 (k1_pay10 (F := Ideal) (BitVec.ofNat 32 (t.val / 8 % 8)) (BitVec.ofNat 32 (t.val % 8)) (iblk1 V c 0 t) (iblk1 V c 1 t) (scrB outs t).1)
                 (iblk1 V c 2 t) (scrB outs t).2.2)
      else scrB outs t

/-- The output block after a last key tile: the quotient of the weighted sums by the normaliser. -/
def OutBy : Prop := ∀ t : Fin cfg1.N, t.val % 8 = 7 →
    (outs t.val t.isLt).1 = k1_pay6 (F := Ideal) (outs t.val t.isLt).2.2.2 (outs t.val t.isLt).2.2.1

/-- One point, row by row: where the key tile ki is not after the query tile qi the row's state takes one step of the
    online softmax on tile ki of the row's causal scores and of the value rows; elsewhere it is unchanged. -/
theorem point_row (hstep : StepsBy V outs (c := c)) (t : Fin cfg1.N) (bh : Fin 32) (qi ki : Fin 8)
    (hb : t.val / 64 = bh.val) (hqi : t.val / 8 % 8 = qi.val) (hki : t.val % 8 = ki.val) (r : Fin 256) :
    rowState (outs t.val t.isLt).2 r =
      if ki.val ≤ qi.val then
        step (tileOf 256 (rowScore (V c main_v10) (V c main_v13) bh (rowOf qi r)) ki.val)
          (vtileOf 256 (fun j d => (V c main_v16 : S32x2048x64.Idx → EReal) (ix3 bh j d)) ki.val) (rowState (scrB outs t) r)
      else rowState (scrB outs t) r := by
  have hs := hstep t
  by_cases hle : ki.val ≤ qi.val
  · rw [if_pos hle]
    rw [if_pos (by omega)] at hs
    rw [hs]
    have hmin : min (t.val % 8) (t.val / 8 % 8) = ki.val := by omega
    exact rowState_step_arr (V c main_v10) (V c main_v13) (V c main_v16) bh qi ki _ _ hqi hki
      (iblk1 V c 0 t) (iblk1 V c 1 t) (iblk1 V c 2 t) r
      (fun d => qblock_apply V c t bh qi hb hqi r d) (fun cc d => kblock_apply V c t bh ki hb hmin cc d)
      (fun cc d => vblock_apply V c t bh ki hb hmin cc d) (scrB outs t)
  · rw [if_neg hle]
    rw [if_neg (by omega)] at hs
    rw [hs]

/-- THE ROW INVARIANT. Within the points of head bh and query tile qi, after key tile ki the scratch holds, at row r, the
    online-softmax state of row qi·256 + r after the first min ki qi + 1 tiles. -/
theorem row_inv (hstep : StepsBy V outs (c := c)) (bh : Fin 32) (qi : Fin 8) :
    ∀ (ki : ℕ), ki < 8 → ∀ (n : ℕ) (hn : n < cfg1.N), n = bh.val * 64 + qi.val * 8 + ki → ∀ r : Fin 256,
      rowState (outs n hn).2 r
        = stateAfter (tileOf 256 (rowScore (V c main_v10) (V c main_v13) bh (rowOf qi r)))
            (vtileOf 256 (fun j d => (V c main_v16 : S32x2048x64.Idx → EReal) (ix3 bh j d))) (min ki qi.val + 1) := by
  intro ki
  induction ki with
  | zero =>
    intro hk n hn hne r
    have hb := bh.isLt
    have hq := qi.isLt
    have hp := point_row V outs hstep ⟨n, hn⟩ bh qi ⟨0, hk⟩ (by show n / 64 = bh.val; omega) (by show n / 8 % 8 = qi.val; omega)
      (by show n % 8 = 0; omega) r
    rw [if_pos (Nat.zero_le _)] at hp
    have hB : scrB outs ⟨n, hn⟩ = (k1_pay1 (F := Ideal), k1_pay2 (F := Ideal), k1_pay3 (F := Ideal)) := dif_pos (by show n % 8 = 0; omega)
    rw [hB, rowState_init] at hp
    rw [Nat.zero_min]
    exact hp
  | succ ki ih =>
    intro hk n hn hne r
    have hb := bh.isLt
    have hq := qi.isLt
    have hp := point_row V outs hstep ⟨n, hn⟩ bh qi ⟨ki + 1, hk⟩ (by show n / 64 = bh.val; omega) (by show n / 8 % 8 = qi.val; omega)
      (by show n % 8 = ki + 1; omega) r
    have hB : scrB outs ⟨n, hn⟩ = (outs (n - 1) (Nat.lt_of_le_of_lt (Nat.sub_le _ _) hn)).2 := dif_neg (by show ¬ n % 8 = 0; omega)
    have ihr := ih (by omega) (n - 1) (Nat.lt_of_le_of_lt (Nat.sub_le _ _) hn) (by omega) r
    rw [hB, ihr] at hp
    by_cases hle : ki + 1 ≤ qi.val
    · rw [if_pos hle] at hp
      rw [hp, show min ki qi.val = ki by omega, show min (ki + 1) qi.val = ki + 1 by omega]
      rfl
    · rw [if_neg hle] at hp
      rw [hp, show min ki qi.val = qi.val by omega, show min (ki + 1) qi.val = qi.val by omega]

/-- After a last key tile the output block holds, at row r, row qi·256 + r of causal attention by the online softmax. -/
theorem out_row (hstep : StepsBy V outs (c := c)) (hout : OutBy outs) (t : Fin cfg1.N) (h7 : t.val % 8 = 7)
    (bh : Fin 32) (qi : Fin 8) (hb : t.val / 64 = bh.val) (hqi : t.val / 8 % 8 = qi.val) (r : Fin 256) (d : Fin 64) :
    (outs t.val t.isLt).1 (ix3 (0 : Fin 1) r d)
      = flashRow (V c main_v10) (V c main_v13) (V c main_v16) bh (rowOf qi r) d := by
  rw [hout t h7, out_apply]
  have hq := qi.isLt
  have hr := row_inv V outs hstep bh qi 7 (by omega) t.val t.isLt (by omega) r
  have hdiv : (rowOf qi r).val / 256 + 1 = min 7 qi.val + 1 := by
    show (qi.val * 256 + r.val) / 256 + 1 = _
    have := r.isLt
    omega
  unfold flashRow
  rw [hdiv, ← hr]
  rfl

/-- Row r, feature d of the output block at point t is the entry (head, (query tile)·256 + r, d) of the output array. -/
theorem oblock_emb (t : Fin cfg1.N) (bh : Fin 32) (qi : Fin 8) (hb : t.val / 64 = bh.val) (hqi : t.val / 8 % 8 = qi.val)
    (r : Fin 256) (d : Fin 64) :
    (((cfg1.win 3).blk t).view.emb (ix3 (0 : Fin 1) r d) : S32x2048x64.Idx) = ix3 bh (rowOf qi r) d := by
  obtain ⟨-, -, -, -, -, -, -, -, -, e0, e1, e2⟩ := blocks1 t
  refine funext fun a => Fin.ext ?_
  match a with
  | ⟨0, _⟩ => show win1_3.index t (0 : Fin 3) * 1 + 1 * 0 = bh.val; omega
  | ⟨1, _⟩ => show win1_3.index t (1 : Fin 3) * 256 + 1 * r.val = qi.val * 256 + r.val; omega
  | ⟨2, _⟩ => show win1_3.index t (2 : Fin 3) * 64 + 1 * d.val = d.val; omega

/-- What a point that writes its block back writes is its block of the attention array of the three arrays as the
    region finds them. -/
theorem wrote1 (dat : Dat τ (Elt Ideal) Unit ℕ (UR sig nD τ) ℕ cfg1 c) (hafter : ∀ t, dat.after 3 t = (outs t.val t.isLt).1)
    (hstep : StepsBy V outs (c := c)) (hout : OutBy outs) (t : Fin cfg1.N) (hf : (cfg1.win 3).flush t = true) :
    dat.flushed 3 t = ((cfg1.win 3).blk t).view.read (Elt Ideal) (flashArr (V c main_v10) (V c main_v13) (V c main_v16)) := by
  have h7 : t.val % 8 = 7 := (flush1_3 t).mp hf
  have ht : t.val < 2048 := t.isLt
  show (cfg1.win 3).cut (grid1.coords t) (dat.after 3 t) = _
  rw [hafter]
  refine funext fun (j : S1x256x64.Idx) => ?_
  obtain ⟨u, r, d, rfl⟩ : ∃ (u : Fin 1) (r : Fin 256) (d : Fin 64), j = ix3 u r d := ⟨j 0, j 1, j 2, eq_ix3 j⟩
  obtain rfl : u = 0 := Subsingleton.elim _ _
  refine (out_row V outs hstep hout t h7 ⟨t.val / 64, by omega⟩ ⟨t.val / 8 % 8, by omega⟩ rfl rfl r d).trans ?_
  show _ = flashArr (V c main_v10) (V c main_v13) (V c main_v16) (((cfg1.win 3).blk t).view.emb (ix3 (0 : Fin 1) r d))
  rw [oblock_emb t ⟨t.val / 64, by omega⟩ ⟨t.val / 8 % 8, by omega⟩ rfl rfl r d, flashArr_apply]

/-- An index of the output array is in point t's block iff each coordinate is in the block's range on its axis. -/
theorem mem_block1 (t : Fin cfg1.N) (i : S32x2048x64.Idx) :
    i ∈ ((cfg1.win 3).blk t).view.set ↔ ∀ a : Fin 3, win1_3.index t a * S1x256x64.size a ≤ (i a).val ∧ (i a).val < win1_3.index t a * S1x256x64.size a + S1x256x64.size a := by
  show i ∈ ((View.whole main_v17).slice (win1_3.rect t)).set ↔ _
  rw [View.set_slice_whole, Rect.mem_set_unit]
  exact Iff.rfl

/-- Every index of the output array is in the block some point writes back: row i of head bh is in the block of the
    last key tile of query tile i / 256. -/
theorem covered1 (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hlt : (i 0).val * 64 + (i 1).val / 256 * 8 + 7 < cfg1.N := by show _ < 2048; omega
  obtain ⟨-, -, -, -, -, -, -, -, -, e0, e1, e2⟩ := blocks1 ⟨(i 0).val * 64 + (i 1).val / 256 * 8 + 7, hlt⟩
  have e0' : win1_3.index ⟨(i 0).val * 64 + (i 1).val / 256 * 8 + 7, hlt⟩ (0 : Fin 3) = ((i 0).val * 64 + (i 1).val / 256 * 8 + 7) / 64 := e0
  have e1' : win1_3.index ⟨(i 0).val * 64 + (i 1).val / 256 * 8 + 7, hlt⟩ (1 : Fin 3) = ((i 0).val * 64 + (i 1).val / 256 * 8 + 7) / 8 % 8 := e1
  refine ⟨⟨(i 0).val * 64 + (i 1).val / 256 * 8 + 7, hlt⟩, (flush1_3 _).mpr (by show ((i 0).val * 64 + (i 1).val / 256 * 8 + 7) % 8 = 7; omega), ?_⟩
  rw [mem_block1]
  intro a
  match a with
  | ⟨0, _⟩ =>
    show win1_3.index ⟨(i 0).val * 64 + (i 1).val / 256 * 8 + 7, hlt⟩ (0 : Fin 3) * 1 ≤ (i 0).val ∧ (i 0).val < win1_3.index ⟨(i 0).val * 64 + (i 1).val / 256 * 8 + 7, hlt⟩ (0 : Fin 3) * 1 + 1
    omega
  | ⟨1, _⟩ =>
    show win1_3.index ⟨(i 0).val * 64 + (i 1).val / 256 * 8 + 7, hlt⟩ (1 : Fin 3) * 256 ≤ (i 1).val ∧ (i 1).val < win1_3.index ⟨(i 0).val * 64 + (i 1).val / 256 * 8 + 7, hlt⟩ (1 : Fin 3) * 256 + 256
    omega
  | ⟨2, _⟩ =>
    show win1_3.index ⟨(i 0).val * 64 + (i 1).val / 256 * 8 + 7, hlt⟩ (2 : Fin 3) * 64 ≤ (i 2).val ∧ (i 2).val < win1_3.index ⟨(i 0).val * 64 + (i 1).val / 256 * 8 + 7, hlt⟩ (2 : Fin 3) * 64 + 64
    omega

/-- THE OUTPUT ARRAY after the region, for any proof data whose output block after a point is the first component of
    outs and whose scratch steps as the kernel's does: causal attention by the online softmax, row by row, of the three
    arrays the region finds. -/
theorem arr1_of (dat : Dat τ (Elt Ideal) Unit ℕ (UR sig nD τ) ℕ cfg1 c) (hafter : ∀ t, dat.after 3 t = (outs t.val t.isLt).1)
    (hstep : StepsBy V outs (c := c)) (hout : OutBy outs) :
    dat.arrAt 3 cfg1.N = flashArr (V c main_v10) (V c main_v13) (V c main_v16) :=
  dat.arrAt_eq_of_cover 3 (flashArr (V c main_v10) (V c main_v13) (V c main_v16))
    (fun t hf => wrote1 V outs dat hafter hstep hout t hf) covered1

end Region

end Cert.KernelIdeal.Val

end
-- ==== Proof.KiValue1.lean ====
/-
  The attention region's output array, for the kernel's own record of what its grid points leave: the record steps
  as the online softmax does (one step at a key tile not after the query tile, none at a later one, a fresh start at the
  first key tile) and its last key tile writes the quotient of the sums by the normaliser, so the array the region
  leaves is, row by row, causal attention by the online softmax of the arrays the region finds.
-/
import proofs.«112669_j738734375717_2_alg».proof.Proof.KiStep1
import proofs.«112669_j738734375717_2_alg».proof.Proof.KiValue1Gen

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open Cert.OnlineSoftmax Cert.Attn

variable (V : (c : Dev nD) → (b : Ref sig .tc) → Buf (Elt Ideal) ((c : Thread nD τ).loc b))

/-- Region 1 leaves in its output array, at head bh, row i, feature d, that row of causal attention by the online softmax. -/
theorem arr1 (c : Dev nD) :
    (Cert.KernelIdeal.Fr.dat1 V c).arrAt 3 cfg1.N = Cert.Attn.flashArr (V c main_v10) (V c main_v13) (V c main_v16) :=
  arr1_of V (outsAt1 V c) (dat1 V c) (after1_3 V c) (fun t => scr_step V c t) (fun t h7 => out_step V c t h7)

end Cert.KernelIdeal.Val

end
-- ==== Proof.KiValue2.lean ====
/-
  The output projection's array after its region, as one function of the arrays the region finds on entry. The grid's
  point t owns row block t of the output (512 rows, all 1024 columns); there the body reads row block t of the left
  array and the whole right array and stores their product over the shared axis of 1024. Read at an index of the whole
  array, every point therefore writes the same thing: the sum over k of left[row, k] · right[k, column]. The eight row
  blocks tile the 4096 rows, so after the last point the output array is that sum at every index.
-/
import proofs.«112669_j738734375717_2_alg».proof.Proof.KiRegion2
import proofs.«112669_j738734375717_2_alg».proof.Proof.KiPayMatmul
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

-- the TensorCore's buffer contents when the region is entered, on the extended reals
variable (V : (c : Dev nD) → (b : Ref sig .tc) → Buf (Elt Ideal) ((c : Thread nD τ).loc b))

/-- The body's accesses start at the origin of their buffers. -/
theorem origin2 : (![0, 0] : Fin 2 → Nat) = fun _ => 0 := funext fun a => by fin_cases a <;> rfl

/-- The product of a [4096,1024] array with a [1024,1024] array over their shared axis, index by index. -/
abbrev prodArr2 (A : S4096x1024.Idx → EReal) (B : S1024x1024.Idx → EReal) : S4096x1024.Idx → EReal :=
  fun i => ∑ k : Fin 1024, A (ix2 (i 0) k) * B (ix2 k (i 1))

/-- The payload of two blocks, at (p, q), is the array product at an index i, when row p of the left block is row
    `i 0` of the left array and column q of the right block is column `i 1` of the right array. -/
theorem pay2_of_rows (A : S4096x1024.Idx → EReal) (B : S1024x1024.Idx → EReal)
    (x0 : Vec Ideal S512x1024 .bf16) (x1 : Vec Ideal S1024x1024 .bf16) (i : S4096x1024.Idx) (p : Fin 512) (q : Fin 1024)
    (h0 : ∀ k : Fin 1024, x0 (ix2 p k) = A (ix2 (i 0) k)) (h1 : ∀ k : Fin 1024, x1 (ix2 k q) = B (ix2 k (i 1))) :
    k2_pay1 (F := Ideal) x0 x1 (ix2 p q) = prodArr2 A B i := by
  rw [pay2_apply]
  exact Finset.sum_congr rfl fun k _ => by rw [h0, h1]

/-- The printed index maps, decided over the grid's 8 points: the left window moves with the output's row block and
    stays at column block 0, the right window stays at block (0, 0) row-wise and follows the output's column block,
    and the output's block indices stay in their ranges. -/
theorem blocks_aligned2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 7
    ∧ win2_2.index t (1 : Fin 2) ≤ 0 :=
  (by decide +kernel : ∀ t : Fin grid2.N, _)

/-- Every block of the output array is some point's. -/
theorem blocks_onto2 : ∀ (q0 : Fin 8) (q1 : Fin 1), ∃ t : Fin cfg2.N, win2_2.index t = ![q0.val, q1.val] :=
  (by decide +kernel : ∀ (q0 : Fin 8) (q1 : Fin 1), ∃ t : Fin grid2.N, win2_2.index t = ![q0.val, q1.val])

/-- What point `t` writes back is block `t` of the array product of the two arrays as the region finds them. -/
theorem wrote2 (c : Dev nD) (t : Fin cfg2.N) :
    (dat2 V c).flushed 2 t = ((cfg2.win 2).blk t).view.read (Elt Ideal) (prodArr2 (V c main_v21) (V c main_v23)) := by
  show (cfg2.win 2).cut (grid2.coords t) ((dat2 V c).after 2 t) = _
  rw [after2_2]
  unfold out2_2
  rw [View.canon_unit_zero origin2]
  simp only [View.ld_unit_zero (S := S512x1024) origin2, View.ld_unit_zero (S := S1024x1024) origin2]
  obtain ⟨e0, e1, e2, e3, e4, e5⟩ := blocks_aligned2 t
  refine funext fun (j : S512x1024.Idx) => ?_
  obtain ⟨p, q, rfl⟩ : ∃ (p : Fin 512) (q : Fin 1024), j = ix2 p q := ⟨j 0, j 1, eq_ix2 j⟩
  refine pay2_of_rows (V c main_v21) (V c main_v23) (iblk2 V c 0 t) (iblk2 V c 1 t) (((cfg2.win 2).blk t).view.emb (ix2 p q)) p q (fun k => ?_) (fun k => ?_)
  · show V c main_v21 (((cfg2.win 0).blk t).view.emb (ix2 p k)) = V c main_v21 _
    refine congrArg _ (funext fun a => Fin.ext ?_)
    match a with
    | ⟨0, _⟩ => show win2_0.index t (0 : Fin 2) * 512 + 1 * p.val = win2_2.index t (0 : Fin 2) * 512 + 1 * p.val; omega
    | ⟨1, _⟩ => show win2_0.index t (1 : Fin 2) * 1024 + 1 * k.val = k.val; omega
  · show V c main_v23 (((cfg2.win 1).blk t).view.emb (ix2 k q)) = V c main_v23 _
    refine congrArg _ (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_2.index t (1 : Fin 2) * 1024 + 1 * q.val; omega

/-- An index of the output array is in point `t`'s block iff each coordinate is in the block's range on its axis. -/
theorem mem_block2 (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v24).slice (win2_2.rect t)).set ↔ _
  rw [View.set_slice_whole, Rect.mem_set_unit]
  exact Iff.rfl

/-- Every index of the output array is in some point's block: row r is in row block r / 512. -/
theorem covered2 (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := blocks_onto2 ⟨(i 0).val / 512, by omega⟩ ⟨(i 1).val / 1024, by omega⟩
  have q0 : win2_2.index t (0 : Fin 2) = (i 0).val / 512 := congrFun ht 0
  have q1 : win2_2.index t (1 : Fin 2) = (i 1).val / 1024 := congrFun ht 1
  refine ⟨t, flush2_2 t, ?_⟩
  rw [mem_block2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The output projection's array after the region: the product of the two arrays the region finds, index by index. -/
theorem arr2 (c : Dev nD) : (dat2 V c).arrAt 2 cfg2.N = prodArr2 (V c main_v21) (V c main_v23) :=
  (dat2 V c).arrAt_eq_of_cover 2 (prodArr2 (V c main_v21) (V c main_v23)) (fun t _ => wrote2 V c t) covered2

/-- The array product at row r and column f. -/
theorem prodArr2_apply (A : S4096x1024.Idx → EReal) (B : S1024x1024.Idx → EReal) (r : Fin 4096) (f : Fin 1024) :
    prodArr2 A B (ix2 r f) = ∑ k : Fin 1024, A (ix2 r k) * B (ix2 k f) := rfl

/-- The same read at row r and column o, with the two arrays the region finds named as functions into the extended
    reals (`hA`, `hB`): the form a caller who knows what the host wrote into them applies. -/
theorem arr2_at (c : Dev nD) (A : S4096x1024.Idx → EReal) (B : S1024x1024.Idx → EReal) (hA : V c main_v21 = A) (hB : V c main_v23 = B)
    (r : Fin 4096) (o : Fin 1024) :
    ((dat2 V c).arrAt 2 cfg2.N : S4096x1024.Idx → EReal) (ix2 r o) = ∑ k : Fin 1024, A (ix2 r k) * B (ix2 k o) := by
  subst hA hB
  exact congrFun (arr2 V c) (ix2 r o)

end Cert.KernelIdeal.Val

end
-- ==== Proof.Spec.lean ====
/-
  The mathematics both programs compute, index by index on the extended reals: causal multi-head self-attention.
  From the input x[b,t,c] and the projection weight w[f,c] the joint projection is qkv[b,t,f] = Σ_c x[b,t,c]·w[f,c]; head h
  of batch b reads its query, key and value rows at columns h·64+d, 1024+h·64+d and 2048+h·64+d. Query row i scores key
  row j by (Σ_d q[i,d]·k[j,d])·(1/8) when j ≤ i and by −∞ otherwise; a row's scores go through the softmax (shifted by the
  row's maximum), the weights average the value rows, the heads are laid side by side again (column h·64+d) and the
  output projection is out[b,t,o] = Σ_c attn[b,t,c]·wout[o,c].
-/
import Idealize.ShloMosaic.PureOps.Ideal
import Idealize.ShloMosaic.Lib.ValueIdx

noncomputable section

namespace Cert.Attn

open Idealize.ShloMosaic Idealize.ShloMosaic.ValueIdx
open scoped BigOperators

/-- The input x[b,t,c]. -/
abbrev X : Type := (⟨3, ![2, 2048, 1024]⟩ : Shape).Idx → EReal
/-- The joint projection weight w[f,c], f over the 3·1024 query, key and value columns. -/
abbrev Wqkv : Type := (⟨2, ![3072, 1024]⟩ : Shape).Idx → EReal
/-- The output projection weight wout[o,c]. -/
abbrev Wout : Type := (⟨2, ![1024, 1024]⟩ : Shape).Idx → EReal

/-- qkv[b,t,f] = Σ_c x[b,t,c]·w[f,c]. -/
def qkv (x : X) (w : Wqkv) (b : Fin 2) (t : Fin 2048) (f : Fin 3072) : EReal :=
  ∑ c : Fin 1024, x (ix3 b t c) * w (ix2 f c)

/-- Column `off + h·64 + d` of the joint projection, for `off` one of 0 (queries), 1024 (keys), 2048 (values). -/
def headCol (off : ℕ) (hoff : off ≤ 2048) (h : Fin 16) (d : Fin 64) : Fin 3072 :=
  ⟨off + h.val * 64 + d.val, by have := h.isLt; have := d.isLt; omega⟩

/-- Head h's query row t. -/
def qAt (x : X) (w : Wqkv) (b : Fin 2) (h : Fin 16) (t : Fin 2048) (d : Fin 64) : EReal :=
  qkv x w b t (headCol 0 (by omega) h d)
/-- Head h's key row t. -/
def kAt (x : X) (w : Wqkv) (b : Fin 2) (h : Fin 16) (t : Fin 2048) (d : Fin 64) : EReal :=
  qkv x w b t (headCol 1024 (by omega) h d)
/-- Head h's value row t. -/
def vAt (x : X) (w : Wqkv) (b : Fin 2) (h : Fin 16) (t : Fin 2048) (d : Fin 64) : EReal :=
  qkv x w b t (headCol 2048 (by omega) h d)

/-- The causal score of query row i against key row j: the scaled inner product when j ≤ i, −∞ otherwise. -/
def score (x : X) (w : Wqkv) (b : Fin 2) (h : Fin 16) (i j : Fin 2048) : EReal :=
  if j.val ≤ i.val then (∑ d : Fin 64, qAt x w b h i d * kAt x w b h j d) * (((1 / 8 : ℝ) : ℝ) : EReal) else ⊥

/-- A score row's maximum, from −∞. -/
def rowMax (x : X) (w : Wqkv) (b : Fin 2) (h : Fin 16) (i : Fin 2048) : EReal :=
  (Finset.univ : Finset (Fin 2048)).fold max ⊥ (fun j => score x w b h i j)

/-- The softmax weight of key row j for query row i. -/
def prob (x : X) (w : Wqkv) (b : Fin 2) (h : Fin 16) (i j : Fin 2048) : EReal :=
  Ideal.div (Ideal.exp (score x w b h i j - rowMax x w b h i))
    (∑ j' : Fin 2048, Ideal.exp (score x w b h i j' - rowMax x w b h i))

/-- Head h's attention output row i: the softmax-weighted average of the value rows. -/
def attn (x : X) (w : Wqkv) (b : Fin 2) (h : Fin 16) (i : Fin 2048) (d : Fin 64) : EReal :=
  ∑ j : Fin 2048, prob x w b h i j * vAt x w b h j d

/-- The heads side by side: column c = h·64 + d of row t. -/
def merged (x : X) (w : Wqkv) (b : Fin 2) (t : Fin 2048) (c : Fin 1024) : EReal :=
  attn x w b ⟨c.val / 64, by have := c.isLt; omega⟩ t ⟨c.val % 64, Nat.mod_lt _ (by norm_num)⟩

/-- out[b,t,o] = Σ_c merged[b,t,c]·wout[o,c]. -/
def outAt (x : X) (w : Wqkv) (wo : Wout) (b : Fin 2) (t : Fin 2048) (o : Fin 1024) : EReal :=
  ∑ c : Fin 1024, merged x w b t c * wo (ix2 o c)

/-- The whole result array. -/
def G (x : X) (w : Wqkv) (wo : Wout) : X := fun i => outAt x w wo (i 0) (i 1) (i 2)

end Cert.Attn

end
-- ==== Proof.KiValue.lean ====
/-
  The value of the program's result, index by index on the extended reals. Reading the fold of the run backwards:
  the result is the reshaped product of region 2, whose rows are the attention rows with the heads side by side and
  whose columns are the transposed output weight; an attention row of a head is what region 1 leaves, the online
  softmax over the key tiles up to the query's own tile, which for real scores is the one-pass softmax average of
  the head's value rows; the head's query, key and value rows are columns of the joint projection, the product region
  0 leaves, of the reshaped input with the transposed projection weight. With real inputs every entry of the joint
  projection is real, so the online softmax applies, and the result is the specification of the launch arguments.
-/
import proofs.«112669_j738734375717_2_alg».proof.Proof.KiRun
import proofs.«112669_j738734375717_2_alg».proof.Proof.KiHost
import proofs.«112669_j738734375717_2_alg».proof.Proof.KiValue0
import proofs.«112669_j738734375717_2_alg».proof.Proof.KiValue1
import proofs.«112669_j738734375717_2_alg».proof.Proof.KiValue2
import proofs.«112669_j738734375717_2_alg».proof.Proof.KiFlashRow
import proofs.«112669_j738734375717_2_alg».proof.Proof.LibRealValued
import proofs.«112669_j738734375717_2_alg».proof.Proof.Spec

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Attn Cert.Lib.RealValued
open scoped BigOperators

variable (m : (ℓ : Loc nD τ sig) → Buf (Elt Ideal) ℓ) (ρ : Dev nD → PrngReg) (c : Dev nD)

/-- The three argument arrays as launched. -/
abbrev xA : X := m ((c : Thread nD τ).loc main_arg0)
abbrev wA : Wqkv := m ((c : Thread nD τ).loc main_arg1)
abbrev oA : Wout := m ((c : Thread nD τ).loc main_arg2)

/-- The joint projection after region 0: row b·2048+t, column f of the product of the reshaped input with the transposed weight. -/
theorem v3_at (b : Fin 2) (t : Fin 2048) (f : Fin 3072) :
    Wb2 m ρ c (Proc.devRef .tc main_v3) (ix2 (⟨b.val * 2048 + t.val, by have := b.isLt; have := t.isLt; omega⟩ : Fin 4096) f)
      = qkv (xA m c) (wA m c) b t f := by
  refine (congrFun (Wb2_arr m ρ c 2) _).trans ((congrFun (arr0 (Vb1 m ρ) c) _).trans ((prodArr0_apply _ _ _ f).trans ?_))
  unfold qkv
  refine Finset.sum_congr rfl fun k _ => ?_
  rw [show Vb1 m ρ c main_v0 (ix2 (⟨b.val * 2048 + t.val, by have := b.isLt; have := t.isLt; omega⟩ : Fin 4096) k) = xA m c (ix3 b t k) from host0_v0 (Wb0 m ρ c) b t k,
    show Vb1 m ρ c main_v2 (ix2 k f) = wA m c (ix2 f k) from host0_v2 (Wb0 m ρ c) k f]

/-- Head h's query rows as region 1 finds them. -/
theorem q_at (b : Fin 2) (h : Fin 16) (t : Fin 2048) (d : Fin 64) :
    Vb3 m ρ c main_v10 (ix3 (⟨b.val * 16 + h.val, by have := b.isLt; have := h.isLt; omega⟩ : Fin 32) t d) = qAt (xA m c) (wA m c) b h t d := by
  refine (host1_q (Wb2 m ρ c) b h t d).trans ((v3_at m ρ c b t _).trans ?_)
  unfold qAt headCol
  exact congrArg (qkv (xA m c) (wA m c) b t) (Fin.ext (by simp only []; omega))
/-- Head h's key rows. -/
theorem k_at (b : Fin 2) (h : Fin 16) (t : Fin 2048) (d : Fin 64) :
    Vb3 m ρ c main_v13 (ix3 (⟨b.val * 16 + h.val, by have := b.isLt; have := h.isLt; omega⟩ : Fin 32) t d) = kAt (xA m c) (wA m c) b h t d :=
  (host1_k (Wb2 m ρ c) b h t d).trans (v3_at m ρ c b t _)
/-- Head h's value rows. -/
theorem v_at (b : Fin 2) (h : Fin 16) (t : Fin 2048) (d : Fin 64) :
    Vb3 m ρ c main_v16 (ix3 (⟨b.val * 16 + h.val, by have := b.isLt; have := h.isLt; omega⟩ : Fin 32) t d) = vAt (xA m c) (wA m c) b h t d :=
  (host1_v (Wb2 m ρ c) b h t d).trans (v3_at m ρ c b t _)

/-- A head index is a batch and a head. -/
theorem head_split (bh : Fin 32) : ∃ (b : Fin 2) (h : Fin 16), bh = (⟨b.val * 16 + h.val, by have := b.isLt; have := h.isLt; omega⟩ : Fin 32) :=
  ⟨⟨bh.val / 16, by have := bh.isLt; omega⟩, ⟨bh.val % 16, Nat.mod_lt _ (by norm_num)⟩, Fin.ext (by simp only []; omega)⟩

section Real
variable (hx : AllReal (xA m c)) (hw : AllReal (wA m c))
include hx hw

/-- With real inputs the joint projection is real. -/
theorem qkv_real (b : Fin 2) (t : Fin 2048) (f : Fin 3072) : IsReal (qkv (xA m c) (wA m c) b t f) :=
  IsReal.sum _ _ fun k _ => IsReal.mul (hx _) (hw _)

theorem Q_real : AllReal (Vb3 m ρ c main_v10 : HeadArr) := fun idx => by
  obtain ⟨bh, t, d, rfl⟩ : ∃ (bh : Fin 32) (t : Fin 2048) (d : Fin 64), idx = ix3 bh t d := ⟨idx 0, idx 1, idx 2, eq_ix3 idx⟩
  obtain ⟨b, h, rfl⟩ := head_split bh
  rw [q_at]; exact qkv_real m c hx hw b t _
theorem K_real : AllReal (Vb3 m ρ c main_v13 : HeadArr) := fun idx => by
  obtain ⟨bh, t, d, rfl⟩ : ∃ (bh : Fin 32) (t : Fin 2048) (d : Fin 64), idx = ix3 bh t d := ⟨idx 0, idx 1, idx 2, eq_ix3 idx⟩
  obtain ⟨b, h, rfl⟩ := head_split bh
  rw [k_at]; exact qkv_real m c hx hw b t _
theorem V_real : AllReal (Vb3 m ρ c main_v16 : HeadArr) := fun idx => by
  obtain ⟨bh, t, d, rfl⟩ : ∃ (bh : Fin 32) (t : Fin 2048) (d : Fin 64), idx = ix3 bh t d := ⟨idx 0, idx 1, idx 2, eq_ix3 idx⟩
  obtain ⟨b, h, rfl⟩ := head_split bh
  rw [v_at]; exact qkv_real m c hx hw b t _

/-- The attention output after region 1: head h, row t is the softmax-weighted average of the head's value rows. -/
theorem v17_at (b : Fin 2) (h : Fin 16) (t : Fin 2048) (d : Fin 64) :
    Wb4 m ρ c (Proc.devRef .tc main_v17) (ix3 (⟨b.val * 16 + h.val, by have := b.isLt; have := h.isLt; omega⟩ : Fin 32) t d) = attn (xA m c) (wA m c) b h t d := by
  refine (congrFun (Wb4_arr m ρ c 3) _).trans ((congrFun (arr1 (Vb3 m ρ) c) _).trans ((flashArr_apply _ _ _ _ t d).trans ?_))
  rw [flashRow_eq _ _ _ (Q_real m ρ c hx hw) (K_real m ρ c hx hw) (V_real m ρ c hx hw)]
  have hrow : rowScore (Vb3 m ρ c main_v10) (Vb3 m ρ c main_v13) (⟨b.val * 16 + h.val, by have := b.isLt; have := h.isLt; omega⟩ : Fin 32) t
      = fun j => score (xA m c) (wA m c) b h t j := by
    funext j
    unfold rowScore score
    by_cases hj : j.val ≤ t.val
    · rw [if_pos hj, if_pos hj]
      exact congrArg (· * _) (Finset.sum_congr rfl fun d _ => by rw [q_at, k_at])
    · rw [if_neg hj, if_neg hj]
  rw [hrow]
  unfold attn prob rowMax
  exact Finset.sum_congr rfl fun j _ => by rw [v_at]

end Real

/-- The output weight reaches region 2's entry as launched. -/
theorem arg2_at (k o : Fin 1024) : Vb5 m ρ c main_v23 (ix2 k o) = oA m c (ix2 o k) := by
  refine (host2_v23 (Wb4 m ρ c) k o).trans (congrFun ?_ _)
  rw [Wb4_of_ne m ρ c main_arg2 (by decide)]
  refine (host1_keep (Wb2 m ρ c) main_arg2 (by decide)).trans ?_
  rw [Wb2_of_ne m ρ c main_arg2 (by decide)]
  exact host0_keep (Wb0 m ρ c) main_arg2 (by decide)

section Real2
variable (hx : AllReal (xA m c)) (hw : AllReal (wA m c))
include hx hw

/-- The result rows after region 2. -/
theorem v24_at (b : Fin 2) (t : Fin 2048) (o : Fin 1024) :
    Wb6 m ρ c (Proc.devRef .tc main_v24) (ix2 (⟨b.val * 2048 + t.val, by have := b.isLt; have := t.isLt; omega⟩ : Fin 4096) o)
      = outAt (xA m c) (wA m c) (oA m c) b t o := by
  refine (congrFun (Wb6_arr m ρ c 2) _).trans ((congrFun (arr2 (Vb5 m ρ) c) _).trans ((prodArr2_apply _ _ _ o).trans ?_))
  unfold outAt
  refine Finset.sum_congr rfl fun k _ => ?_
  rw [arg2_at]
  refine congrArg (· * _) ?_
  have hk : k = (⟨(⟨k.val / 64, by have := k.isLt; omega⟩ : Fin 16).val * 64 + (⟨k.val % 64, Nat.mod_lt _ (by norm_num)⟩ : Fin 64).val,
      by have := k.isLt; simp only []; omega⟩ : Fin 1024) := Fin.ext (by simp only []; omega)
  unfold merged
  rw [← v17_at m ρ c hx hw b ⟨k.val / 64, by have := k.isLt; omega⟩ t ⟨k.val % 64, Nat.mod_lt _ (by norm_num)⟩,
    ← host2_v21 (Wb4 m ρ c) b ⟨k.val / 64, by have := k.isLt; omega⟩ t ⟨k.val % 64, Nat.mod_lt _ (by norm_num)⟩]
  exact congrArg (fun kk => Vb5 m ρ c main_v21 (ix2 (⟨b.val * 2048 + t.val, by have := b.isLt; have := t.isLt; omega⟩ : Fin 4096) kk)) hk

/-- THE KERNEL'S VALUE: with real inputs the program's result array is the specification of the launch arguments. -/
theorem kernel_value : Wb7 m ρ c (Proc.devRef .tc main_v25) = G (xA m c) (wA m c) (oA m c) := by
  funext i
  obtain ⟨b, t, o, rfl⟩ : ∃ (b : Fin 2) (t : Fin 2048) (o : Fin 1024), i = ix3 b t o := ⟨i 0, i 1, i 2, eq_ix3 i⟩
  exact (host3_v25 (Wb6 m ρ c) b t o).trans (v24_at m ρ c hx hw b t o)

end Real2

section RunValue
variable (m : (ℓ : Loc nD τ sig) → Buf (Elt Ideal) ℓ) (ρ : Dev nD → PrngReg)

/-- THE RUN WITH ITS VALUE: with real inputs every weakly fair execution terminates with the result array at the
    specification of the launch arguments and the three argument arrays unchanged. -/
theorem run_value (hx : ∀ c, AllReal (xA m c)) (hw : ∀ c, AllReal (wA m c)) :
    θ_run (defs (F := Ideal)) (onTc (τ := τ) (main (F := Ideal))) ⟨m, fun _ => 0, ρ⟩ (fun r => ∀ c : Dev nD,
      r.2.mem ((c.tc : Thread nD τ).loc main_v25) = G (xA m c) (wA m c) (oA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v25 (by decide))).trans (kernel_value m ρ c (hx c) (hw c)),
     (h c _ (mem_uc main_arg0 (by decide))).trans (Wb7_keep m ρ c main_arg0 (by decide) (by decide) (by decide) (by decide) (by decide) (by decide) (by decide)),
     (h c _ (mem_uc main_arg1 (by decide))).trans (Wb7_keep m ρ c main_arg1 (by decide) (by decide) (by decide) (by decide) (by decide) (by decide) (by decide)),
     (h c _ (mem_uc main_arg2 (by decide))).trans (Wb7_keep m ρ c main_arg2 (by decide) (by decide) (by decide) (by decide) (by decide) (by decide) (by decide))⟩)
    (run_all m ρ)

end RunValue

end Cert.KernelIdeal.Val

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«112669_j738734375717_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.KiFinite.lean ====
/-
  The precondition read back: "every float input is finite" makes each of the three input arrays real-valued.
  The printed test is the conjunction of three all-reductions of |x| < +∞, one per input; each conjunct that
  answered 1 says its array holds only real numbers.
-/
import proofs.«112669_j738734375717_2_alg».proof.Pre_finite_inputs
import proofs.«112669_j738734375717_2_alg».proof.Proof.LibFiniteTest
import Idealize.ShloMosaic.Lib.ValueIdx
import Idealize.ShloMosaic.Lib.Affine

noncomputable section

namespace Cert.Attn.Finite

open Idealize.ShloMosaic Cert.Lib.RealValued Cert.Lib.FiniteTest Cert.Pre_finite_inputs

instance : Subsingleton S_.Idx := ⟨fun a b => funext fun d => d.elim0⟩

/-- If the finiteness test of the three inputs answers 1, every entry of each input is a real number. -/
theorem allReal_of_pre [hP : Cert.Pre_finite_inputs.Facts]
    (x0 : FVec Ideal S2x2048x1024 .f32) (x1 : FVec Ideal S3072x1024 .f32) (x2 : FVec Ideal S1024x1024 .f32)
    (h : Cert.Pre_finite_inputs.fn (F := Ideal) x0 x1 x2 = fun _ => 1#1) :
    AllReal x0 ∧ AllReal x1 ∧ AllReal x2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨allReal_of_all x0 _ _ _ _ _ _ h0', allReal_of_all x1 _ _ _ _ _ _ h1, allReal_of_all x2 _ _ _ _ _ _ h2⟩

end Cert.Attn.Finite

end
-- ==== Proof.RefIsSpec.lean ====
/-
  The reference program computes the specification. Its result array, read one element at a time, is the causal
  multi-head attention of Spec.lean: the joint projection qkv[b,t,f] = Σ_c x[b,t,c]·w[f,c]; its three column blocks cut into
  heads (row-major position (b,t,h,d) of [2,2048,16,64] is column h·64+d) and the head axis moved before the row axis; the
  inner products Σ_d q[i,d]·k[j,d] divided by √64 = 8, that is multiplied by 1/8; the lower-triangle mask j ≤ i, decided on
  the coordinates as signed 32-bit words, with −∞ elsewhere; the row maximum from −∞; the exponentials of the shifted
  scores over their row sum from 0; the weighted average of the value rows; the heads laid side by side again (column
  c is head c / 64, entry c % 64); and the output projection. Every step is a re-indexing: no finiteness is used.
-/
import proofs.«112669_j738734375717_2_alg».proof.Proof.Gen.ReferenceIdeal.Read
import proofs.«112669_j738734375717_2_alg».proof.Proof.Spec
import Idealize.ShloMosaic.PureOps.Reduce
import Idealize.ShloMosaic.Lib.Affine

noncomputable section

namespace Cert.RefSide

open Cert.ReferenceIdeal Cert.ReferenceIdeal.Read Cert.Attn
open Idealize.ShloMosaic Idealize.ShloMosaic.ValueIdx
open scoped BigOperators

abbrev X0 := (⟨S2x2048x1024, .f32⟩ : BufTy).Contents (Elt Ideal)
abbrev X1 := (⟨S3072x1024, .f32⟩ : BufTy).Contents (Elt Ideal)
abbrev X2 := (⟨S1024x1024, .f32⟩ : BufTy).Contents (Elt Ideal)

/-- The word 0x42800000 is the number 64. -/
theorem word_sixtyfour : Ideal.ofBits .f32 0x42800000#32 = ((64 : ℝ) : EReal) := by
  simp [Ideal.ofBits, Ideal.ieee]
  rw [← EReal.coe_mul]
  norm_num

/-- The word 0xFF800000 is −∞. -/
theorem word_neg_inf : Ideal.ofBits .f32 0xFF800000#32 = (⊥ : EReal) := by
  simp [Ideal.ofBits, Ideal.ieee]

/-- The joint projection at (b, t, f). -/
theorem v0_at (x0 : X0) (x1 : X1) (b : Fin 2) (t : Fin 2048) (f : Fin 3072) :
    val_main_v0 (F := Ideal) x0 x1 (ix3 b t f) = qkv x0 x1 b t f := by
  rw [val_main_v0_apply]
  unfold qkv
  refine Finset.sum_congr rfl fun k _ => ?_
  congr 2
  · funext a; match a with | ⟨0, _⟩ => rfl | ⟨1, _⟩ => rfl | ⟨2, _⟩ => rfl
  · funext a; match a with | ⟨0, _⟩ => rfl | ⟨1, _⟩ => rfl

/-- Row-major position (b, t, h, d) of [2, 2048, 16, 64] is position (b, t, h·64 + d) of [2, 2048, 1024]. -/
theorem idx_q (b : Fin 2) (h : Fin 16) (t : Fin 2048) (d : Fin 64) :
    idx_main_v1 (idx_main_v4 (idx_main_v5 (ix4 b h t d))) = ix3 b t (headCol 0 (by omega) h d) := by
  funext a; apply Fin.ext
  have hb := b.isLt; have hh := h.isLt; have ht := t.isLt; have hd := d.isLt
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show (((b.val * 2048 + t.val) * 16 + h.val) * 64 + d.val) % 1024 = 0 + h.val * 64 + d.val; omega

theorem idx_k (b : Fin 2) (h : Fin 16) (t : Fin 2048) (d : Fin 64) :
    idx_main_v2 (idx_main_v6 (idx_main_v7 (ix4 b h t d))) = ix3 b t (headCol 1024 (by omega) h d) := by
  funext a; apply Fin.ext
  have hb := b.isLt; have hh := h.isLt; have ht := t.isLt; have hd := d.isLt
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show 1024 + (((b.val * 2048 + t.val) * 16 + h.val) * 64 + d.val) % 1024 = 1024 + h.val * 64 + d.val; omega

theorem idx_v (b : Fin 2) (h : Fin 16) (t : Fin 2048) (d : Fin 64) :
    idx_main_v3 (idx_main_v8 (idx_main_v9 (ix4 b h t d))) = ix3 b t (headCol 2048 (by omega) h d) := by
  funext a; apply Fin.ext
  have hb := b.isLt; have hh := h.isLt; have ht := t.isLt; have hd := d.isLt
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show 2048 + (((b.val * 2048 + t.val) * 16 + h.val) * 64 + d.val) % 1024 = 2048 + h.val * 64 + d.val; omega

/-- Head h's query row t, read off the sliced, reshaped and transposed projection. -/
theorem q_at (x0 : X0) (x1 : X1) (b : Fin 2) (h : Fin 16) (t : Fin 2048) (d : Fin 64) :
    val_main_v5 (F := Ideal) x0 x1 (ix4 b h t d) = qAt x0 x1 b h t d := by
  rw [val_main_v5_apply, val_main_v4_apply, val_main_v1_apply, idx_q, v0_at]; rfl

theorem k_at (x0 : X0) (x1 : X1) (b : Fin 2) (h : Fin 16) (t : Fin 2048) (d : Fin 64) :
    val_main_v7 (F := Ideal) x0 x1 (ix4 b h t d) = kAt x0 x1 b h t d := by
  rw [val_main_v7_apply, val_main_v6_apply, val_main_v2_apply, idx_k, v0_at]; rfl

theorem v_at (x0 : X0) (x1 : X1) (b : Fin 2) (h : Fin 16) (t : Fin 2048) (d : Fin 64) :
    val_main_v9 (F := Ideal) x0 x1 (ix4 b h t d) = vAt x0 x1 b h t d := by
  rw [val_main_v9_apply, val_main_v8_apply, val_main_v3_apply, idx_v, v0_at]; rfl

/-- The inner products of query row i with key row j. -/
theorem v10_at (x0 : X0) (x1 : X1) (b : Fin 2) (h : Fin 16) (i j : Fin 2048) :
    val_main_v10 (F := Ideal) x0 x1 (ix4 b h i j) = ∑ d : Fin 64, qAt x0 x1 b h i d * kAt x0 x1 b h j d := by
  rw [val_main_v10_apply]
  refine Finset.sum_congr rfl fun d _ => ?_
  have e1 : lidx_main_v10 (ix4 b h i j) d = ix4 b h i d := by
    funext a; match a with | ⟨0, _⟩ => rfl | ⟨1, _⟩ => rfl | ⟨2, _⟩ => rfl | ⟨3, _⟩ => rfl
  have e2 : ridx_main_v10 (ix4 b h i j) d = ix4 b h j d := by
    funext a; match a with | ⟨0, _⟩ => rfl | ⟨1, _⟩ => rfl | ⟨2, _⟩ => rfl | ⟨3, _⟩ => rfl
  rw [e1, e2, q_at, k_at]

/-- The divisor: the square root of 64 is 8. -/
theorem v12_at (i : S2x16x2048x2048.Idx) : val_main_v12 (F := Ideal) i = ((8 : ℝ) : EReal) := by
  rw [val_main_v12_apply, val_main_v11_apply, val_main_cst_apply, Ideal.hostUnary_sqrt_def, Ideal.ofBits_def,
    word_sixtyfour, Ideal.sqrt_coe, if_neg (by norm_num)]
  congr 1
  rw [show (64 : ℝ) = 8 ^ 2 by norm_num, Real.sqrt_sq (by norm_num)]

/-- The scaled inner products: dividing by 8 is multiplying by 1/8. -/
theorem v13_at (x0 : X0) (x1 : X1) (b : Fin 2) (h : Fin 16) (i j : Fin 2048) :
    val_main_v13 (F := Ideal) x0 x1 (ix4 b h i j)
      = (∑ d : Fin 64, qAt x0 x1 b h i d * kAt x0 x1 b h j d) * (((1 / 8 : ℝ) : ℝ) : EReal) := by
  rw [val_main_v13_apply, Ideal.hostDivf_def, v12_at, v10_at, Ideal.div_coe (by norm_num)]

/-- A coordinate below 2048, as a 32-bit word read signed, is itself. -/
theorem toInt_coord (k : Fin 2048) : (BitVec.ofNat 32 k.val).toInt = (k.val : Int) := by
  have hk := k.isLt
  rw [BitVec.toInt_eq_toNat_cond, BitVec.toNat_ofNat, Nat.mod_eq_of_lt (by omega), if_pos (by omega)]

/-- The lower-triangle bit: row coordinate (plus the zero offset) at least the column coordinate, compared signed. -/
theorem tril_bit (i j : Fin 2048) :
    IntOp.cmpi .sge (IntOp.addi (BitVec.ofNat 32 i.val) 0#32) (BitVec.ofNat 32 j.val)
      = if j.val ≤ i.val then 1#1 else 0#1 := by
  have e : IntOp.addi (BitVec.ofNat 32 i.val) 0#32 = BitVec.ofNat 32 i.val := by simp [IntOp.addi]
  rw [e]
  by_cases hji : j.val ≤ i.val
  · rw [if_pos hji]
    exact IntOp.cmpi_sge.mpr (by rw [toInt_coord, toInt_coord]; exact_mod_cast hji)
  · rw [if_neg hji]
    refine eq_zero_of_ne_one fun hc => hji ?_
    have := IntOp.cmpi_sge.mp hc
    rw [toInt_coord, toInt_coord] at this
    exact_mod_cast this

/-- The mask at (i, j): true exactly on the lower triangle j ≤ i. -/
theorem v15_at (i j : Fin 2048) :
    val_main_v15 (F := Ideal) (ix2 i j) = if j.val ≤ i.val then 1#1 else 0#1 := by
  rw [val_main_v15_apply, val_main_call0_v4_apply, val_main_call0_v2_apply, val_main_call0_v0_apply,
    val_main_call0_v1_apply, val_main_call0_c_apply, val_main_call0_v3_apply, val_main_v14_apply, val_main_c_apply,
    val_main_call0_v5_apply, val_main_call0_c_0_apply]
  show Scalar.select (IntOp.cmpi .sge (IntOp.addi (BitVec.ofNat 32 i.val) 0#32) (BitVec.ofNat 32 j.val)) 1#1 0#1 = _
  rw [tril_bit]
  by_cases hji : j.val ≤ i.val
  · rw [if_pos hji, select_one]
  · rw [if_neg hji, select_zero]

/-- The mask broadcast over batch and head. -/
theorem mask_at (b : Fin 2) (h : Fin 16) (i j : Fin 2048) :
    val_main_call1_v0 (F := Ideal) (ix4 b h i j) = if j.val ≤ i.val then 1#1 else 0#1 := by
  rw [val_main_call1_v0_apply, val_main_v16_apply]
  have e : idx_main_v16 (idx_main_call1_v0 (ix4 b h i j)) = ix2 i j := by
    funext a; match a with | ⟨0, _⟩ => rfl | ⟨1, _⟩ => rfl
  rw [e, v15_at]

/-- The masked scores are the specification's. -/
theorem v17_at (x0 : X0) (x1 : X1) (b : Fin 2) (h : Fin 16) (i j : Fin 2048) :
    val_main_v17 (F := Ideal) x0 x1 (ix4 b h i j) = score x0 x1 b h i j := by
  rw [val_main_v17_apply, mask_at, v13_at, val_main_call1_v1_apply, val_main_cst_0_apply, Ideal.ofBits_def, word_neg_inf]
  unfold score
  by_cases hji : j.val ≤ i.val
  · rw [if_pos hji, if_pos hji, select_one]
  · rw [if_neg hji, if_neg hji, select_zero]

/-- Result index (b, h, i) with coordinate k put back on the reduced axis is (b, h, i, k). -/
theorem lift_row (hR : S2x16x2048x2048.Reduces [3] S2x16x2048) (b : Fin 2) (h : Fin 16) (i : Fin 2048)
    (k : Fin (S2x16x2048x2048.size 3)) : hR.lift (ix3 b h i) k = ix4 b h i (⟨k.val, k.isLt⟩ : Fin 2048) := by
  funext c; apply Fin.ext
  fin_cases c <;> rfl

/-- The row maximum from −∞ is the specification's fold. -/
theorem v18_at (x0 : X0) (x1 : X1) (b : Fin 2) (h : Fin 16) (i : Fin 2048) :
    val_main_v18 (F := Ideal) x0 x1 (ix3 b h i) = rowMax x0 x1 b h i := by
  have hR : S2x16x2048x2048.Reduces [3] S2x16x2048 := by decide
  unfold val_main_v18
  rw [Host.reduce_eq_fold_single FloatOps.maximumf _ _ Facts₀.reducesTo_S2x16x2048x2048_S2x16x2048_d3 hR Facts₀.h_S_]
  rw [val_main_cst_1_apply, Ideal.ofBits_def, word_neg_inf]
  unfold rowMax
  have hf : (val_main_v17 (F := Ideal) x0 x1 ∘ hR.lift (ix3 b h i)) = fun j : Fin 2048 => score x0 x1 b h i j :=
    funext fun k => by
      show val_main_v17 (F := Ideal) x0 x1 (hR.lift (ix3 b h i) k) = _
      rw [lift_row, v17_at]
      rfl
  exact congrArg (fun f => Finset.fold max (⊥ : EReal) f (Finset.univ : Finset (Fin 2048))) hf

/-- The maximum of −∞ and the row maximum is the row maximum. -/
theorem v20_at (x0 : X0) (x1 : X1) (b : Fin 2) (h : Fin 16) (i : Fin 2048) :
    val_main_v20 (F := Ideal) x0 x1 (ix3 b h i) = rowMax x0 x1 b h i := by
  rw [val_main_v20_apply, val_main_v19_apply, val_main_cst_2_apply, Ideal.ofBits_def, word_neg_inf, v18_at,
    Ideal.maximumf_def]
  exact max_eq_right bot_le

/-- The row maximum broadcast back along the row. -/
theorem v22_at (x0 : X0) (x1 : X1) (b : Fin 2) (h : Fin 16) (i j : Fin 2048) :
    val_main_v22 (F := Ideal) x0 x1 (ix4 b h i j) = rowMax x0 x1 b h i := by
  rw [val_main_v22_apply, val_main_v21_apply]
  have e : idx_main_v21 (idx_main_v22 (ix4 b h i j)) = ix3 b h i := by
    funext a; match a with | ⟨0, _⟩ => rfl | ⟨1, _⟩ => rfl | ⟨2, _⟩ => rfl
  rw [e, v20_at]

/-- The shifted scores' exponentials. -/
theorem v24_at (x0 : X0) (x1 : X1) (b : Fin 2) (h : Fin 16) (i j : Fin 2048) :
    val_main_v24 (F := Ideal) x0 x1 (ix4 b h i j) = Ideal.exp (score x0 x1 b h i j - rowMax x0 x1 b h i) := by
  rw [val_main_v24_apply, val_main_v23_apply, v17_at, v22_at, Ideal.hostUnary_exp_def, Ideal.subf_def]

/-- A row's exponentials summed from zero. -/
theorem v25_at (x0 : X0) (x1 : X1) (b : Fin 2) (h : Fin 16) (i : Fin 2048) :
    val_main_v25 (F := Ideal) x0 x1 (ix3 b h i)
      = ∑ j : Fin 2048, Ideal.exp (score x0 x1 b h i j - rowMax x0 x1 b h i) := by
  rw [val_main_v25_apply, val_main_cst_3_apply, Ideal.ofBits_def, Ideal.ofBits_zero_f32, zero_add]
  refine Finset.sum_congr rfl fun j _ => ?_
  have e : idx_main_v25 (ix3 b h i) j = ix4 b h i j := by
    funext a; match a with | ⟨0, _⟩ => rfl | ⟨1, _⟩ => rfl | ⟨2, _⟩ => rfl | ⟨3, _⟩ => rfl
  rw [e, v24_at]

/-- The row sum broadcast back along the row. -/
theorem v27_at (x0 : X0) (x1 : X1) (b : Fin 2) (h : Fin 16) (i j : Fin 2048) :
    val_main_v27 (F := Ideal) x0 x1 (ix4 b h i j)
      = ∑ j' : Fin 2048, Ideal.exp (score x0 x1 b h i j' - rowMax x0 x1 b h i) := by
  rw [val_main_v27_apply, val_main_v26_apply]
  have e : idx_main_v26 (idx_main_v27 (ix4 b h i j)) = ix3 b h i := by
    funext a; match a with | ⟨0, _⟩ => rfl | ⟨1, _⟩ => rfl | ⟨2, _⟩ => rfl
  rw [e, v25_at]

/-- The softmax weights. -/
theorem v28_at (x0 : X0) (x1 : X1) (b : Fin 2) (h : Fin 16) (i j : Fin 2048) :
    val_main_v28 (F := Ideal) x0 x1 (ix4 b h i j) = prob x0 x1 b h i j := by
  rw [val_main_v28_apply, v24_at, v27_at, Ideal.hostDivf_def]; rfl

/-- The weighted average of the value rows. -/
theorem v29_at (x0 : X0) (x1 : X1) (b : Fin 2) (h : Fin 16) (i : Fin 2048) (d : Fin 64) :
    val_main_v29 (F := Ideal) x0 x1 (ix4 b h i d) = attn x0 x1 b h i d := by
  rw [val_main_v29_apply]
  unfold attn
  refine Finset.sum_congr rfl fun j _ => ?_
  have e1 : lidx_main_v29 (ix4 b h i d) j = ix4 b h i j := by
    funext a; match a with | ⟨0, _⟩ => rfl | ⟨1, _⟩ => rfl | ⟨2, _⟩ => rfl | ⟨3, _⟩ => rfl
  have e2 : ridx_main_v29 (ix4 b h i d) j = ix4 b h j d := by
    funext a; match a with | ⟨0, _⟩ => rfl | ⟨1, _⟩ => rfl | ⟨2, _⟩ => rfl | ⟨3, _⟩ => rfl
  rw [e1, e2, v28_at, v_at]

/-- Row-major position (b, t, c) of [2, 2048, 1024] is position (b, t, c / 64, c % 64) of [2, 2048, 16, 64], and the
    transpose reads head c / 64. -/
theorem idx_merge (b : Fin 2) (t : Fin 2048) (c : Fin 1024) :
    idx_main_v30 (idx_main_v31 (ix3 b t c))
      = ix4 b (⟨c.val / 64, by have := c.isLt; omega⟩ : Fin 16) t (⟨c.val % 64, Nat.mod_lt _ (by norm_num)⟩ : Fin 64) := by
  funext a; apply Fin.ext
  have hb := b.isLt; have ht := t.isLt; have hc := c.isLt
  match a with
  | ⟨0, _⟩ => show ((b.val * 2048 + t.val) * 1024 + c.val) / 2097152 = b.val; omega
  | ⟨1, _⟩ => show ((b.val * 2048 + t.val) * 1024 + c.val) / 64 % 16 = c.val / 64; omega
  | ⟨2, _⟩ => show ((b.val * 2048 + t.val) * 1024 + c.val) / 1024 % 2048 = t.val; omega
  | ⟨3, _⟩ => show ((b.val * 2048 + t.val) * 1024 + c.val) % 64 = c.val % 64; omega

/-- The heads laid side by side. -/
theorem v31_at (x0 : X0) (x1 : X1) (b : Fin 2) (t : Fin 2048) (c : Fin 1024) :
    val_main_v31 (F := Ideal) x0 x1 (ix3 b t c) = merged x0 x1 b t c := by
  rw [val_main_v31_apply, val_main_v30_apply, idx_merge, v29_at]; rfl

/-- The output projection. -/
theorem v32_at (x0 : X0) (x1 : X1) (x2 : X2) (b : Fin 2) (t : Fin 2048) (o : Fin 1024) :
    val_main_v32 (F := Ideal) x0 x1 x2 (ix3 b t o) = outAt x0 x1 x2 b t o := by
  rw [val_main_v32_apply]
  unfold outAt
  refine Finset.sum_congr rfl fun c _ => ?_
  have e1 : lidx_main_v32 (ix3 b t o) c = ix3 b t c := by
    funext a; match a with | ⟨0, _⟩ => rfl | ⟨1, _⟩ => rfl | ⟨2, _⟩ => rfl
  have e2 : ridx_main_v32 (ix3 b t o) c = ix2 o c := by
    funext a; match a with | ⟨0, _⟩ => rfl | ⟨1, _⟩ => rfl
  rw [e1, e2, v31_at]

/-- The reference program's result is the specification, index by index. -/
theorem ref_is_spec
    (x0 : (⟨Cert.ReferenceIdeal.S2x2048x1024, .f32⟩ : BufTy).Contents (Elt Ideal))
    (x1 : (⟨Cert.ReferenceIdeal.S3072x1024, .f32⟩ : BufTy).Contents (Elt Ideal))
    (x2 : (⟨Cert.ReferenceIdeal.S1024x1024, .f32⟩ : BufTy).Contents (Elt Ideal)) :
    Cert.ReferenceIdeal.Read.val_main_v32 (F := Ideal) x0 x1 x2 = Cert.Attn.G x0 x1 x2 := by
  funext i
  obtain ⟨b, t, o, rfl⟩ : ∃ (b : Fin 2) (t : Fin 2048) (o : Fin 1024), i = ix3 b t o := ⟨i 0, i 1, i 2, eq_ix3 i⟩
  exact v32_at x0 x1 x2 b t o

end Cert.RefSide

end
-- ==== Proof.lean ====
/-
  The certificate of a causal multi-head self-attention: a program of two tiled matrix products around a tiled causal
  attention with an online softmax, against the plain formulation (project, split into heads, scaled scores, causal
  mask, softmax, weighted values, merge heads, project).

  The three frames. The word-level program and its idealization run to the end, faulting nowhere, with the argument
  arrays unchanged: the program is cut at its three kernel regions, each region's body is run at a symbolic grid point
  (the attention body once per pattern of its three conditions, its running maximum, normaliser and accumulator carried
  between the key tiles of a query tile), and the host stretches between them are straight lines of layout operations.
  The reference is a straight line of host operations.

  The idealization's one rewrite names the mask fill: the kernel's large negative literal stands for −∞, which is what
  the reference fills with.

  The value. On the extended reals, with every input finite, the program's result equals the reference's, index by
  index: both are the specification `Cert.Attn.G` of the arguments. On the program's side the attention rows are read
  tile by tile — after the key tiles up to the query's own tile the accumulator over the normaliser is the softmax
  average, because rescaling by exp(m_old − m_new) keeps both relative to the running maximum and every masked score
  contributes exp(−∞) = 0; the factor 1/8 is the reference's division by √64; finiteness makes every unmasked score a
  real number, which the rescaling law needs. On the reference's side the operations are read one at a time.
-/
import proofs.«112669_j738734375717_2_alg».proof.Defs
import proofs.«112669_j738734375717_2_alg».proof.Proof.Gen.Kernel
import proofs.«112669_j738734375717_2_alg».proof.Proof.Gen.KernelIdeal
import proofs.«112669_j738734375717_2_alg».proof.Proof.Gen.ReferenceIdeal
import proofs.«112669_j738734375717_2_alg».proof.Proof.Gen.Pre_finite_inputs
import proofs.«112669_j738734375717_2_alg».proof.Proof.Gen.ReferenceIdeal.Run
import proofs.«112669_j738734375717_2_alg».proof.Proof.Gen.ReferenceIdeal.Read
import proofs.«112669_j738734375717_2_alg».proof.Proof.KRun
import proofs.«112669_j738734375717_2_alg».proof.Proof.KiRun
import proofs.«112669_j738734375717_2_alg».proof.Proof.KiValue
import proofs.«112669_j738734375717_2_alg».proof.Proof.KiFinite
import proofs.«112669_j738734375717_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_p : Cert.frame_Kernel := fun m ρ _ => Cert.Kernel.Fr.frame (F := Bits) m ρ

/-- So does its idealization. -/
theorem frame_pi : Cert.frame_KernelIdeal := fun m ρ _ => Cert.KernelIdeal.Fr.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: the mask fill is named −∞. -/
theorem preserves : Cert.preserves_Kernel_KernelIdeal :=
  IdealRules.named_const.statement Cert.KernelIdeal.κ "neg_big" .f32 0xF149F2CA#32 ⊥ rfl

/-- On the extended reals, from memories agreeing on finite arguments, both programs end with the specification of
    the arguments as their result. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact Cert.KernelIdeal.Val.run_value m ρ
      (fun c => (Cert.Attn.Finite.allReal_of_pre _ _ _ (hpre c)).1)
      (fun c => (Cert.Attn.Finite.allReal_of_pre _ _ _ (hpre c)).2.1)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, Cert.RefSide.ref_is_spec, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
